-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel

variable [Facts]

def fn {F : FTy → Type} [FloatOps F] (main_arg0 : FVec F S8x512x128x128 .f32) (main_arg1 : FVec F S8x512x128x128 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S8x512x128x128 .f32 := Host.absf main_arg1
  let main_cst_0 : FVec F S_ .f32 := constant S_ .f32 0x7F800000#32
  let main_v5 : FVec F S8x512x128x128 .f32 := broadcastInDim S8x512x128x128 ![] bcast_S_S8x512x128x128 main_cst_0
  let main_v6 : IVec S8x512x128x128 1 := cmpf .olt main_v4 main_v5
  let main_c_1 : IVec S_ 1 := constantI S_ 1 1#1
  let main_v7 : IVec S_ 1 := (fun x v => Host.reduce IntOp.andi x v reducesTo_S8x512x128x128_S_d0_1_2_3 h_S_) main_v6 main_c_1
  let main_v8 : IVec S_ 1 := andi main_v3 main_v7
  main_v8
-- ==== Kernel.lean ====
abbrev S8x512x128x128 : Shape := ⟨4, ![8, 512, 128, 128]⟩
abbrev S8x512x16384 : Shape := ⟨3, ![8, 512, 16384]⟩
abbrev S8x512x512 : Shape := ⟨3, ![8, 512, 512]⟩
abbrev S8x512x1 : Shape := ⟨3, ![8, 512, 1]⟩
abbrev S1x512x4096 : Shape := ⟨3, ![1, 512, 4096]⟩
abbrev S1x512x512 : Shape := ⟨3, ![1, 512, 512]⟩
abbrev S1x512x1 : Shape := ⟨3, ![1, 512, 1]⟩
abbrev S512x512 : Shape := ⟨2, ![512, 512]⟩
abbrev S512x1 : Shape := ⟨2, ![512, 1]⟩
abbrev S512x4096 : Shape := ⟨2, ![512, 4096]⟩
abbrev S512 : Shape := ⟨1, ![512]⟩
abbrev S8x512 : Shape := ⟨2, ![8, 512]⟩
abbrev S8x1x512 : Shape := ⟨3, ![8, 1, 512]⟩
abbrev S_ : Shape := ⟨0, ![]⟩

abbrev nBuf : Space → Nat
  | .hbm => 32
  | .vmem => 16
  | .smem => 0
  | _ => 0

abbrev bufTy : (tb : Table) → Fin (tcTables nBuf tb) → BufTy
  | .hbm, ⟨0, _⟩ => ⟨S8x512x128x128, .f32⟩
  | .hbm, ⟨1, _⟩ => ⟨S8x512x128x128, .f32⟩
  | .hbm, ⟨2, _⟩ => ⟨S8x512x16384, .f32⟩
  | .hbm, ⟨3, _⟩ => ⟨S8x512x512, .f32⟩
  | .hbm, ⟨4, _⟩ => ⟨S8x512x1, .f32⟩
  | .hbm, ⟨5, _⟩ => ⟨S8x512, .f32⟩
  | .hbm, ⟨6, _⟩ => ⟨S8x512x16384, .f32⟩
  | .hbm, ⟨7, _⟩ => ⟨S8x512x512, .f32⟩
  | .hbm, ⟨8, _⟩ => ⟨S8x512x1, .f32⟩
  | .hbm, ⟨9, _⟩ => ⟨S8x512, .f32⟩
  | .hbm, ⟨10, _⟩ => ⟨S8x512, .f32⟩
  | .hbm, ⟨11, _⟩ => ⟨S8x512, .f32⟩
  | .hbm, ⟨12, _⟩ => ⟨S8x512x1, .f32⟩
  | .hbm, ⟨13, _⟩ => ⟨S8x1x512, .f32⟩
  | .hbm, ⟨14, _⟩ => ⟨S8x512x512, .f32⟩
  | .hbm, ⟨15, _⟩ => ⟨S8x512x512, .f32⟩
  | .hbm, ⟨16, _⟩ => ⟨S8x512x512, .f32⟩
  | .hbm, ⟨17, _⟩ => ⟨S8x512x512, .f32⟩
  | .hbm, ⟨18, _⟩ => ⟨S8x512x1, .f32⟩
  | .hbm, ⟨19, _⟩ => ⟨S8x1x512, .f32⟩
  | .hbm, ⟨20, _⟩ => ⟨S8x512x512, .f32⟩
  | .hbm, ⟨21, _⟩ => ⟨S8x512x512, .f32⟩
  | .hbm, ⟨22, _⟩ => ⟨S8x512x512, .f32⟩
  | .hbm, ⟨23, _⟩ => ⟨S8x512x512, .f32⟩
  | .hbm, ⟨24, _⟩ => ⟨S8x512x512, .f32⟩
  | .hbm, ⟨25, _⟩ => ⟨S8x512x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .local _ .vmem, ⟨0, _⟩ => ⟨S1x512x4096, .f32⟩
  | .local _ .vmem, ⟨1, _⟩ => ⟨S1x512x4096, .f32⟩
  | .local _ .vmem, ⟨2, _⟩ => ⟨S1x512x512, .f32⟩
  | .local _ .vmem, ⟨3, _⟩ => ⟨S1x512x512, .f32⟩
  | .local _ .vmem, ⟨4, _⟩ => ⟨S1x512x1, .f32⟩
  | .local _ .vmem, ⟨5, _⟩ => ⟨S1x512x1, .f32⟩
  | .local _ .vmem, ⟨6, _⟩ => ⟨S512x512, .f32⟩
  | .local _ .vmem, ⟨7, _⟩ => ⟨S512x1, .f32⟩
  | .local _ .vmem, ⟨8, _⟩ => ⟨S1x512x4096, .f32⟩
  | .local _ .vmem, ⟨9, _⟩ => ⟨S1x512x4096, .f32⟩
  | .local _ .vmem, ⟨10, _⟩ => ⟨S1x512x512, .f32⟩
  | .local _ .vmem, ⟨11, _⟩ => ⟨S1x512x512, .f32⟩
  | .local _ .vmem, ⟨12, _⟩ => ⟨S1x512x1, .f32⟩
  | .local _ .vmem, ⟨13, _⟩ => ⟨S1x512x1, .f32⟩
  | .local _ .vmem, ⟨14, _⟩ => ⟨S512x512, .f32⟩
  | .local _ .vmem, ⟨15, _⟩ => ⟨S512x1, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_cst_0 : Ref sig .tc := ⟨.hbm, 28, rfl⟩
abbrev main_v23 : Ref sig .tc := ⟨.hbm, 29, rfl⟩
abbrev main_cst_1 : Ref sig .tc := ⟨.hbm, 30, rfl⟩
abbrev main_v24 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_12 : BitVec 32 := 0#32
  let v22 : BitVec 1 := Scalar.cmpi .ne v21 c0_i32_12
  v22

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_12 : BitVec 32 := 0#32
  let v22 : BitVec 1 := Scalar.cmpi .ne v21 c0_i32_12
  v22

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S8x512x128x128_S8x512x16384 : S8x512x128x128.ShapeCasts S8x512x16384
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  bitsLt_bf16_f32 : FTy.bits .bf16 < FTy.bits .f32
  reduces_S512x4096_S512 : S512x4096.Reduces [1] S512
  shapeCasts_S512_S512x1 : S512.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  shapeCasts_S8x512x1_S8x512 : S8x512x1.ShapeCasts S8x512
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  bcast_S8x512x1_S8x512x512_0_1_2 : S8x512x1.BroadcastsInDim S8x512x512 (![0, 1, 2] : Fin 3 → Fin S8x512x512.rank)
  bcast_S8x1x512_S8x512x512_0_1_2 : S8x1x512.BroadcastsInDim S8x512x512 (![0, 1, 2] : Fin 3 → Fin S8x512x512.rank)
  reducesTo_S8x512x512_S_d0_1_2 : S8x512x512.ReducesTo [0, 1, 2] S_
  h_S_ : 0 < S_.numel
  dot_S512x4096_S512x4096_S512x512_1_1_0_0_n_n_wf : DotDims.WF S512x4096 S512x4096 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x4096.size a ≤ S8x512x16384.size a
  hwx0_0 : ∀ i : grid0.Coords, EltTy.bits .f32 = 32 ∨ (Rect.block (s := S8x512x16384) S1x512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S8x512x512.size a
  hwx0_1 : ∀ i : grid0.Coords, EltTy.bits .f32 = 32 ∨ (Rect.block (s := S8x512x512) S1x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x1.size a ≤ S8x512x1.size a
  hwx0_2 : ∀ i : grid0.Coords, EltTy.bits .f32 = 32 ∨ (Rect.block (s := S8x512x1) S1x512x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x4096.size a ≤ S8x512x16384.size a
  hwx1_0 : ∀ i : grid1.Coords, EltTy.bits .f32 = 32 ∨ (Rect.block (s := S8x512x16384) S1x512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x512x512.size a ≤ S8x512x512.size a
  hwx1_1 : ∀ i : grid1.Coords, EltTy.bits .f32 = 32 ∨ (Rect.block (s := S8x512x512) S1x512x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512x1.size a ≤ S8x512x1.size a
  hwx1_2 : ∀ i : grid1.Coords, EltTy.bits .f32 = 32 ∨ (Rect.block (s := S8x512x1) S1x512x1.size (cc1_transform_2 i) (hinb1_2 i)).WholeWords (EltTy.packing .f32)

variable [Facts₀]

def dot_S512x4096_S512x4096_S512x512_1_1_0_0_n_n : DotDims S512x4096 S512x4096 S512x512 where
  lhsContracting := [1]
  rhsContracting := [1]
  lhsNonContracting := [0]
  rhsNonContracting := [0]
  lhsBatch := []
  rhsBatch := []
  wf := dot_S512x4096_S512x4096_S512x512_1_1_0_0_n_n_wf

abbrev win0_0 : Pipeline.Window sig grid0 :=
  Pipeline.Window.ofSpec (Memref.whole main_v0) S1x512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S1x512x512.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S1x512x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S1x512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4_0) S1x512x512.size cc1_transform_1 reads1_1 true false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4_1) S1x512x1.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

class Facts : Prop extends Facts₀ where

variable [Facts]
-- ==== ReferenceIdeal.lean ====
abbrev S8x512x128x128 : Shape := ⟨4, ![8, 512, 128, 128]⟩
abbrev S8x512x16384 : Shape := ⟨3, ![8, 512, 16384]⟩
abbrev S8x512x512 : Shape := ⟨3, ![8, 512, 512]⟩
abbrev S_ : Shape := ⟨0, ![]⟩
abbrev S8x512 : Shape := ⟨2, ![8, 512]⟩
abbrev S8x512x1 : Shape := ⟨3, ![8, 512, 1]⟩
abbrev S8x1x512 : Shape := ⟨3, ![8, 1, 512]⟩

abbrev nBuf : Space → Nat
  | .hbm => 34
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S8x512x128x128, .f32⟩
  | .hbm, ⟨2, _⟩ => ⟨S8x512x16384, .f32⟩
  | .hbm, ⟨3, _⟩ => ⟨S8x512x512, .f32⟩
  | .hbm, ⟨4, _⟩ => ⟨S8x512x16384, .f32⟩
  | .hbm, ⟨5, _⟩ => ⟨S_, .f32⟩
  | .hbm, ⟨6, _⟩ => ⟨S8x512, .f32⟩
  | .hbm, ⟨7, _⟩ => ⟨S8x512, .f32⟩
  | .hbm, ⟨8, _⟩ => ⟨S8x512x1, .f32⟩
  | .hbm, ⟨9, _⟩ => ⟨S8x1x512, .f32⟩
  | .hbm, ⟨10, _⟩ => ⟨S8x512x512, .f32⟩
  | .hbm, ⟨11, _⟩ => ⟨S8x512x512, .f32⟩
  | .hbm, ⟨12, _⟩ => ⟨S8x512x512, .f32⟩
  | .hbm, ⟨13, _⟩ => ⟨S8x512x512, .f32⟩
  | .hbm, ⟨14, _⟩ => ⟨S8x512x16384, .f32⟩
  | .hbm, ⟨15, _⟩ => ⟨S8x512x512, .f32⟩
  | .hbm, ⟨16, _⟩ => ⟨S8x512x16384, .f32⟩
  | .hbm, ⟨17, _⟩ => ⟨S_, .f32⟩
  | .hbm, ⟨18, _⟩ => ⟨S8x512, .f32⟩
  | .hbm, ⟨19, _⟩ => ⟨S8x512, .f32⟩
  | .hbm, ⟨20, _⟩ => ⟨S8x512x1, .f32⟩
  | .hbm, ⟨21, _⟩ => ⟨S8x1x512, .f32⟩
  | .hbm, ⟨22, _⟩ => ⟨S8x512x512, .f32⟩
  | .hbm, ⟨23, _⟩ => ⟨S8x512x512, .f32⟩
  | .hbm, ⟨24, _⟩ => ⟨S8x512x512, .f32⟩
  | .hbm, ⟨25, _⟩ => ⟨S8x512x512, .f32⟩
  | .hbm, ⟨26, _⟩ => ⟨S8x512x512, .f32⟩
  | .hbm, ⟨27, _⟩ => ⟨S8x512x512, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst_1 : Ref sig .tc := ⟨.hbm, 28, rfl⟩
abbrev main_v24 : Ref sig .tc := ⟨.hbm, 29, rfl⟩
abbrev main_cst_2 : Ref sig .tc := ⟨.hbm, 30, rfl⟩
abbrev main_v25 : Ref sig .tc := ⟨.hbm, 31, rfl⟩
abbrev main_cst_3 : Ref sig .tc := ⟨.hbm, 32, rfl⟩
abbrev main_v26 : Ref sig .tc := ⟨.hbm, 33, rfl⟩

abbrev nD : Nat := 1
abbrev τ : Topo := Topo.v7x

variable {F : FTy → Type} [FloatOps F]

class Facts₀ : Prop where
  shapeCasts_S8x512x128x128_S8x512x16384 : S8x512x128x128.ShapeCasts S8x512x16384
  reducesTo_S8x512x16384_S8x512_d2 : S8x512x16384.ReducesTo [2] S8x512
  h_S_ : 0 < S_.numel
  bcast_S8x512_S8x512x1_0_1 : S8x512.BroadcastsInDim S8x512x1 (![0, 1] : Fin 2 → Fin S8x512x1.rank)
  bcast_S8x512_S8x1x512_0_2 : S8x512.BroadcastsInDim S8x1x512 (![0, 2] : Fin 2 → Fin S8x1x512.rank)
  bcast_S8x512x1_S8x512x512_0_1_2 : S8x512x1.BroadcastsInDim S8x512x512 (![0, 1, 2] : Fin 3 → Fin S8x512x512.rank)
  bcast_S8x1x512_S8x512x512_0_1_2 : S8x1x512.BroadcastsInDim S8x512x512 (![0, 1, 2] : Fin 3 → Fin S8x512x512.rank)
  reducesTo_S8x512x512_S_d0_1_2 : S8x512x512.ReducesTo [0, 1, 2] S_
  dot_S8x512x16384_S8x512x16384_S8x512x512_2_2_1_1_0_0_wf : DotDims.WF S8x512x16384 S8x512x16384 S8x512x512 [2] [2] [1] [1] [0] [0]

variable [Facts₀]

def dot_S8x512x16384_S8x512x16384_S8x512x512_2_2_1_1_0_0 : DotDims S8x512x16384 S8x512x16384 S8x512x512 where
  lhsContracting := [2]
  rhsContracting := [2]
  lhsNonContracting := [1]
  rhsNonContracting := [1]
  lhsBatch := [0]
  rhsBatch := [0]
  wf := dot_S8x512x16384_S8x512x16384_S8x512x512_2_2_1_1_0_0_wf

class Facts : Prop extends Facts₀ where

variable [Facts]
-- ==== Proof.FrameKernel.Cases.lean ====
/-
  The gram kernel's body has two conditionals on the second grid coordinate k (of 4): the accumulators are zeroed
  when k = 0, and copied out to the two output blocks when k = 3. A grid point t of the 8 x 4 grid has k = t mod 4,
  so a point is in exactly one of three cases: first (k = 0), middle (k = 1, 2), last (k = 3). Both launches of the
  kernel run the same function on different buffers.
-/
import proofs.«115151_j57501022159376_2_alg».proof.Proof.Gen.Kernel.Launch
import proofs.«115151_j57501022159376_2_alg».proof.Proof.Gen.Kernel.Skeleton
import proofs.«115151_j57501022159376_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulators are zeroed at this point: its second coordinate is 0 (the body's first conditional, its
    integer chain spelt out). -/
abbrev isFirst (i : grid0.Coords) : Prop :=
  (Scalar.cmpi .ne (Scalar.extui (Scalar.cmpi .eq (BitVec.ofNat 32 (i 1).val) 0#32)) 0#32) = 1#1
/-- The accumulators are copied out at this point: its second coordinate is 3 (the body's second conditional). -/
abbrev isLast (i : grid0.Coords) : Prop := k0_cond2 i = 1#1

/-- Point t zeroes the accumulators exactly when t ≡ 0 (mod 4). -/
theorem isFirst_iff : ∀ t : Fin grid0.N, isFirst (grid0.coords t) ↔ t.val % 4 = 0 := by decide +kernel
/-- Point t copies the accumulators out exactly when t ≡ 3 (mod 4). -/
theorem isLast_iff : ∀ t : Fin grid0.N, isLast (grid0.coords t) ↔ t.val % 4 = 3 := by decide +kernel

set_option maxRecDepth 65536 in
/-- The second launch runs the same function as the first. -/
theorem second_eq_first : cc1__gram_kernel (F := F) = cc0__gram_kernel (F := F) := rfl

end Cert.Kernel.Fr

end
-- ==== Proof.FrameKernel.RunFirst.lean ====
/-
  The body at a first point (k = 0): the first conditional is taken, the second is not. Whatever the two
  accumulators held, the body stores zeros into them and then adds the block's Gram product and row sums of
  squares; it touches neither output block.
-/
import proofs.«115151_j57501022159376_2_alg».proof.Proof.FrameKernel.Cases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a first point leaves in the two accumulators (as pieces, last first), with the run: from the input
    block at x0, the output blocks at any contents (handed back untouched) and the accumulators at anything, the
    body runs to its end holding the input and outputs as they were and each accumulator with its pieces written. -/
noncomputable def runFirst (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i)
    (x0 : Vec F S1x512x4096 .f32) :
    Σ' (L5 : List (View.Piece (Elt F) S512x512 .f32)), { L6 : List (View.Piece (Elt F) S512x1 .f32) //
      ∀ (o3 : Vec F S1x512x512 .f32) (o4 : Vec F S1x512x1 .f32) (E : Set ℕ) (K : PUnit → sProp 𝕄),
        iprop(owns (c : Thread nD τ) arg2 fullShare x0 ∗ owns (c : Thread nD τ) arg3 fullShare o3 ∗ owns (c : Thread nD τ) arg4 fullShare o4
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare o3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg2 harg2 arg3 harg3 arg4 harg4 arg5 harg5 arg6 harg6) K } := by
  refine ⟨?_, ?_, fun o3 o4 E K => ?run⟩
  case run =>
    simp only [cc0__gram_kernel_eq_skeleton]; unfold cc0__gram_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.Fr

end
-- ==== Proof.FrameKernel.RunMid.lean ====
/-
  The body at a middle point (k = 1, 2): neither conditional is taken. From the input block x0 and the two
  accumulators at the contents the point before left (a5, a6), the body adds the block's Gram product and row sums
  of squares into the accumulators and touches neither output block.
-/
import proofs.«115151_j57501022159376_2_alg».proof.Proof.FrameKernel.Cases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a middle point leaves in the two accumulators (as pieces, last first), with the run: from the input
    block at x0, the output blocks at any contents (handed back untouched) and the accumulators at a5, a6, the body
    runs to its end holding the input and outputs as they were and each accumulator with its pieces written. -/
noncomputable def runMid (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i)
    (x0 : Vec F S1x512x4096 .f32) (a5 : Vec F S512x512 .f32) (a6 : Vec F S512x1 .f32) :
    Σ' (L5 : List (View.Piece (Elt F) S512x512 .f32)), { L6 : List (View.Piece (Elt F) S512x1 .f32) //
      ∀ (o3 : Vec F S1x512x512 .f32) (o4 : Vec F S1x512x1 .f32) (E : Set ℕ) (K : PUnit → sProp 𝕄),
        iprop(owns (c : Thread nD τ) arg2 fullShare x0 ∗ owns (c : Thread nD τ) arg3 fullShare o3 ∗ owns (c : Thread nD τ) arg4 fullShare o4
            ∗ owns (c : Thread nD τ) arg5 fullShare a5 ∗ owns (c : Thread nD τ) arg6 fullShare a6
            ∗ (iprop(owns (c : Thread nD τ) arg2 fullShare x0 ∗ owns (c : Thread nD τ) arg3 fullShare o3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg2 harg2 arg3 harg3 arg4 harg4 arg5 harg5 arg6 harg6) K } := by
  refine ⟨?_, ?_, fun o3 o4 E K => ?run⟩
  case run =>
    simp only [cc0__gram_kernel_eq_skeleton]; unfold cc0__gram_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.Kernel.Fr

end
-- ==== Proof.FrameKernel.RunLast.lean ====
/-
  The body at a last point (k = 3): the first conditional is not taken, the second is. From the input block x0
  and the accumulators at what the point before left (a5, a6), the body adds the block's Gram product and row sums
  of squares into the accumulators and then copies each accumulator into its output block.
-/
import proofs.«115151_j57501022159376_2_alg».proof.Proof.FrameKernel.Cases

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a last point leaves in the two output blocks and the two accumulators (as pieces, last first), with
    the run: from the input block at x0, the output blocks at anything and the accumulators at a5, a6, the body runs
    to its end holding the input as it was and each of the four other buffers with its pieces written. -/
noncomputable def runLast (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i)
    (x0 : Vec F S1x512x4096 .f32) (a5 : Vec F S512x512 .f32) (a6 : Vec F S512x1 .f32) :
    Σ' (L3 : List (View.Piece (Elt F) S1x512x512 .f32)) (L4 : List (View.Piece (Elt F) S1x512x1 .f32))
       (L5 : List (View.Piece (Elt F) S512x512 .f32)), { L6 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare a5 ∗ owns (c : Thread nD τ) arg6 fullShare a6
            ∗ (iprop(owns (c : Thread nD τ) arg2 fullShare x0
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg2 harg2 arg3 harg3 arg4 harg4 arg5 harg5 arg6 harg6) K } := by
  refine ⟨?_, ?_, ?_, ?_, fun E K => ?run⟩
  case run =>
    simp only [cc0__gram_kernel_eq_skeleton]; unfold cc0__gram_kernel_skel
    unfold owns
    iintro ⟨⟨%f2, %hf2, H2⟩, ⟨%d3, %f3, -, H3⟩, ⟨%d4, %f4, -, H4⟩, ⟨%f5, %hf5, H5⟩, ⟨%f6, %hf6, H6⟩, Hk⟩
    obtain rfl := harg2.eq_unread hf2
    obtain rfl := harg5.eq_unread hf5; obtain rfl := harg6.eq_unread hf6
    sl_exec (disch := first | exact hc1 | exact hc2)
    sl_step
    iapply Hk
    isplitl [H2]
    · iexists _; isplitr; · ipureintro; exact harg2.read_unread _
      iexact H2
    isplitl [H3]; · iexists _; iexact H3
    isplitl [H4]; · iexists _; iexact H4
    isplitl [H5]; · iexists _; iexact H5
    iexists _; iexact H6

end Cert.Kernel.Fr

end
-- ==== Proof.FrameKernel.Leaves.lean ====
/-
  What the gram kernel's body leaves in its two accumulators and two output blocks in each of its three cases,
  as the canonical contents of the stores the run found (the first piece of the list covering an index gives its
  value), and that in each case the stores into a buffer cover it. Stated over any whole buffers, so both launches
  of the kernel use them.
-/
import proofs.«115151_j57501022159376_2_alg».proof.Proof.FrameKernel.RunFirst
import proofs.«115151_j57501022159376_2_alg».proof.Proof.FrameKernel.RunMid
import proofs.«115151_j57501022159376_2_alg».proof.Proof.FrameKernel.RunLast

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, as the canonical contents of its stores -/

def firstG (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) : Vec F S512x512 .f32 :=
  View.canon (runFirst c i arg2 harg2 arg3 harg3 arg4 harg4 arg5 harg5 arg6 harg6 hc1 hc2 x0).1
def firstS (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) : Vec F S512x1 .f32 :=
  View.canon (runFirst c i arg2 harg2 arg3 harg3 arg4 harg4 arg5 harg5 arg6 harg6 hc1 hc2 x0).2.1
theorem firstG_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) (y : S512x512.Idx) :
    ∃ pc ∈ (runFirst c i arg2 harg2 arg3 harg3 arg4 harg4 arg5 harg5 arg6 harg6 hc1 hc2 x0).1, y ∈ pc.1.set :=
  View.cover_of_tiledL _ S512x512.size (by sl_kernel_rfl) y
theorem firstS_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) (y : S512x1.Idx) :
    ∃ pc ∈ (runFirst c i arg2 harg2 arg3 harg3 arg4 harg4 arg5 harg5 arg6 harg6 hc1 hc2 x0).2.1, y ∈ pc.1.set :=
  View.cover_of_tiledL _ S512x1.size (by sl_kernel_rfl) y

def midG (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) : Vec F S512x512 .f32 :=
  View.canon (runMid c i arg2 harg2 arg3 harg3 arg4 harg4 arg5 harg5 arg6 harg6 hc1 hc2 x0 a5 a6).1
def midS (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) : Vec F S512x1 .f32 :=
  View.canon (runMid c i arg2 harg2 arg3 harg3 arg4 harg4 arg5 harg5 arg6 harg6 hc1 hc2 x0 a5 a6).2.1
theorem midG_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) (y : S512x512.Idx) :
    ∃ pc ∈ (runMid c i arg2 harg2 arg3 harg3 arg4 harg4 arg5 harg5 arg6 harg6 hc1 hc2 x0 a5 a6).1, y ∈ pc.1.set :=
  View.cover_of_tiledL _ S512x512.size (by sl_kernel_rfl) y
theorem midS_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) (y : S512x1.Idx) :
    ∃ pc ∈ (runMid c i arg2 harg2 arg3 harg3 arg4 harg4 arg5 harg5 arg6 harg6 hc1 hc2 x0 a5 a6).2.1, y ∈ pc.1.set :=
  View.cover_of_tiledL _ S512x1.size (by sl_kernel_rfl) y

def lastOutG (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) : Vec F S1x512x512 .f32 :=
  View.canon (runLast c i arg2 harg2 arg3 harg3 arg4 harg4 arg5 harg5 arg6 harg6 hc1 hc2 x0 a5 a6).1
def lastOutS (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) : Vec F S1x512x1 .f32 :=
  View.canon (runLast c i arg2 harg2 arg3 harg3 arg4 harg4 arg5 harg5 arg6 harg6 hc1 hc2 x0 a5 a6).2.1
def lastG (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) : Vec F S512x512 .f32 :=
  View.canon (runLast c i arg2 harg2 arg3 harg3 arg4 harg4 arg5 harg5 arg6 harg6 hc1 hc2 x0 a5 a6).2.2.1
def lastS (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) : Vec F S512x1 .f32 :=
  View.canon (runLast c i arg2 harg2 arg3 harg3 arg4 harg4 arg5 harg5 arg6 harg6 hc1 hc2 x0 a5 a6).2.2.2.1
theorem lastOutG_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) (y : S1x512x512.Idx) :
    ∃ pc ∈ (runLast c i arg2 harg2 arg3 harg3 arg4 harg4 arg5 harg5 arg6 harg6 hc1 hc2 x0 a5 a6).1, y ∈ pc.1.set :=
  View.cover_of_tiledL _ S1x512x512.size (by sl_kernel_rfl) y
theorem lastOutS_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) (y : S1x512x1.Idx) :
    ∃ pc ∈ (runLast c i arg2 harg2 arg3 harg3 arg4 harg4 arg5 harg5 arg6 harg6 hc1 hc2 x0 a5 a6).2.1, y ∈ pc.1.set :=
  View.cover_of_tiledL _ S1x512x1.size (by sl_kernel_rfl) y
theorem lastG_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) (y : S512x512.Idx) :
    ∃ pc ∈ (runLast c i arg2 harg2 arg3 harg3 arg4 harg4 arg5 harg5 arg6 harg6 hc1 hc2 x0 a5 a6).2.2.1, y ∈ pc.1.set :=
  View.cover_of_tiledL _ S512x512.size (by sl_kernel_rfl) y
theorem lastS_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) (y : S512x1.Idx) :
    ∃ pc ∈ (runLast c i arg2 harg2 arg3 harg3 arg4 harg4 arg5 harg5 arg6 harg6 hc1 hc2 x0 a5 a6).2.2.2.1, y ∈ pc.1.set :=
  View.cover_of_tiledL _ S512x1.size (by sl_kernel_rfl) y

end Cert.Kernel.Fr

end
-- ==== Proof.FrameKernel.Region0.lean ====
/-
  The first launch of the gram kernel as a region of the program: what its two accumulators and two output blocks
  hold after each grid point, the invariant that carries the accumulators from a point to the next, the proof data
  and the body's obligation at every point — all at any contents `V` of the TensorCore's buffers at the region's entry.

  Grid point t = 4 b + k works on block k of batch b. After it the accumulators hold what the case of k leaves:
  at k = 0 the block's products over zeros, at k > 0 the block's products added to what point t - 1 left. At k = 3
  the two output blocks receive copies of the accumulators; at the other points they are idle.
-/
import proofs.«115151_j57501022159376_2_alg».proof.Proof.FrameKernel.Leaves

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R0

variable (V : (c : Dev nD) → (b : Ref sig .tc) → Buf (Elt F) ((c : Thread nD τ).loc b))

/-! ## The buffers the body is called with -/

abbrev mIn (t : Fin cfg0.N) : Memref sig .tc .vmem S1x512x4096 .f32 := win0_0.stage (cfg0.slots t 0)
abbrev hIn (t : Fin cfg0.N) : (mIn t).IsWhole := hstage0_0 ((cfg0.slots t 0).cast nbuf0_0)
abbrev mG (t : Fin cfg0.N) : Memref sig .tc .vmem S1x512x512 .f32 := win0_1.stage (cfg0.slots t 1)
abbrev hG (t : Fin cfg0.N) : (mG t).IsWhole := hstage0_1 ((cfg0.slots t 1).cast nbuf0_1)
abbrev mS (t : Fin cfg0.N) : Memref sig .tc .vmem S1x512x1 .f32 := win0_2.stage (cfg0.slots t 2)
abbrev hS (t : Fin cfg0.N) : (mS t).IsWhole := hstage0_2 ((cfg0.slots t 2).cast nbuf0_2)
/-- The two accumulators: scoped buffers of the kernel's own. -/
abbrev accG : Memref sig .tc .vmem S512x512 .f32 := Memref.whole cc0_scratch0
abbrev accS : Memref sig .tc .vmem S512x1 .f32 := Memref.whole cc0_scratch1

theorem first_iff : ∀ t : Fin cfg0.N, isFirst (grid0.coords t) ↔ t.val % 4 = 0 := isFirst_iff
theorem last_iff : ∀ t : Fin cfg0.N, isLast (grid0.coords t) ↔ t.val % 4 = 3 := isLast_iff

/-- The input window's block at point `t`, read off its array as the region finds it. -/
def iblk (c : Dev nD) (t : Fin cfg0.N) : ((cfg0.win 0).xblock (cfg0.grid.coords t)).Idx → Elt F (cfg0.win 0).elt :=
  ((cfg0.win 0).blk t).view.read (Elt F) (V c (Pipeline.arrRef spec0 0))

/-! ## The accumulators after each point -/

/-- What the two accumulators hold after the body at position `n`: the case of `n mod 4` run on the point's block,
    over what position `n - 1` left when the case reads the accumulators. -/
def accAt (c : Dev nD) : (n : ℕ) → n < cfg0.N → Vec F S512x512 .f32 × Vec F S512x1 .f32
  | 0, hn =>
    (firstG c (grid0.coords ⟨0, hn⟩) (mIn ⟨0, hn⟩) (hIn ⟨0, hn⟩) (mG ⟨0, hn⟩) (hG ⟨0, hn⟩) (mS ⟨0, hn⟩) (hS ⟨0, hn⟩) accG (Memref.isWhole_whole _) accS (Memref.isWhole_whole _) ((first_iff ⟨0, hn⟩).mpr (Nat.zero_mod _)) (fun h => absurd ((last_iff ⟨0, hn⟩).mp h) (by dsimp only; omega)) (iblk V c ⟨0, hn⟩),
     firstS c (grid0.coords ⟨0, hn⟩) (mIn ⟨0, hn⟩) (hIn ⟨0, hn⟩) (mG ⟨0, hn⟩) (hG ⟨0, hn⟩) (mS ⟨0, hn⟩) (hS ⟨0, hn⟩) accG (Memref.isWhole_whole _) accS (Memref.isWhole_whole _) ((first_iff ⟨0, hn⟩).mpr (Nat.zero_mod _)) (fun h => absurd ((last_iff ⟨0, hn⟩).mp h) (by dsimp only; omega)) (iblk V c ⟨0, hn⟩))
  | n + 1, hn =>
    if h0 : (n + 1) % 4 = 0 then
      (firstG c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) ((first_iff ⟨n + 1, hn⟩).mpr h0) (fun h => absurd ((last_iff ⟨n + 1, hn⟩).mp h) (by dsimp only; omega)) (iblk V c ⟨n + 1, hn⟩),
       firstS c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) ((first_iff ⟨n + 1, hn⟩).mpr h0) (fun h => absurd ((last_iff ⟨n + 1, hn⟩).mp h) (by dsimp only; omega)) (iblk V c ⟨n + 1, hn⟩))
    else if h3 : (n + 1) % 4 = 3 then
      (lastG c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) ((last_iff ⟨n + 1, hn⟩).mpr h3) (iblk V c ⟨n + 1, hn⟩) (accAt c n (Nat.lt_of_succ_lt hn)).1 (accAt c n (Nat.lt_of_succ_lt hn)).2,
       lastS c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) ((last_iff ⟨n + 1, hn⟩).mpr h3) (iblk V c ⟨n + 1, hn⟩) (accAt c n (Nat.lt_of_succ_lt hn)).1 (accAt c n (Nat.lt_of_succ_lt hn)).2)
    else
      (midG c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) (fun h => h3 ((last_iff ⟨n + 1, hn⟩).mp h)) (iblk V c ⟨n + 1, hn⟩) (accAt c n (Nat.lt_of_succ_lt hn)).1 (accAt c n (Nat.lt_of_succ_lt hn)).2,
       midS c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) (fun h => h3 ((last_iff ⟨n + 1, hn⟩).mp h)) (iblk V c ⟨n + 1, hn⟩) (accAt c n (Nat.lt_of_succ_lt hn)).1 (accAt c n (Nat.lt_of_succ_lt hn)).2)

/-- The accumulators at the point before `t` (position `t - 1`). -/
abbrev prevAcc (c : Dev nD) (t : Fin cfg0.N) : Vec F S512x512 .f32 × Vec F S512x1 .f32 :=
  accAt V c (t.val - 1) (Nat.lt_of_le_of_lt (Nat.sub_le _ _) t.isLt)

theorem accAt_first (c : Dev nD) (t : Fin cfg0.N) (h0 : t.val % 4 = 0) (h3 : ¬t.val % 4 = 3) :
    accAt V c t.val t.isLt =
      (firstG c (grid0.coords t) (mIn t) (hIn t) (mG t) (hG t) (mS t) (hS t) accG (Memref.isWhole_whole _) accS (Memref.isWhole_whole _) ((first_iff t).mpr h0) (fun h => h3 ((last_iff t).mp h)) (iblk V c t),
       firstS c (grid0.coords t) (mIn t) (hIn t) (mG t) (hG t) (mS t) (hS t) accG (Memref.isWhole_whole _) accS (Memref.isWhole_whole _) ((first_iff t).mpr h0) (fun h => h3 ((last_iff t).mp h)) (iblk V c t)) := by
  obtain ⟨n, hn⟩ := t
  cases n with
  | zero => exact rfl
  | succ n => exact (dif_pos h0).trans rfl

theorem accAt_mid (c : Dev nD) (t : Fin cfg0.N) (h0 : ¬t.val % 4 = 0) (h3 : ¬t.val % 4 = 3) :
    accAt V c t.val t.isLt =
      (midG c (grid0.coords t) (mIn t) (hIn t) (mG t) (hG t) (mS t) (hS t) accG (Memref.isWhole_whole _) accS (Memref.isWhole_whole _) (fun h => h0 ((first_iff t).mp h)) (fun h => h3 ((last_iff t).mp h)) (iblk V c t) (prevAcc V c t).1 (prevAcc V c t).2,
       midS c (grid0.coords t) (mIn t) (hIn t) (mG t) (hG t) (mS t) (hS t) accG (Memref.isWhole_whole _) accS (Memref.isWhole_whole _) (fun h => h0 ((first_iff t).mp h)) (fun h => h3 ((last_iff t).mp h)) (iblk V c t) (prevAcc V c t).1 (prevAcc V c t).2) := by
  obtain ⟨n, hn⟩ := t
  cases n with
  | zero => exact absurd (Nat.zero_mod _) h0
  | succ n => exact (dif_neg h0).trans ((dif_neg h3).trans rfl)

theorem accAt_last (c : Dev nD) (t : Fin cfg0.N) (h0 : ¬t.val % 4 = 0) (h3 : t.val % 4 = 3) :
    accAt V c t.val t.isLt =
      (lastG c (grid0.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2,
       lastS c (grid0.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2) := by
  obtain ⟨n, hn⟩ := t
  cases n with
  | zero => exact absurd (Nat.zero_mod _) h0
  | succ n => exact (dif_neg h0).trans ((dif_pos h3).trans rfl)

/-- What the two output blocks hold after the body at point `t`: at a last point the copies of the accumulators;
    elsewhere the windows are idle and nothing consults this. -/
def outAt (c : Dev nD) (t : Fin cfg0.N) : Vec F S1x512x512 .f32 × Vec F S1x512x1 .f32 :=
  if h3 : t.val % 4 = 3 then
    (lastOutG c (grid0.coords t) (mIn t) (hIn t) (mG t) (hG t) (mS t) (hS t) accG (Memref.isWhole_whole _) accS (Memref.isWhole_whole _) (fun h => absurd ((first_iff t).mp h) (by omega)) ((last_iff t).mpr h3) (iblk V c t) (prevAcc V c t).1 (prevAcc V c t).2,
     lastOutS c (grid0.coords t) (mIn t) (hIn t) (mG t) (hG t) (mS t) (hS t) accG (Memref.isWhole_whole _) accS (Memref.isWhole_whole _) (fun h => absurd ((first_iff t).mp h) (by omega)) ((last_iff t).mpr h3) (iblk V c t) (prevAcc V c t).1 (prevAcc V c t).2)
  else (View.canon [], View.canon [])

theorem outAt_last (c : Dev nD) (t : Fin cfg0.N) (h0 : ¬t.val % 4 = 0) (h3 : t.val % 4 = 3) :
    outAt V c t =
      (lastOutG c (grid0.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2,
       lastOutS c (grid0.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2) := by
  unfold outAt; exact dif_pos h3

/-! ## The invariant between points -/

/-- The scoped buffers of the core that are neither a staging buffer of this launch nor one of its accumulators
    (the other launch's), each whole at some contents. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's invariant before position `n`: before the first point every scoped buffer the launch does not stage
    at anything and the generator register at some state; afterwards the same with the two accumulators at what the
    point before left. -/
def Inv (c : Dev nD) : (n : ℕ) → n ≤ cfg0.N → sProp 𝕄
  | 0, _ => Pipeline.ΦA spec0 c
  | n + 1, hn => iprop(iprop(owns (c : Thread nD τ) accG fullShare (accAt V c n hn).1 ∗ owns (c : Thread nD τ) accS fullShare (accAt V c n hn).2 ∗ others c) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop(iprop(owns (c : Thread nD τ) accG fullShare (accAt V c n hn).1 ∗ owns (c : Thread nD τ) accS fullShare (accAt V c n hn).2 ∗ others c) ∗ (∃ r, prngReg c r)) := rfl
theorem Inv_pos (c : Dev nD) (n : ℕ) (h : n ≤ cfg0.N) (hz : n ≠ 0) :
    Inv V c n h = iprop(iprop(owns (c : Thread nD τ) accG fullShare (accAt V c (n - 1) (by omega)).1 ∗ owns (c : Thread nD τ) accS fullShare (accAt V c (n - 1) (by omega)).2 ∗ others c) ∗ (∃ r, prngReg c r)) := by
  cases n with
  | zero => exact absurd rfl hz
  | succ n => rfl

/-- The launch's scoped rest holds the two accumulators as buffers owned at some contents, beside the others, -/
theorem PhiA_split (c : Dev nD) :
    (Pipeline.ΦA spec0 c : sProp 𝕄)
      ⊢ iprop(iprop((∃ d, owns (c : Thread nD τ) accG fullShare d) ∗ (∃ d, owns (c : Thread nD τ) accS fullShare d) ∗ others c) ∗ (∃ r, prngReg c r)) := by
  unfold Pipeline.ΦA; rw [scopedRest0_eq]; simp only [accG, accS, owns_whole]
  exact .rfl
/-- and is made of them. -/
theorem PhiA_join (c : Dev nD) :
    iprop(iprop((∃ d, owns (c : Thread nD τ) accG fullShare d) ∗ (∃ d, owns (c : Thread nD τ) accS fullShare d) ∗ others c) ∗ (∃ r, prngReg c r))
      ⊢ (Pipeline.ΦA spec0 c : sProp 𝕄) := by
  unfold Pipeline.ΦA; rw [scopedRest0_eq]; simp only [accG, accS, owns_whole]
  exact .rfl

/-- After any point the invariant still holds the two accumulators at SOME contents (their named contents forgotten). -/
theorem Inv_forget (c : Dev nD) (n : ℕ) (h : n ≤ cfg0.N) (hz : n ≠ 0) :
    Inv V c n h ⊢ iprop(iprop((∃ d, owns (c : Thread nD τ) accG fullShare d) ∗ (∃ d, owns (c : Thread nD τ) accS fullShare d) ∗ others c) ∗ (∃ r, prngReg c r)) := by
  rw [Inv_pos V c _ _ hz]
  iintro ⟨⟨H5, H6, Hoth⟩, Hg⟩
  isplitl [H5 H6 Hoth]
  · isplitl [H5]; · iexists _; iexact H5
    isplitl [H6]; · iexists _; iexact H6
    iexact Hoth
  iexact Hg

/-! ## The proof data -/

/-- The proof data of this launch on core `c`: the windows' arrays as the region finds them; after the body at
    point `t` the input's buffer at its block and the outputs' at `outAt`; the invariant `Inv`; nothing owed;
    full shares. -/
def dat (c : Dev nD) : Dat τ (Elt F) Unit ℕ (UR sig nD τ) ℕ cfg0 c where
  A w := V c (Pipeline.arrRef spec0 w)
  after w t := match w with
    | ⟨0, _⟩ => iblk V c t
    | ⟨1, _⟩ => (outAt V c t).1
    | ⟨2, _⟩ => (outAt V c t).2
  Φ t := Inv V c t.val (Nat.le_of_lt_succ t.isLt)
  q _ := fullShare
  owed _ := 0

theorem A_eq (c : Dev nD) (w : Fin cfg0.W) : (dat V c).A w = V c (Pipeline.arrRef spec0 w) := by
  dsimp only [dat]
theorem Inv_castSucc (c : Dev nD) (t : Fin cfg0.N) :
    (dat V c).Φ t.castSucc = Inv V c t.val (Nat.le_of_lt t.isLt) := by
  dsimp only [dat]; simp only [Fin.coe_castSucc]
theorem after_in (c : Dev nD) (t : Fin cfg0.N) : (dat V c).after 0 t = iblk V c t := by dsimp only [dat]
theorem after_G (c : Dev nD) (t : Fin cfg0.N) : (dat V c).after 1 t = (outAt V c t).1 := by dsimp only [dat]
theorem after_S (c : Dev nD) (t : Fin cfg0.N) : (dat V c).after 2 t = (outAt V c t).2 := by dsimp only [dat]

/-- The input's current staging buffer holds its block at every point, fetched there or not. -/
theorem before_in (c : Dev nD) (t : Fin cfg0.N) (d) : (dat V c).before 0 t d = iblk V c t :=
  ((dat V c).before_in_eq_fetched 0 rfl (fun _ => rfl) (fun _ _ _ => rfl)
    (fun t => by rw [after_in]; unfold Dat.blockOf iblk; rw [A_eq]; try rfl) t d).trans
    (by unfold Dat.fetched Dat.blockOf iblk; rw [A_eq]; try rfl)

/-! ## Where the windows are idle -/

theorem liveIn : ∀ t : Fin cfg0.N, cfg0.idle 0 (grid0.coords t) = false := by decide +kernel
theorem idleG : ∀ t : Fin cfg0.N, ¬isLast (grid0.coords t) → cfg0.idle 1 (grid0.coords t) = true := by decide +kernel
theorem noFlushG : ∀ t : Fin cfg0.N, ¬isLast (grid0.coords t) → (cfg0.win 1).flush t = false := by decide +kernel
theorem liveG : ∀ t : Fin cfg0.N, isLast (grid0.coords t) → cfg0.idle 1 (grid0.coords t) = false := by decide +kernel
theorem idleS : ∀ t : Fin cfg0.N, ¬isLast (grid0.coords t) → cfg0.idle 2 (grid0.coords t) = true := by decide +kernel
theorem noFlushS : ∀ t : Fin cfg0.N, ¬isLast (grid0.coords t) → (cfg0.win 2).flush t = false := by decide +kernel
theorem liveS : ∀ t : Fin cfg0.N, isLast (grid0.coords t) → cfg0.idle 2 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mG t) fullShare ((dat V c).before 1 t d))
    ∗ (∃ d, owns (c : Thread nD τ) (mS t) fullShare ((dat V c).before 2 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

/-- Before any point the invariant holds the two accumulators at SOME contents. -/
theorem Inv_any (c : Dev nD) (t : Fin cfg0.N) :
    (dat V c).Φ t.castSucc ⊢ iprop(iprop((∃ d, owns (c : Thread nD τ) accG fullShare d) ∗ (∃ d, owns (c : Thread nD τ) accS fullShare d) ∗ others c) ∗ (∃ r, prngReg c r)) := by
  rw [Inv_castSucc]
  by_cases hz : t.val = 0
  · rw [Inv_zero V c _ _ hz]; exact PhiA_split c
  · exact Inv_forget V c _ _ hz

set_option maxHeartbeats 4800000 in
/-- The body at any point: the input's buffer holds its block; the point's position modulo 4 says which case it is
    in; the invariant hands the body the accumulators at what the point before left (at anything at a first point)
    and takes them back at this point's contents; the output blocks are handed back untouched except at a last
    point, where they receive their copies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  try simp only [second_eq_first]
  simp only [before_in]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg0.N = 32 from N_0)
  rw [show (dat V c).leavesExact 0 t = owns (c : Thread nD τ) (mIn t) fullShare ((dat V c).after 0 t) from by
    unfold Dat.leavesExact; rw [liveIn t], after_in]
  by_cases h0 : t.val % 4 = 0
  · have h3 : ¬t.val % 4 = 3 := by omega
    have hl : ¬isLast (grid0.coords t) := fun h => h3 ((last_iff t).mp h)
    rw [Dat.leavesExact_idle (dat V c) 1 t (idleG t hl) (noFlushG t hl), Dat.leavesExact_idle (dat V c) 2 t (idleS t hl) (noFlushS t hl)]
    rw [accAt_first V c t h0 h3]
    unfold firstG firstS; (try dsimp only)
    iintro ⟨Hinv, Ho, ⟨%d0, H0⟩, ⟨%d1, H1⟩, ⟨%d2, H2⟩⟩
    ihave Hinv' := (Inv_any V c t) $$ Hinv
    icases Hinv' with ⟨⟨H5, H6, Hoth⟩, Hg⟩
    iapply ((runFirst (F := F) c (grid0.coords t) (mIn t) (hIn t) (mG t) (hG t) (mS t) (hS t) accG (Memref.isWhole_whole _) accS (Memref.isWhole_whole _) ((first_iff t).mpr h0) hl (iblk V c t)).2.2 _ _ Set.univ _)
    isplitl [H0]; · iexact H0
    isplitl [H1]; · iexact H1
    isplitl [H2]; · iexact H2
    isplitl [H5]; · iexact H5
    isplitl [H6]; · iexact H6
    iintro ⟨H0, H1, H2, ⟨%e5, H5⟩, ⟨%e6, H6⟩⟩
    isplitl [H5 H6 Hoth Hg]
    · isplitl [H5 H6 Hoth]
      · isplitl [H5]
        · unfold owns; iexists _; isplitr
          swap; · iexact H5
          ipureintro; exact View.read_writes_eq_canon _ _ _ (firstG_cover c _ _ _ _ _ _ _ _ _ _ _ _ _ _)
        isplitl [H6]
        · unfold owns; iexists _; isplitr
          swap; · iexact H6
          ipureintro; exact View.read_writes_eq_canon _ _ _ (firstS_cover c _ _ _ _ _ _ _ _ _ _ _ _ _ _)
        iexact Hoth
      iexact Hg
    isplitl [Ho]; · iexact Ho
    isplitl [H0]; · iexact H0
    isplitl [H1]; · iexists _; iexact H1
    iexists _; iexact H2
  · have hz : t.val ≠ 0 := fun h => h0 (by rw [h])
    have hf : ¬isFirst (grid0.coords t) := fun h => h0 ((first_iff t).mp h)
    by_cases h3 : t.val % 4 = 3
    · have hl : isLast (grid0.coords t) := (last_iff t).mpr h3
      rw [show (dat V c).leavesExact 1 t = owns (c : Thread nD τ) (mG t) fullShare ((dat V c).after 1 t) from by
        unfold Dat.leavesExact; rw [liveG t hl], after_G]
      rw [show (dat V c).leavesExact 2 t = owns (c : Thread nD τ) (mS t) fullShare ((dat V c).after 2 t) from by
        unfold Dat.leavesExact; rw [liveS t hl], after_S]
      rw [accAt_last V c t h0 h3, outAt_last V c t h0 h3]
      unfold lastG lastS lastOutG lastOutS; (try dsimp only)
      rw [Inv_castSucc V c t, Inv_pos V c _ _ hz]
      iintro ⟨⟨⟨H5, H6, Hoth⟩, Hg⟩, Ho, ⟨%d0, H0⟩, ⟨%d1, H1⟩, ⟨%d2, H2⟩⟩
      iapply ((runLast (F := F) c (grid0.coords t) (mIn t) (hIn t) (mG t) (hG t) (mS t) (hS t) accG (Memref.isWhole_whole _) accS (Memref.isWhole_whole _) hf hl (iblk V c t) _ _).2.2.2.2 Set.univ _)
      isplitl [H0]; · iexact H0
      isplitl [H1]; · iexists _; iexact H1
      isplitl [H2]; · iexists _; iexact H2
      isplitl [H5]; · iexact H5
      isplitl [H6]; · iexact H6
      iintro ⟨H0, ⟨%e1, H1⟩, ⟨%e2, H2⟩, ⟨%e5, H5⟩, ⟨%e6, H6⟩⟩
      isplitl [H5 H6 Hoth Hg]
      · isplitl [H5 H6 Hoth]
        · isplitl [H5]
          · unfold owns; iexists _; isplitr
            swap; · iexact H5
            ipureintro; exact View.read_writes_eq_canon _ _ _ (lastG_cover c _ _ _ _ _ _ _ _ _ _ _ _ _ _ _ _)
          isplitl [H6]
          · unfold owns; iexists _; isplitr
            swap; · iexact H6
            ipureintro; exact View.read_writes_eq_canon _ _ _ (lastS_cover c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_eq_canon _ _ _ (lastOutG_cover c _ _ _ _ _ _ _ _ _ _ _ _ _ _ _ _)
      unfold owns; iexists _; isplitr
      swap; · iexact H2
      ipureintro; exact View.read_writes_eq_canon _ _ _ (lastOutS_cover c _ _ _ _ _ _ _ _ _ _ _ _ _ _ _ _)
    · have hl : ¬isLast (grid0.coords t) := fun h => h3 ((last_iff t).mp h)
      rw [Dat.leavesExact_idle (dat V c) 1 t (idleG t hl) (noFlushG t hl), Dat.leavesExact_idle (dat V c) 2 t (idleS t hl) (noFlushS t hl)]
      rw [accAt_mid V c t h0 h3]
      unfold midG midS; (try dsimp only)
      rw [Inv_castSucc V c t, Inv_pos V c _ _ hz]
      iintro ⟨⟨⟨H5, H6, Hoth⟩, Hg⟩, Ho, ⟨%d0, H0⟩, ⟨%d1, H1⟩, ⟨%d2, H2⟩⟩
      iapply ((runMid (F := F) c (grid0.coords t) (mIn t) (hIn t) (mG t) (hG t) (mS t) (hS t) accG (Memref.isWhole_whole _) accS (Memref.isWhole_whole _) hf hl (iblk V c t) _ _).2.2 _ _ Set.univ _)
      isplitl [H0]; · iexact H0
      isplitl [H1]; · iexact H1
      isplitl [H2]; · iexact H2
      isplitl [H5]; · iexact H5
      isplitl [H6]; · iexact H6
      iintro ⟨H0, H1, H2, ⟨%e5, H5⟩, ⟨%e6, H6⟩⟩
      isplitl [H5 H6 Hoth Hg]
      · isplitl [H5 H6 Hoth]
        · isplitl [H5]
          · unfold owns; iexists _; isplitr
            swap; · iexact H5
            ipureintro; exact View.read_writes_eq_canon _ _ _ (midG_cover c _ _ _ _ _ _ _ _ _ _ _ _ _ _ _ _)
          isplitl [H6]
          · unfold owns; iexists _; isplitr
            swap; · iexact H6
            ipureintro; exact View.read_writes_eq_canon _ _ _ (midS_cover c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Inv V c 0 (Nat.zero_le _) from rfl, Inv_zero V c 0 _ rfl]

/-- After the last point the invariant gives the launch's scoped rest back: the accumulators' contents are forgotten. -/
theorem hout (c : Dev nD) : (dat V c).Φ (Fin.last cfg0.N) ⊢ Pipeline.ΦA spec0 c := by
  rw [show (dat V c).Φ (Fin.last cfg0.N) = Inv V c (Fin.last cfg0.N).val (Nat.le_of_lt_succ (Fin.last cfg0.N).isLt) from rfl]
  exact (Inv_forget V c _ _ (by rw [Fin.val_last]; have : cfg0.N = 32 := N_0; omega)).trans (PhiA_join c)

end R0

end Cert.Kernel.Fr

end
-- ==== Proof.FrameKernel.Region1.lean ====
/-
  The second launch of the gram kernel as a region of the program (the same function on its own buffers): what its two accumulators and two output blocks
  hold after each grid point, the invariant that carries the accumulators from a point to the next, the proof data
  and the body's obligation at every point — all at any contents `V` of the TensorCore's buffers at the region's entry.

  Grid point t = 4 b + k works on block k of batch b. After it the accumulators hold what the case of k leaves:
  at k = 0 the block's products over zeros, at k > 0 the block's products added to what point t - 1 left. At k = 3
  the two output blocks receive copies of the accumulators; at the other points they are idle.
-/
import proofs.«115151_j57501022159376_2_alg».proof.Proof.FrameKernel.Leaves

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R1

variable (V : (c : Dev nD) → (b : Ref sig .tc) → Buf (Elt F) ((c : Thread nD τ).loc b))

/-! ## The buffers the body is called with -/

abbrev mIn (t : Fin cfg1.N) : Memref sig .tc .vmem S1x512x4096 .f32 := win1_0.stage (cfg1.slots t 0)
abbrev hIn (t : Fin cfg1.N) : (mIn t).IsWhole := hstage1_0 ((cfg1.slots t 0).cast nbuf1_0)
abbrev mG (t : Fin cfg1.N) : Memref sig .tc .vmem S1x512x512 .f32 := win1_1.stage (cfg1.slots t 1)
abbrev hG (t : Fin cfg1.N) : (mG t).IsWhole := hstage1_1 ((cfg1.slots t 1).cast nbuf1_1)
abbrev mS (t : Fin cfg1.N) : Memref sig .tc .vmem S1x512x1 .f32 := win1_2.stage (cfg1.slots t 2)
abbrev hS (t : Fin cfg1.N) : (mS t).IsWhole := hstage1_2 ((cfg1.slots t 2).cast nbuf1_2)
/-- The two accumulators: scoped buffers of the kernel's own. -/
abbrev accG : Memref sig .tc .vmem S512x512 .f32 := Memref.whole cc1_scratch0
abbrev accS : Memref sig .tc .vmem S512x1 .f32 := Memref.whole cc1_scratch1

theorem first_iff : ∀ t : Fin cfg1.N, isFirst (grid1.coords t) ↔ t.val % 4 = 0 := isFirst_iff
theorem last_iff : ∀ t : Fin cfg1.N, isLast (grid1.coords t) ↔ t.val % 4 = 3 := isLast_iff

/-- The input window's block at point `t`, read off its array as the region finds it. -/
def iblk (c : Dev nD) (t : Fin cfg1.N) : ((cfg1.win 0).xblock (cfg1.grid.coords t)).Idx → Elt F (cfg1.win 0).elt :=
  ((cfg1.win 0).blk t).view.read (Elt F) (V c (Pipeline.arrRef spec1 0))

/-! ## The accumulators after each point -/

/-- What the two accumulators hold after the body at position `n`: the case of `n mod 4` run on the point's block,
    over what position `n - 1` left when the case reads the accumulators. -/
def accAt (c : Dev nD) : (n : ℕ) → n < cfg1.N → Vec F S512x512 .f32 × Vec F S512x1 .f32
  | 0, hn =>
    (firstG c (grid1.coords ⟨0, hn⟩) (mIn ⟨0, hn⟩) (hIn ⟨0, hn⟩) (mG ⟨0, hn⟩) (hG ⟨0, hn⟩) (mS ⟨0, hn⟩) (hS ⟨0, hn⟩) accG (Memref.isWhole_whole _) accS (Memref.isWhole_whole _) ((first_iff ⟨0, hn⟩).mpr (Nat.zero_mod _)) (fun h => absurd ((last_iff ⟨0, hn⟩).mp h) (by dsimp only; omega)) (iblk V c ⟨0, hn⟩),
     firstS c (grid1.coords ⟨0, hn⟩) (mIn ⟨0, hn⟩) (hIn ⟨0, hn⟩) (mG ⟨0, hn⟩) (hG ⟨0, hn⟩) (mS ⟨0, hn⟩) (hS ⟨0, hn⟩) accG (Memref.isWhole_whole _) accS (Memref.isWhole_whole _) ((first_iff ⟨0, hn⟩).mpr (Nat.zero_mod _)) (fun h => absurd ((last_iff ⟨0, hn⟩).mp h) (by dsimp only; omega)) (iblk V c ⟨0, hn⟩))
  | n + 1, hn =>
    if h0 : (n + 1) % 4 = 0 then
      (firstG c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) ((first_iff ⟨n + 1, hn⟩).mpr h0) (fun h => absurd ((last_iff ⟨n + 1, hn⟩).mp h) (by dsimp only; omega)) (iblk V c ⟨n + 1, hn⟩),
       firstS c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) ((first_iff ⟨n + 1, hn⟩).mpr h0) (fun h => absurd ((last_iff ⟨n + 1, hn⟩).mp h) (by dsimp only; omega)) (iblk V c ⟨n + 1, hn⟩))
    else if h3 : (n + 1) % 4 = 3 then
      (lastG c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) ((last_iff ⟨n + 1, hn⟩).mpr h3) (iblk V c ⟨n + 1, hn⟩) (accAt c n (Nat.lt_of_succ_lt hn)).1 (accAt c n (Nat.lt_of_succ_lt hn)).2,
       lastS c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) ((last_iff ⟨n + 1, hn⟩).mpr h3) (iblk V c ⟨n + 1, hn⟩) (accAt c n (Nat.lt_of_succ_lt hn)).1 (accAt c n (Nat.lt_of_succ_lt hn)).2)
    else
      (midG c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) (fun h => h3 ((last_iff ⟨n + 1, hn⟩).mp h)) (iblk V c ⟨n + 1, hn⟩) (accAt c n (Nat.lt_of_succ_lt hn)).1 (accAt c n (Nat.lt_of_succ_lt hn)).2,
       midS c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) (fun h => h3 ((last_iff ⟨n + 1, hn⟩).mp h)) (iblk V c ⟨n + 1, hn⟩) (accAt c n (Nat.lt_of_succ_lt hn)).1 (accAt c n (Nat.lt_of_succ_lt hn)).2)

/-- The accumulators at the point before `t` (position `t - 1`). -/
abbrev prevAcc (c : Dev nD) (t : Fin cfg1.N) : Vec F S512x512 .f32 × Vec F S512x1 .f32 :=
  accAt V c (t.val - 1) (Nat.lt_of_le_of_lt (Nat.sub_le _ _) t.isLt)

theorem accAt_first (c : Dev nD) (t : Fin cfg1.N) (h0 : t.val % 4 = 0) (h3 : ¬t.val % 4 = 3) :
    accAt V c t.val t.isLt =
      (firstG c (grid1.coords t) (mIn t) (hIn t) (mG t) (hG t) (mS t) (hS t) accG (Memref.isWhole_whole _) accS (Memref.isWhole_whole _) ((first_iff t).mpr h0) (fun h => h3 ((last_iff t).mp h)) (iblk V c t),
       firstS c (grid1.coords t) (mIn t) (hIn t) (mG t) (hG t) (mS t) (hS t) accG (Memref.isWhole_whole _) accS (Memref.isWhole_whole _) ((first_iff t).mpr h0) (fun h => h3 ((last_iff t).mp h)) (iblk V c t)) := by
  obtain ⟨n, hn⟩ := t
  cases n with
  | zero => exact rfl
  | succ n => exact (dif_pos h0).trans rfl

theorem accAt_mid (c : Dev nD) (t : Fin cfg1.N) (h0 : ¬t.val % 4 = 0) (h3 : ¬t.val % 4 = 3) :
    accAt V c t.val t.isLt =
      (midG c (grid1.coords t) (mIn t) (hIn t) (mG t) (hG t) (mS t) (hS t) accG (Memref.isWhole_whole _) accS (Memref.isWhole_whole _) (fun h => h0 ((first_iff t).mp h)) (fun h => h3 ((last_iff t).mp h)) (iblk V c t) (prevAcc V c t).1 (prevAcc V c t).2,
       midS c (grid1.coords t) (mIn t) (hIn t) (mG t) (hG t) (mS t) (hS t) accG (Memref.isWhole_whole _) accS (Memref.isWhole_whole _) (fun h => h0 ((first_iff t).mp h)) (fun h => h3 ((last_iff t).mp h)) (iblk V c t) (prevAcc V c t).1 (prevAcc V c t).2) := by
  obtain ⟨n, hn⟩ := t
  cases n with
  | zero => exact absurd (Nat.zero_mod _) h0
  | succ n => exact (dif_neg h0).trans ((dif_neg h3).trans rfl)

theorem accAt_last (c : Dev nD) (t : Fin cfg1.N) (h0 : ¬t.val % 4 = 0) (h3 : t.val % 4 = 3) :
    accAt V c t.val t.isLt =
      (lastG c (grid1.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2,
       lastS c (grid1.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2) := by
  obtain ⟨n, hn⟩ := t
  cases n with
  | zero => exact absurd (Nat.zero_mod _) h0
  | succ n => exact (dif_neg h0).trans ((dif_pos h3).trans rfl)

/-- What the two output blocks hold after the body at point `t`: at a last point the copies of the accumulators;
    elsewhere the windows are idle and nothing consults this. -/
def outAt (c : Dev nD) (t : Fin cfg1.N) : Vec F S1x512x512 .f32 × Vec F S1x512x1 .f32 :=
  if h3 : t.val % 4 = 3 then
    (lastOutG c (grid1.coords t) (mIn t) (hIn t) (mG t) (hG t) (mS t) (hS t) accG (Memref.isWhole_whole _) accS (Memref.isWhole_whole _) (fun h => absurd ((first_iff t).mp h) (by omega)) ((last_iff t).mpr h3) (iblk V c t) (prevAcc V c t).1 (prevAcc V c t).2,
     lastOutS c (grid1.coords t) (mIn t) (hIn t) (mG t) (hG t) (mS t) (hS t) accG (Memref.isWhole_whole _) accS (Memref.isWhole_whole _) (fun h => absurd ((first_iff t).mp h) (by omega)) ((last_iff t).mpr h3) (iblk V c t) (prevAcc V c t).1 (prevAcc V c t).2)
  else (View.canon [], View.canon [])

theorem outAt_last (c : Dev nD) (t : Fin cfg1.N) (h0 : ¬t.val % 4 = 0) (h3 : t.val % 4 = 3) :
    outAt V c t =
      (lastOutG c (grid1.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2,
       lastOutS c (grid1.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2) := by
  unfold outAt; exact dif_pos h3

/-! ## The invariant between points -/

/-- The scoped buffers of the core that are neither a staging buffer of this launch nor one of its accumulators
    (the other launch's staging buffers and accumulators), each whole at some contents. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's invariant before position `n`: before the first point every scoped buffer the launch does not stage
    at anything and the generator register at some state; afterwards the same with the two accumulators at what the
    point before left. -/
def Inv (c : Dev nD) : (n : ℕ) → n ≤ cfg1.N → sProp 𝕄
  | 0, _ => Pipeline.ΦA spec1 c
  | n + 1, hn => iprop(iprop(owns (c : Thread nD τ) accG fullShare (accAt V c n hn).1 ∗ owns (c : Thread nD τ) accS fullShare (accAt V c n hn).2 ∗ others c) ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(iprop(owns (c : Thread nD τ) accG fullShare (accAt V c n hn).1 ∗ owns (c : Thread nD τ) accS fullShare (accAt V c n hn).2 ∗ others c) ∗ (∃ r, prngReg c r)) := rfl
theorem Inv_pos (c : Dev nD) (n : ℕ) (h : n ≤ cfg1.N) (hz : n ≠ 0) :
    Inv V c n h = iprop(iprop(owns (c : Thread nD τ) accG fullShare (accAt V c (n - 1) (by omega)).1 ∗ owns (c : Thread nD τ) accS fullShare (accAt V c (n - 1) (by omega)).2 ∗ others c) ∗ (∃ r, prngReg c r)) := by
  cases n with
  | zero => exact absurd rfl hz
  | succ n => rfl

/-- The launch's scoped rest holds the two accumulators as buffers owned at some contents, beside the others, -/
theorem PhiA_split (c : Dev nD) :
    (Pipeline.ΦA spec1 c : sProp 𝕄)
      ⊢ iprop(iprop((∃ d, owns (c : Thread nD τ) accG fullShare d) ∗ (∃ d, owns (c : Thread nD τ) accS fullShare d) ∗ others c) ∗ (∃ r, prngReg c r)) := by
  unfold Pipeline.ΦA; rw [scopedRest1_eq]; simp only [accG, accS, owns_whole]
  iintro ⟨⟨O1, O2, O3, O4, O5, O6, O7, O8, A5, A6⟩, Hg⟩
  isplitl [O1 O2 O3 O4 O5 O6 O7 O8 A5 A6]
  · isplitl [A5]; · iexact A5
    isplitl [A6]; · iexact A6
    isplitl [O1]; · iexact O1
    isplitl [O2]; · iexact O2
    isplitl [O3]; · iexact O3
    isplitl [O4]; · iexact O4
    isplitl [O5]; · iexact O5
    isplitl [O6]; · iexact O6
    isplitl [O7]; · iexact O7
    iexact O8
  iexact Hg
/-- and is made of them. -/
theorem PhiA_join (c : Dev nD) :
    iprop(iprop((∃ d, owns (c : Thread nD τ) accG fullShare d) ∗ (∃ d, owns (c : Thread nD τ) accS fullShare d) ∗ others c) ∗ (∃ r, prngReg c r))
      ⊢ (Pipeline.ΦA spec1 c : sProp 𝕄) := by
  unfold Pipeline.ΦA; rw [scopedRest1_eq]; simp only [accG, accS, owns_whole]
  iintro ⟨⟨A5, A6, O1, O2, O3, O4, O5, O6, O7, O8⟩, Hg⟩
  isplitl [O1 O2 O3 O4 O5 O6 O7 O8 A5 A6]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [A5]; · iexact A5
    iexact A6
  iexact Hg

/-- After any point the invariant still holds the two accumulators at SOME contents (their named contents forgotten). -/
theorem Inv_forget (c : Dev nD) (n : ℕ) (h : n ≤ cfg1.N) (hz : n ≠ 0) :
    Inv V c n h ⊢ iprop(iprop((∃ d, owns (c : Thread nD τ) accG fullShare d) ∗ (∃ d, owns (c : Thread nD τ) accS fullShare d) ∗ others c) ∗ (∃ r, prngReg c r)) := by
  rw [Inv_pos V c _ _ hz]
  iintro ⟨⟨H5, H6, Hoth⟩, Hg⟩
  isplitl [H5 H6 Hoth]
  · isplitl [H5]; · iexists _; iexact H5
    isplitl [H6]; · iexists _; iexact H6
    iexact Hoth
  iexact Hg

/-! ## The proof data -/

/-- The proof data of this launch on core `c`: the windows' arrays as the region finds them; after the body at
    point `t` the input's buffer at its block and the outputs' at `outAt`; the invariant `Inv`; nothing owed;
    full shares. -/
def dat (c : Dev nD) : Dat τ (Elt F) Unit ℕ (UR sig nD τ) ℕ cfg1 c where
  A w := V c (Pipeline.arrRef spec1 w)
  after w t := match w with
    | ⟨0, _⟩ => iblk V c t
    | ⟨1, _⟩ => (outAt V c t).1
    | ⟨2, _⟩ => (outAt V c t).2
  Φ t := Inv V c t.val (Nat.le_of_lt_succ t.isLt)
  q _ := fullShare
  owed _ := 0

theorem A_eq (c : Dev nD) (w : Fin cfg1.W) : (dat V c).A w = V c (Pipeline.arrRef spec1 w) := by
  dsimp only [dat]
theorem Inv_castSucc (c : Dev nD) (t : Fin cfg1.N) :
    (dat V c).Φ t.castSucc = Inv V c t.val (Nat.le_of_lt t.isLt) := by
  dsimp only [dat]; simp only [Fin.coe_castSucc]
theorem after_in (c : Dev nD) (t : Fin cfg1.N) : (dat V c).after 0 t = iblk V c t := by dsimp only [dat]
theorem after_G (c : Dev nD) (t : Fin cfg1.N) : (dat V c).after 1 t = (outAt V c t).1 := by dsimp only [dat]
theorem after_S (c : Dev nD) (t : Fin cfg1.N) : (dat V c).after 2 t = (outAt V c t).2 := by dsimp only [dat]

/-- The input's current staging buffer holds its block at every point, fetched there or not. -/
theorem before_in (c : Dev nD) (t : Fin cfg1.N) (d) : (dat V c).before 0 t d = iblk V c t :=
  ((dat V c).before_in_eq_fetched 0 rfl (fun _ => rfl) (fun _ _ _ => rfl)
    (fun t => by rw [after_in]; unfold Dat.blockOf iblk; rw [A_eq]; try rfl) t d).trans
    (by unfold Dat.fetched Dat.blockOf iblk; rw [A_eq]; try rfl)

/-! ## Where the windows are idle -/

theorem liveIn : ∀ t : Fin cfg1.N, cfg1.idle 0 (grid1.coords t) = false := by decide +kernel
theorem idleG : ∀ t : Fin cfg1.N, ¬isLast (grid1.coords t) → cfg1.idle 1 (grid1.coords t) = true := by decide +kernel
theorem noFlushG : ∀ t : Fin cfg1.N, ¬isLast (grid1.coords t) → (cfg1.win 1).flush t = false := by decide +kernel
theorem liveG : ∀ t : Fin cfg1.N, isLast (grid1.coords t) → cfg1.idle 1 (grid1.coords t) = false := by decide +kernel
theorem idleS : ∀ t : Fin cfg1.N, ¬isLast (grid1.coords t) → cfg1.idle 2 (grid1.coords t) = true := by decide +kernel
theorem noFlushS : ∀ t : Fin cfg1.N, ¬isLast (grid1.coords t) → (cfg1.win 2).flush t = false := by decide +kernel
theorem liveS : ∀ t : Fin cfg1.N, isLast (grid1.coords t) → cfg1.idle 2 (grid1.coords t) = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mG t) fullShare ((dat V c).before 1 t d))
    ∗ (∃ d, owns (c : Thread nD τ) (mS t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

/-- Before any point the invariant holds the two accumulators at SOME contents. -/
theorem Inv_any (c : Dev nD) (t : Fin cfg1.N) :
    (dat V c).Φ t.castSucc ⊢ iprop(iprop((∃ d, owns (c : Thread nD τ) accG fullShare d) ∗ (∃ d, owns (c : Thread nD τ) accS fullShare d) ∗ others c) ∗ (∃ r, prngReg c r)) := by
  rw [Inv_castSucc]
  by_cases hz : t.val = 0
  · rw [Inv_zero V c _ _ hz]; exact PhiA_split c
  · exact Inv_forget V c _ _ hz

set_option maxHeartbeats 4800000 in
/-- The body at any point: the input's buffer holds its block; the point's position modulo 4 says which case it is
    in; the invariant hands the body the accumulators at what the point before left (at anything at a first point)
    and takes them back at this point's contents; the output blocks are handed back untouched except at a last
    point, where they receive their copies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  try simp only [second_eq_first]
  simp only [before_in]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg1.N = 32 from N_1)
  rw [show (dat V c).leavesExact 0 t = owns (c : Thread nD τ) (mIn t) fullShare ((dat V c).after 0 t) from by
    unfold Dat.leavesExact; rw [liveIn t], after_in]
  by_cases h0 : t.val % 4 = 0
  · have h3 : ¬t.val % 4 = 3 := by omega
    have hl : ¬isLast (grid1.coords t) := fun h => h3 ((last_iff t).mp h)
    rw [Dat.leavesExact_idle (dat V c) 1 t (idleG t hl) (noFlushG t hl), Dat.leavesExact_idle (dat V c) 2 t (idleS t hl) (noFlushS t hl)]
    rw [accAt_first V c t h0 h3]
    unfold firstG firstS; (try dsimp only)
    iintro ⟨Hinv, Ho, ⟨%d0, H0⟩, ⟨%d1, H1⟩, ⟨%d2, H2⟩⟩
    ihave Hinv' := (Inv_any V c t) $$ Hinv
    icases Hinv' with ⟨⟨H5, H6, Hoth⟩, Hg⟩
    iapply ((runFirst (F := F) c (grid1.coords t) (mIn t) (hIn t) (mG t) (hG t) (mS t) (hS t) accG (Memref.isWhole_whole _) accS (Memref.isWhole_whole _) ((first_iff t).mpr h0) hl (iblk V c t)).2.2 _ _ Set.univ _)
    isplitl [H0]; · iexact H0
    isplitl [H1]; · iexact H1
    isplitl [H2]; · iexact H2
    isplitl [H5]; · iexact H5
    isplitl [H6]; · iexact H6
    iintro ⟨H0, H1, H2, ⟨%e5, H5⟩, ⟨%e6, H6⟩⟩
    isplitl [H5 H6 Hoth Hg]
    · isplitl [H5 H6 Hoth]
      · isplitl [H5]
        · unfold owns; iexists _; isplitr
          swap; · iexact H5
          ipureintro; exact View.read_writes_eq_canon _ _ _ (firstG_cover c _ _ _ _ _ _ _ _ _ _ _ _ _ _)
        isplitl [H6]
        · unfold owns; iexists _; isplitr
          swap; · iexact H6
          ipureintro; exact View.read_writes_eq_canon _ _ _ (firstS_cover c _ _ _ _ _ _ _ _ _ _ _ _ _ _)
        iexact Hoth
      iexact Hg
    isplitl [Ho]; · iexact Ho
    isplitl [H0]; · iexact H0
    isplitl [H1]; · iexists _; iexact H1
    iexists _; iexact H2
  · have hz : t.val ≠ 0 := fun h => h0 (by rw [h])
    have hf : ¬isFirst (grid1.coords t) := fun h => h0 ((first_iff t).mp h)
    by_cases h3 : t.val % 4 = 3
    · have hl : isLast (grid1.coords t) := (last_iff t).mpr h3
      rw [show (dat V c).leavesExact 1 t = owns (c : Thread nD τ) (mG t) fullShare ((dat V c).after 1 t) from by
        unfold Dat.leavesExact; rw [liveG t hl], after_G]
      rw [show (dat V c).leavesExact 2 t = owns (c : Thread nD τ) (mS t) fullShare ((dat V c).after 2 t) from by
        unfold Dat.leavesExact; rw [liveS t hl], after_S]
      rw [accAt_last V c t h0 h3, outAt_last V c t h0 h3]
      unfold lastG lastS lastOutG lastOutS; (try dsimp only)
      rw [Inv_castSucc V c t, Inv_pos V c _ _ hz]
      iintro ⟨⟨⟨H5, H6, Hoth⟩, Hg⟩, Ho, ⟨%d0, H0⟩, ⟨%d1, H1⟩, ⟨%d2, H2⟩⟩
      iapply ((runLast (F := F) c (grid1.coords t) (mIn t) (hIn t) (mG t) (hG t) (mS t) (hS t) accG (Memref.isWhole_whole _) accS (Memref.isWhole_whole _) hf hl (iblk V c t) _ _).2.2.2.2 Set.univ _)
      isplitl [H0]; · iexact H0
      isplitl [H1]; · iexists _; iexact H1
      isplitl [H2]; · iexists _; iexact H2
      isplitl [H5]; · iexact H5
      isplitl [H6]; · iexact H6
      iintro ⟨H0, ⟨%e1, H1⟩, ⟨%e2, H2⟩, ⟨%e5, H5⟩, ⟨%e6, H6⟩⟩
      isplitl [H5 H6 Hoth Hg]
      · isplitl [H5 H6 Hoth]
        · isplitl [H5]
          · unfold owns; iexists _; isplitr
            swap; · iexact H5
            ipureintro; exact View.read_writes_eq_canon _ _ _ (lastG_cover c _ _ _ _ _ _ _ _ _ _ _ _ _ _ _ _)
          isplitl [H6]
          · unfold owns; iexists _; isplitr
            swap; · iexact H6
            ipureintro; exact View.read_writes_eq_canon _ _ _ (lastS_cover c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_eq_canon _ _ _ (lastOutG_cover c _ _ _ _ _ _ _ _ _ _ _ _ _ _ _ _)
      unfold owns; iexists _; isplitr
      swap; · iexact H2
      ipureintro; exact View.read_writes_eq_canon _ _ _ (lastOutS_cover c _ _ _ _ _ _ _ _ _ _ _ _ _ _ _ _)
    · have hl : ¬isLast (grid1.coords t) := fun h => h3 ((last_iff t).mp h)
      rw [Dat.leavesExact_idle (dat V c) 1 t (idleG t hl) (noFlushG t hl), Dat.leavesExact_idle (dat V c) 2 t (idleS t hl) (noFlushS t hl)]
      rw [accAt_mid V c t h0 h3]
      unfold midG midS; (try dsimp only)
      rw [Inv_castSucc V c t, Inv_pos V c _ _ hz]
      iintro ⟨⟨⟨H5, H6, Hoth⟩, Hg⟩, Ho, ⟨%d0, H0⟩, ⟨%d1, H1⟩, ⟨%d2, H2⟩⟩
      iapply ((runMid (F := F) c (grid1.coords t) (mIn t) (hIn t) (mG t) (hG t) (mS t) (hS t) accG (Memref.isWhole_whole _) accS (Memref.isWhole_whole _) hf hl (iblk V c t) _ _).2.2 _ _ Set.univ _)
      isplitl [H0]; · iexact H0
      isplitl [H1]; · iexact H1
      isplitl [H2]; · iexact H2
      isplitl [H5]; · iexact H5
      isplitl [H6]; · iexact H6
      iintro ⟨H0, H1, H2, ⟨%e5, H5⟩, ⟨%e6, H6⟩⟩
      isplitl [H5 H6 Hoth Hg]
      · isplitl [H5 H6 Hoth]
        · isplitl [H5]
          · unfold owns; iexists _; isplitr
            swap; · iexact H5
            ipureintro; exact View.read_writes_eq_canon _ _ _ (midG_cover c _ _ _ _ _ _ _ _ _ _ _ _ _ _ _ _)
          isplitl [H6]
          · unfold owns; iexists _; isplitr
            swap; · iexact H6
            ipureintro; exact View.read_writes_eq_canon _ _ _ (midS_cover c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Inv V c 0 (Nat.zero_le _) from rfl, Inv_zero V c 0 _ rfl]

/-- After the last point the invariant gives the launch's scoped rest back: the accumulators' contents are forgotten. -/
theorem hout (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl]
  exact (Inv_forget V c _ _ (by rw [Fin.val_last]; have : cfg1.N = 32 := N_1; omega)).trans (PhiA_join c)

end R1

end Cert.Kernel.Fr

end
-- ==== Proof.FrameKernel.Run.lean ====
/-
  The whole program as a run of five segments — the host operations before the first launch, the first launch, the
  host operations between, the second launch, the host operations after — over the thread state "every unscoped
  buffer of the core at the contents between two items". The contents between items are a fold from the launch
  memory: a host stretch applies its operations; a launch leaves each of its arrays at what its write-backs leave
  and every other buffer as it was. The run ends with every unscoped buffer of every core at the last contents;
  the argument arrays are read back through the fold to the launch memory, since no item writes them.
-/
import proofs.«115151_j57501022159376_2_alg».proof.Proof.FrameKernel.Region0
import proofs.«115151_j57501022159376_2_alg».proof.Proof.FrameKernel.Region1
import Idealize.ShloMosaic.Lib.Pipeline.RegionsLoop
import Idealize.ShloMosaic.Lib.Pipeline.FrameSuffix

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev bufs0 : Dev nD → Valuation τ sig (Elt F) := fun c b => m ((c : Dev nD), b)
/-- After the first host stretch: the first launch's entry. -/
abbrev bufs1 : Dev nD → Valuation τ sig (Elt F) := fun c => StableHlo.after hostOps0 (bufs0 m c)
abbrev ent0 : (c : Dev nD) → (b : Ref sig .tc) → Buf (Elt F) ((c : Thread nD τ).loc b) := fun c b => bufs1 m c b
/-- After the first launch: its arrays at what the write-backs leave, every other buffer as entered. -/
def bufs2 (c : Dev nD) : Valuation τ sig (Elt F) :=
  Pipeline.withArrays spec0 c (bufs1 m c) fun w => (R0.dat (ent0 m) c).arrAt w cfg0.N
theorem bufs2_arr (c : Dev nD) (w : Fin cfg0.W) :
    bufs2 m c (Proc.devRef .tc (Pipeline.arrRef spec0 w)) = (R0.dat (ent0 m) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m c (Proc.devRef .tc b) = bufs1 m c (Proc.devRef .tc b) := by
  unfold bufs2; exact Pipeline.withArrays_of_ne spec0 c _ _ b hb
abbrev ext0 : (c : Dev nD) → (b : Ref sig .tc) → Buf (Elt F) ((c : Thread nD τ).loc b) := fun c b => bufs2 m c b
theorem kept0 (c : Dev nD) (w : Fin cfg0.W) : (R0.dat (ent0 m) c).arrAt w cfg0.N = ext0 m c (Pipeline.arrRef spec0 w) :=
  (bufs2_arr m c w).symm
theorem rest0 (c : Dev nD) : ∀ b, b ∉ Finset.univ.image (Pipeline.arrRef spec0) → ext0 m c b = ent0 m c b :=
  fun b hb => bufs2_of_ne m c b fun w e => hb (Finset.mem_image.mpr ⟨w, Finset.mem_univ _, e⟩)

/-- After the second host stretch: the second launch's entry. -/
abbrev bufs3 : Dev nD → Valuation τ sig (Elt F) := fun c => StableHlo.after hostOps1 (bufs2 m c)
abbrev ent1 : (c : Dev nD) → (b : Ref sig .tc) → Buf (Elt F) ((c : Thread nD τ).loc b) := fun c b => bufs3 m c b
/-- After the second launch. -/
def bufs4 (c : Dev nD) : Valuation τ sig (Elt F) :=
  Pipeline.withArrays spec1 c (bufs3 m c) fun w => (R1.dat (ent1 m) c).arrAt w cfg1.N
theorem bufs4_arr (c : Dev nD) (w : Fin cfg1.W) :
    bufs4 m c (Proc.devRef .tc (Pipeline.arrRef spec1 w)) = (R1.dat (ent1 m) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m c (Proc.devRef .tc b) = bufs3 m c (Proc.devRef .tc b) := by
  unfold bufs4; exact Pipeline.withArrays_of_ne spec1 c _ _ b hb
abbrev ext1 : (c : Dev nD) → (b : Ref sig .tc) → Buf (Elt F) ((c : Thread nD τ).loc b) := fun c b => bufs4 m c b
theorem kept1 (c : Dev nD) (w : Fin cfg1.W) : (R1.dat (ent1 m) c).arrAt w cfg1.N = ext1 m c (Pipeline.arrRef spec1 w) :=
  (bufs4_arr m c w).symm
theorem rest1 (c : Dev nD) : ∀ b, b ∉ Finset.univ.image (Pipeline.arrRef spec1) → ext1 m c b = ent1 m c b :=
  fun b hb => bufs4_of_ne m c b fun w e => hb (Finset.mem_image.mpr ⟨w, Finset.mem_univ _, e⟩)

/-- After the last host stretch: the end. -/
abbrev bufs5 : Dev nD → Valuation τ sig (Elt F) := fun c => StableHlo.after hostOps2 (bufs4 m c)

/-! ## The proof data family and the thread state -/

/-- No launch has a prefetched table. -/
abbrev adm : (p : Fin 2) → (pcfgs (F := F) p).Adm := fun p => (cfgs p).toPCfg_adm
/-- Each launch's proof data at its region's entry contents. -/
def pdats : (p : Fin 2) → (c : Dev nD) → Dat τ (Elt F) Unit ℕ (UR sig nD τ) ℕ (Pipeline.pin (pcfgs (F := F)) adm p) c
  | ⟨0, _⟩ => fun c => R0.dat (ent0 m) c
  | ⟨1, _⟩ => fun c => R1.dat (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev Rides (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rides

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (bufs5 m c) ∗ ∃ r, prngReg c r)

/-! ## The launches as segments -/

-- a library lemma stated over the pinned configuration unifies with the printed one only when unification may unfold
-- plain definitions in a metavariable's type
set_option backward.isDefEq.respectTransparency.types false in
/-- The first launch as a segment of @main over the thread state "every unscoped buffer at the contents between
    two items, the generator register at some state, nothing owed": entered from `bufs1`, left at `bufs2`. Its
    three arrays are split out of the unscoped buffers and put back at what the write-backs leave; the generator
    register and the scoped rest go into the region's invariant and come back out of it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (ent0 m) c).loose
  hwaits := Pipeline.hwaits_of_owed_zero _ _ _ _ L lv 0 fun _ _ => rfl
  pre c := iprop(StableHlo.held (c : Thread nD τ) (Pipeline.ucRefs τ sig) (bufs1 m c) ∗ Rides c)
  post c := iprop(StableHlo.held (c : Thread nD τ) (Pipeline.ucRefs τ sig) (bufs2 m c) ∗ Rides c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (R0.hin (ent0 m) c)
    unfold Pipeline.ΦA
    iintro ⟨Hp, -, Hr⟩
    isplitl [Hr]; · iexact Hr
    iexact Hp
  hout c := by
    rw [Pipeline.ownSems0_none]
    refine (R0.hout (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (kept0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second launch as a segment of @main over the thread state "every unscoped buffer at the contents between
    two items, the generator register at some state, nothing owed": entered from `bufs3`, left at `bufs4`. Its
    three arrays are split out of the unscoped buffers and put back at what the write-backs leave; the generator
    register and the scoped rest go into the region's invariant and come back out of it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (ent1 m) c).loose
  hwaits := Pipeline.hwaits_of_owed_zero _ _ _ _ L lv 1 fun _ _ => rfl
  pre c := iprop(StableHlo.held (c : Thread nD τ) (Pipeline.ucRefs τ sig) (bufs3 m c) ∗ Rides c)
  post c := iprop(StableHlo.held (c : Thread nD τ) (Pipeline.ucRefs τ sig) (bufs4 m c) ∗ Rides c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (R1.hin (ent1 m) c)
    unfold Pipeline.ΦA
    iintro ⟨Hp, -, Hr⟩
    isplitl [Hr]; · iexact Hr
    iexact Hp
  hout c := by
    rw [Pipeline.ownSems0_none]
    refine (R1.hout (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (kept1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub fresh0 (bufs0 m)),
    .region (reg0 m),
    .host (hseg hostOps1 hostOps1_sub fresh1 (bufs2 m)),
    .region (reg1 m),
    .host (hseg hostOps2 hostOps2_sub fresh2 (bufs4 m)) ]

theorem main_run (c : Dev nD) : main (F := F) c = Pipeline.Seg.run (segs m) :=
  main_segs adm (pdats m) () 𝒱₀ L lv _ _ _ (reg0 m) (reg1 m) rfl rfl rfl c

-- the launch theorem's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting, and every final state has every unscoped buffer of every core at the
    last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bufs5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m c) ∗ Rides c)) (Tₙ := Tend m)
    (hch := ⟨fun _ => .rfl, fun _ => .rfl, fun _ => .rfl, fun _ => .rfl, fun _ => .rfl, fun c =>
      (show iprop(StableHlo.held (c : Thread nD τ) (Pipeline.ucRefs τ sig) (bufs5 m c) ∗ Rides c)
          ⊢ iprop(Tend m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs5 m c b)
    (hfin := fun c s' => by
      iintro ⟨⟨Hh, -⟩, HSI⟩
      unfold StableHlo.held
      imodintro
      iapply (pointsTo_read_all (Pipeline.ucRefs τ sig) (fun b => (((c : Thread nD τ)).1, b)) (bufs5 m c) s')
      isplitl [Hh] <;> iassumption)
    (hQ := fun s h => h)

end Cert.Kernel.Fr

end
-- ==== Proof.FrameKernel.Frame.lean ====
/-
  The frame: no item of the program writes an argument array — a host operation writes only its own result, a
  launch only its output windows' arrays — so the last contents of the fold at an argument's buffer walk back to
  the launch memory, and the run ends with both argument arrays as launched.
-/
import proofs.«115151_j57501022159376_2_alg».proof.Proof.FrameKernel.Run
import proofs.«115151_j57501022159376_2_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arg0_kept (c : Dev nD) : bufs5 m c (Proc.devRef .tc main_arg0) = m ((c : Thread nD τ).loc main_arg0) :=
  calc bufs5 m c (Proc.devRef .tc main_arg0)
    _ = bufs4 m c (Proc.devRef .tc main_arg0) := StableHlo.after_of_writes_sub hostOps2 _ hostOps2_writes (by decide)
    _ = bufs3 m c (Proc.devRef .tc main_arg0) := bufs4_of_ne m c main_arg0 (by decide)
    _ = bufs2 m c (Proc.devRef .tc main_arg0) := StableHlo.after_of_writes_sub hostOps1 _ hostOps1_writes (by decide)
    _ = bufs1 m c (Proc.devRef .tc main_arg0) := bufs2_of_ne m c main_arg0 (by decide)
    _ = bufs0 m c (Proc.devRef .tc main_arg0) := StableHlo.after_of_writes_sub hostOps0 _ hostOps0_writes (by decide)
    _ = m ((c : Thread nD τ).loc main_arg0) := rfl

theorem arg1_kept (c : Dev nD) : bufs5 m c (Proc.devRef .tc main_arg1) = m ((c : Thread nD τ).loc main_arg1) :=
  calc bufs5 m c (Proc.devRef .tc main_arg1)
    _ = bufs4 m c (Proc.devRef .tc main_arg1) := StableHlo.after_of_writes_sub hostOps2 _ hostOps2_writes (by decide)
    _ = bufs3 m c (Proc.devRef .tc main_arg1) := bufs4_of_ne m c main_arg1 (by decide)
    _ = bufs2 m c (Proc.devRef .tc main_arg1) := StableHlo.after_of_writes_sub hostOps1 _ hostOps1_writes (by decide)
    _ = bufs1 m c (Proc.devRef .tc main_arg1) := bufs2_of_ne m c main_arg1 (by decide)
    _ = bufs0 m c (Proc.devRef .tc main_arg1) := StableHlo.after_of_writes_sub hostOps0 _ hostOps0_writes (by decide)
    _ = m ((c : Thread nD τ).loc main_arg1) := rfl

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (arg0_kept m c),
     (h c _ (mem_uc main_arg1 (by decide))).trans (arg1_kept m c)⟩) (run_all m ρ)

end Cert.Kernel.Fr

end
-- ==== Proof.FrameKernelIdeal.Cases.lean ====
/-
  The gram kernel's body has two conditionals on the second grid coordinate k (of 4): the accumulators are zeroed
  when k = 0, and copied out to the two output blocks when k = 3. A grid point t of the 8 x 4 grid has k = t mod 4,
  so a point is in exactly one of three cases: first (k = 0), middle (k = 1, 2), last (k = 3). Both launches of the
  kernel run the same function on different buffers.
-/
import proofs.«115151_j57501022159376_2_alg».proof.Proof.Gen.KernelIdeal.Launch
import proofs.«115151_j57501022159376_2_alg».proof.Proof.Gen.KernelIdeal.Skeleton
import proofs.«115151_j57501022159376_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The accumulators are zeroed at this point: its second coordinate is 0 (the body's first conditional, its
    integer chain spelt out). -/
abbrev isFirst (i : grid0.Coords) : Prop :=
  (Scalar.cmpi .ne (Scalar.extui (Scalar.cmpi .eq (BitVec.ofNat 32 (i 1).val) 0#32)) 0#32) = 1#1
/-- The accumulators are copied out at this point: its second coordinate is 3 (the body's second conditional). -/
abbrev isLast (i : grid0.Coords) : Prop := k0_cond2 i = 1#1

/-- Point t zeroes the accumulators exactly when t ≡ 0 (mod 4). -/
theorem isFirst_iff : ∀ t : Fin grid0.N, isFirst (grid0.coords t) ↔ t.val % 4 = 0 := by decide +kernel
/-- Point t copies the accumulators out exactly when t ≡ 3 (mod 4). -/
theorem isLast_iff : ∀ t : Fin grid0.N, isLast (grid0.coords t) ↔ t.val % 4 = 3 := by decide +kernel

set_option maxRecDepth 65536 in
/-- The second launch runs the same function as the first. -/
theorem second_eq_first : cc1__gram_kernel (F := F) = cc0__gram_kernel (F := F) := rfl

end Cert.KernelIdeal.Fr

end
-- ==== Proof.FrameKernelIdeal.RunFirst.lean ====
/-
  The body at a first point (k = 0): the first conditional is taken, the second is not. Whatever the two
  accumulators held, the body stores zeros into them and then adds the block's Gram product and row sums of
  squares; it touches neither output block.
-/
import proofs.«115151_j57501022159376_2_alg».proof.Proof.FrameKernelIdeal.Cases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a first point leaves in the two accumulators (as pieces, last first), with the run: from the input
    block at x0, the output blocks at any contents (handed back untouched) and the accumulators at anything, the
    body runs to its end holding the input and outputs as they were and each accumulator with its pieces written. -/
noncomputable def runFirst (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i)
    (x0 : Vec F S1x512x4096 .f32) :
    Σ' (L5 : List (View.Piece (Elt F) S512x512 .f32)), { L6 : List (View.Piece (Elt F) S512x1 .f32) //
      ∀ (o3 : Vec F S1x512x512 .f32) (o4 : Vec F S1x512x1 .f32) (E : Set ℕ) (K : PUnit → sProp 𝕄),
        iprop(owns (c : Thread nD τ) arg2 fullShare x0 ∗ owns (c : Thread nD τ) arg3 fullShare o3 ∗ owns (c : Thread nD τ) arg4 fullShare o4
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare o3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg2 harg2 arg3 harg3 arg4 harg4 arg5 harg5 arg6 harg6) K } := by
  refine ⟨?_, ?_, fun o3 o4 E K => ?run⟩
  case run =>
    simp only [cc0__gram_kernel_eq_skeleton]; unfold cc0__gram_kernel_skel
    unfold owns
    iintro ⟨⟨%f2, %hf2, H2⟩, ⟨%f3, %hf3, H3⟩, ⟨%f4, %hf4, H4⟩, ⟨%d5, %f5, -, H5⟩, ⟨%d6, %f6, -, H6⟩, Hk⟩
    obtain rfl := harg2.eq_unread hf2; obtain rfl := harg3.eq_unread hf3; obtain rfl := harg4.eq_unread hf4
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Fr

end
-- ==== Proof.FrameKernelIdeal.RunMid.lean ====
/-
  The body at a middle point (k = 1, 2): neither conditional is taken. From the input block x0 and the two
  accumulators at the contents the point before left (a5, a6), the body adds the block's Gram product and row sums
  of squares into the accumulators and touches neither output block.
-/
import proofs.«115151_j57501022159376_2_alg».proof.Proof.FrameKernelIdeal.Cases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a middle point leaves in the two accumulators (as pieces, last first), with the run: from the input
    block at x0, the output blocks at any contents (handed back untouched) and the accumulators at a5, a6, the body
    runs to its end holding the input and outputs as they were and each accumulator with its pieces written. -/
noncomputable def runMid (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i)
    (x0 : Vec F S1x512x4096 .f32) (a5 : Vec F S512x512 .f32) (a6 : Vec F S512x1 .f32) :
    Σ' (L5 : List (View.Piece (Elt F) S512x512 .f32)), { L6 : List (View.Piece (Elt F) S512x1 .f32) //
      ∀ (o3 : Vec F S1x512x512 .f32) (o4 : Vec F S1x512x1 .f32) (E : Set ℕ) (K : PUnit → sProp 𝕄),
        iprop(owns (c : Thread nD τ) arg2 fullShare x0 ∗ owns (c : Thread nD τ) arg3 fullShare o3 ∗ owns (c : Thread nD τ) arg4 fullShare o4
            ∗ owns (c : Thread nD τ) arg5 fullShare a5 ∗ owns (c : Thread nD τ) arg6 fullShare a6
            ∗ (iprop(owns (c : Thread nD τ) arg2 fullShare x0 ∗ owns (c : Thread nD τ) arg3 fullShare o3 ∗ owns (c : Thread nD τ) arg4 fullShare o4
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg2 harg2 arg3 harg3 arg4 harg4 arg5 harg5 arg6 harg6) K } := by
  refine ⟨?_, ?_, fun o3 o4 E K => ?run⟩
  case run =>
    simp only [cc0__gram_kernel_eq_skeleton]; unfold cc0__gram_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc1 | exact hc2)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]; · iexists _; iexact H5
    iexists _; iexact H6

end Cert.KernelIdeal.Fr

end
-- ==== Proof.FrameKernelIdeal.RunLast.lean ====
/-
  The body at a last point (k = 3): the first conditional is not taken, the second is. From the input block x0
  and the accumulators at what the point before left (a5, a6), the body adds the block's Gram product and row sums
  of squares into the accumulators and then copies each accumulator into its output block.
-/
import proofs.«115151_j57501022159376_2_alg».proof.Proof.FrameKernelIdeal.Cases

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores a last point leaves in the two output blocks and the two accumulators (as pieces, last first), with
    the run: from the input block at x0, the output blocks at anything and the accumulators at a5, a6, the body runs
    to its end holding the input as it was and each of the four other buffers with its pieces written. -/
noncomputable def runLast (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i)
    (x0 : Vec F S1x512x4096 .f32) (a5 : Vec F S512x512 .f32) (a6 : Vec F S512x1 .f32) :
    Σ' (L3 : List (View.Piece (Elt F) S1x512x512 .f32)) (L4 : List (View.Piece (Elt F) S1x512x1 .f32))
       (L5 : List (View.Piece (Elt F) S512x512 .f32)), { L6 : List (View.Piece (Elt F) S512x1 .f32) //
      ∀ (E : Set ℕ) (K : PUnit → sProp 𝕄),
        iprop(owns (c : Thread nD τ) arg2 fullShare x0 ∗ (∃ d, owns (c : Thread nD τ) arg3 fullShare d) ∗ (∃ d, owns (c : Thread nD τ) arg4 fullShare d)
            ∗ owns (c : Thread nD τ) arg5 fullShare a5 ∗ owns (c : Thread nD τ) arg6 fullShare a6
            ∗ (iprop(owns (c : Thread nD τ) arg2 fullShare x0
                ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f L4)
                ∗ (∃ f, arg5.view.loc (c : Thread nD τ) ↦[arg5.view.set]{fullShare} arg5.view.writes (Elt F) f L5)
                ∗ (∃ f, arg6.view.loc (c : Thread nD τ) ↦[arg6.view.set]{fullShare} arg6.view.writes (Elt F) f L6)) -∗ K ⟨⟩))
          ⊢ wp frame (wpE (defs₀ (F := F)) Variants.none c none) E (cc0__gram_kernel i arg2 harg2 arg3 harg3 arg4 harg4 arg5 harg5 arg6 harg6) K } := by
  refine ⟨?_, ?_, ?_, ?_, fun E K => ?run⟩
  case run =>
    simp only [cc0__gram_kernel_eq_skeleton]; unfold cc0__gram_kernel_skel
    unfold owns
    iintro ⟨⟨%f2, %hf2, H2⟩, ⟨%d3, %f3, -, H3⟩, ⟨%d4, %f4, -, H4⟩, ⟨%f5, %hf5, H5⟩, ⟨%f6, %hf6, H6⟩, Hk⟩
    obtain rfl := harg2.eq_unread hf2
    obtain rfl := harg5.eq_unread hf5; obtain rfl := harg6.eq_unread hf6
    sl_exec (disch := first | exact hc1 | exact hc2)
    sl_step
    iapply Hk
    isplitl [H2]
    · iexists _; isplitr; · ipureintro; exact harg2.read_unread _
      iexact H2
    isplitl [H3]; · iexists _; iexact H3
    isplitl [H4]; · iexists _; iexact H4
    isplitl [H5]; · iexists _; iexact H5
    iexists _; iexact H6

end Cert.KernelIdeal.Fr

end
-- ==== Proof.FrameKernelIdeal.Leaves.lean ====
/-
  What the gram kernel's body leaves in its two accumulators and two output blocks in each of its three cases,
  as the canonical contents of the stores the run found (the first piece of the list covering an index gives its
  value), and that in each case the stores into a buffer cover it. Stated over any whole buffers, so both launches
  of the kernel use them.
-/
import proofs.«115151_j57501022159376_2_alg».proof.Proof.FrameKernelIdeal.RunFirst
import proofs.«115151_j57501022159376_2_alg».proof.Proof.FrameKernelIdeal.RunMid
import proofs.«115151_j57501022159376_2_alg».proof.Proof.FrameKernelIdeal.RunLast

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves, as the canonical contents of its stores -/

def firstG (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) : Vec F S512x512 .f32 :=
  View.canon (runFirst c i arg2 harg2 arg3 harg3 arg4 harg4 arg5 harg5 arg6 harg6 hc1 hc2 x0).1
def firstS (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) : Vec F S512x1 .f32 :=
  View.canon (runFirst c i arg2 harg2 arg3 harg3 arg4 harg4 arg5 harg5 arg6 harg6 hc1 hc2 x0).2.1
theorem firstG_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) (y : S512x512.Idx) :
    ∃ pc ∈ (runFirst c i arg2 harg2 arg3 harg3 arg4 harg4 arg5 harg5 arg6 harg6 hc1 hc2 x0).1, y ∈ pc.1.set :=
  View.cover_of_tiledL _ S512x512.size (by sl_kernel_rfl) y
theorem firstS_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) (y : S512x1.Idx) :
    ∃ pc ∈ (runFirst c i arg2 harg2 arg3 harg3 arg4 harg4 arg5 harg5 arg6 harg6 hc1 hc2 x0).2.1, y ∈ pc.1.set :=
  View.cover_of_tiledL _ S512x1.size (by sl_kernel_rfl) y

def midG (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) : Vec F S512x512 .f32 :=
  View.canon (runMid c i arg2 harg2 arg3 harg3 arg4 harg4 arg5 harg5 arg6 harg6 hc1 hc2 x0 a5 a6).1
def midS (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) : Vec F S512x1 .f32 :=
  View.canon (runMid c i arg2 harg2 arg3 harg3 arg4 harg4 arg5 harg5 arg6 harg6 hc1 hc2 x0 a5 a6).2.1
theorem midG_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) (y : S512x512.Idx) :
    ∃ pc ∈ (runMid c i arg2 harg2 arg3 harg3 arg4 harg4 arg5 harg5 arg6 harg6 hc1 hc2 x0 a5 a6).1, y ∈ pc.1.set :=
  View.cover_of_tiledL _ S512x512.size (by sl_kernel_rfl) y
theorem midS_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) (y : S512x1.Idx) :
    ∃ pc ∈ (runMid c i arg2 harg2 arg3 harg3 arg4 harg4 arg5 harg5 arg6 harg6 hc1 hc2 x0 a5 a6).2.1, y ∈ pc.1.set :=
  View.cover_of_tiledL _ S512x1.size (by sl_kernel_rfl) y

def lastOutG (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) : Vec F S1x512x512 .f32 :=
  View.canon (runLast c i arg2 harg2 arg3 harg3 arg4 harg4 arg5 harg5 arg6 harg6 hc1 hc2 x0 a5 a6).1
def lastOutS (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) : Vec F S1x512x1 .f32 :=
  View.canon (runLast c i arg2 harg2 arg3 harg3 arg4 harg4 arg5 harg5 arg6 harg6 hc1 hc2 x0 a5 a6).2.1
def lastG (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) : Vec F S512x512 .f32 :=
  View.canon (runLast c i arg2 harg2 arg3 harg3 arg4 harg4 arg5 harg5 arg6 harg6 hc1 hc2 x0 a5 a6).2.2.1
def lastS (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) : Vec F S512x1 .f32 :=
  View.canon (runLast c i arg2 harg2 arg3 harg3 arg4 harg4 arg5 harg5 arg6 harg6 hc1 hc2 x0 a5 a6).2.2.2.1
theorem lastOutG_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) (y : S1x512x512.Idx) :
    ∃ pc ∈ (runLast c i arg2 harg2 arg3 harg3 arg4 harg4 arg5 harg5 arg6 harg6 hc1 hc2 x0 a5 a6).1, y ∈ pc.1.set :=
  View.cover_of_tiledL _ S1x512x512.size (by sl_kernel_rfl) y
theorem lastOutS_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) (y : S1x512x1.Idx) :
    ∃ pc ∈ (runLast c i arg2 harg2 arg3 harg3 arg4 harg4 arg5 harg5 arg6 harg6 hc1 hc2 x0 a5 a6).2.1, y ∈ pc.1.set :=
  View.cover_of_tiledL _ S1x512x1.size (by sl_kernel_rfl) y
theorem lastG_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) (y : S512x512.Idx) :
    ∃ pc ∈ (runLast c i arg2 harg2 arg3 harg3 arg4 harg4 arg5 harg5 arg6 harg6 hc1 hc2 x0 a5 a6).2.2.1, y ∈ pc.1.set :=
  View.cover_of_tiledL _ S512x512.size (by sl_kernel_rfl) y
theorem lastS_cover (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) (y : S512x1.Idx) :
    ∃ pc ∈ (runLast c i arg2 harg2 arg3 harg3 arg4 harg4 arg5 harg5 arg6 harg6 hc1 hc2 x0 a5 a6).2.2.2.1, y ∈ pc.1.set :=
  View.cover_of_tiledL _ S512x1.size (by sl_kernel_rfl) y

end Cert.KernelIdeal.Fr

end
-- ==== Proof.FrameKernelIdeal.Region0.lean ====
/-
  The first launch of the gram kernel as a region of the program: what its two accumulators and two output blocks
  hold after each grid point, the invariant that carries the accumulators from a point to the next, the proof data
  and the body's obligation at every point — all at any contents `V` of the TensorCore's buffers at the region's entry.

  Grid point t = 4 b + k works on block k of batch b. After it the accumulators hold what the case of k leaves:
  at k = 0 the block's products over zeros, at k > 0 the block's products added to what point t - 1 left. At k = 3
  the two output blocks receive copies of the accumulators; at the other points they are idle.
-/
import proofs.«115151_j57501022159376_2_alg».proof.Proof.FrameKernelIdeal.Leaves

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R0

variable (V : (c : Dev nD) → (b : Ref sig .tc) → Buf (Elt F) ((c : Thread nD τ).loc b))

/-! ## The buffers the body is called with -/

abbrev mIn (t : Fin cfg0.N) : Memref sig .tc .vmem S1x512x4096 .f32 := win0_0.stage (cfg0.slots t 0)
abbrev hIn (t : Fin cfg0.N) : (mIn t).IsWhole := hstage0_0 ((cfg0.slots t 0).cast nbuf0_0)
abbrev mG (t : Fin cfg0.N) : Memref sig .tc .vmem S1x512x512 .f32 := win0_1.stage (cfg0.slots t 1)
abbrev hG (t : Fin cfg0.N) : (mG t).IsWhole := hstage0_1 ((cfg0.slots t 1).cast nbuf0_1)
abbrev mS (t : Fin cfg0.N) : Memref sig .tc .vmem S1x512x1 .f32 := win0_2.stage (cfg0.slots t 2)
abbrev hS (t : Fin cfg0.N) : (mS t).IsWhole := hstage0_2 ((cfg0.slots t 2).cast nbuf0_2)
/-- The two accumulators: scoped buffers of the kernel's own. -/
abbrev accG : Memref sig .tc .vmem S512x512 .f32 := Memref.whole cc0_scratch0
abbrev accS : Memref sig .tc .vmem S512x1 .f32 := Memref.whole cc0_scratch1

theorem first_iff : ∀ t : Fin cfg0.N, isFirst (grid0.coords t) ↔ t.val % 4 = 0 := isFirst_iff
theorem last_iff : ∀ t : Fin cfg0.N, isLast (grid0.coords t) ↔ t.val % 4 = 3 := isLast_iff

/-- The input window's block at point `t`, read off its array as the region finds it. -/
def iblk (c : Dev nD) (t : Fin cfg0.N) : ((cfg0.win 0).xblock (cfg0.grid.coords t)).Idx → Elt F (cfg0.win 0).elt :=
  ((cfg0.win 0).blk t).view.read (Elt F) (V c (Pipeline.arrRef spec0 0))

/-! ## The accumulators after each point -/

/-- What the two accumulators hold after the body at position `n`: the case of `n mod 4` run on the point's block,
    over what position `n - 1` left when the case reads the accumulators. -/
def accAt (c : Dev nD) : (n : ℕ) → n < cfg0.N → Vec F S512x512 .f32 × Vec F S512x1 .f32
  | 0, hn =>
    (firstG c (grid0.coords ⟨0, hn⟩) (mIn ⟨0, hn⟩) (hIn ⟨0, hn⟩) (mG ⟨0, hn⟩) (hG ⟨0, hn⟩) (mS ⟨0, hn⟩) (hS ⟨0, hn⟩) accG (Memref.isWhole_whole _) accS (Memref.isWhole_whole _) ((first_iff ⟨0, hn⟩).mpr (Nat.zero_mod _)) (fun h => absurd ((last_iff ⟨0, hn⟩).mp h) (by dsimp only; omega)) (iblk V c ⟨0, hn⟩),
     firstS c (grid0.coords ⟨0, hn⟩) (mIn ⟨0, hn⟩) (hIn ⟨0, hn⟩) (mG ⟨0, hn⟩) (hG ⟨0, hn⟩) (mS ⟨0, hn⟩) (hS ⟨0, hn⟩) accG (Memref.isWhole_whole _) accS (Memref.isWhole_whole _) ((first_iff ⟨0, hn⟩).mpr (Nat.zero_mod _)) (fun h => absurd ((last_iff ⟨0, hn⟩).mp h) (by dsimp only; omega)) (iblk V c ⟨0, hn⟩))
  | n + 1, hn =>
    if h0 : (n + 1) % 4 = 0 then
      (firstG c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) ((first_iff ⟨n + 1, hn⟩).mpr h0) (fun h => absurd ((last_iff ⟨n + 1, hn⟩).mp h) (by dsimp only; omega)) (iblk V c ⟨n + 1, hn⟩),
       firstS c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) ((first_iff ⟨n + 1, hn⟩).mpr h0) (fun h => absurd ((last_iff ⟨n + 1, hn⟩).mp h) (by dsimp only; omega)) (iblk V c ⟨n + 1, hn⟩))
    else if h3 : (n + 1) % 4 = 3 then
      (lastG c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) ((last_iff ⟨n + 1, hn⟩).mpr h3) (iblk V c ⟨n + 1, hn⟩) (accAt c n (Nat.lt_of_succ_lt hn)).1 (accAt c n (Nat.lt_of_succ_lt hn)).2,
       lastS c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) ((last_iff ⟨n + 1, hn⟩).mpr h3) (iblk V c ⟨n + 1, hn⟩) (accAt c n (Nat.lt_of_succ_lt hn)).1 (accAt c n (Nat.lt_of_succ_lt hn)).2)
    else
      (midG c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) (fun h => h3 ((last_iff ⟨n + 1, hn⟩).mp h)) (iblk V c ⟨n + 1, hn⟩) (accAt c n (Nat.lt_of_succ_lt hn)).1 (accAt c n (Nat.lt_of_succ_lt hn)).2,
       midS c (grid0.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) (fun h => h3 ((last_iff ⟨n + 1, hn⟩).mp h)) (iblk V c ⟨n + 1, hn⟩) (accAt c n (Nat.lt_of_succ_lt hn)).1 (accAt c n (Nat.lt_of_succ_lt hn)).2)

/-- The accumulators at the point before `t` (position `t - 1`). -/
abbrev prevAcc (c : Dev nD) (t : Fin cfg0.N) : Vec F S512x512 .f32 × Vec F S512x1 .f32 :=
  accAt V c (t.val - 1) (Nat.lt_of_le_of_lt (Nat.sub_le _ _) t.isLt)

theorem accAt_first (c : Dev nD) (t : Fin cfg0.N) (h0 : t.val % 4 = 0) (h3 : ¬t.val % 4 = 3) :
    accAt V c t.val t.isLt =
      (firstG c (grid0.coords t) (mIn t) (hIn t) (mG t) (hG t) (mS t) (hS t) accG (Memref.isWhole_whole _) accS (Memref.isWhole_whole _) ((first_iff t).mpr h0) (fun h => h3 ((last_iff t).mp h)) (iblk V c t),
       firstS c (grid0.coords t) (mIn t) (hIn t) (mG t) (hG t) (mS t) (hS t) accG (Memref.isWhole_whole _) accS (Memref.isWhole_whole _) ((first_iff t).mpr h0) (fun h => h3 ((last_iff t).mp h)) (iblk V c t)) := by
  obtain ⟨n, hn⟩ := t
  cases n with
  | zero => exact rfl
  | succ n => exact (dif_pos h0).trans rfl

theorem accAt_mid (c : Dev nD) (t : Fin cfg0.N) (h0 : ¬t.val % 4 = 0) (h3 : ¬t.val % 4 = 3) :
    accAt V c t.val t.isLt =
      (midG c (grid0.coords t) (mIn t) (hIn t) (mG t) (hG t) (mS t) (hS t) accG (Memref.isWhole_whole _) accS (Memref.isWhole_whole _) (fun h => h0 ((first_iff t).mp h)) (fun h => h3 ((last_iff t).mp h)) (iblk V c t) (prevAcc V c t).1 (prevAcc V c t).2,
       midS c (grid0.coords t) (mIn t) (hIn t) (mG t) (hG t) (mS t) (hS t) accG (Memref.isWhole_whole _) accS (Memref.isWhole_whole _) (fun h => h0 ((first_iff t).mp h)) (fun h => h3 ((last_iff t).mp h)) (iblk V c t) (prevAcc V c t).1 (prevAcc V c t).2) := by
  obtain ⟨n, hn⟩ := t
  cases n with
  | zero => exact absurd (Nat.zero_mod _) h0
  | succ n => exact (dif_neg h0).trans ((dif_neg h3).trans rfl)

theorem accAt_last (c : Dev nD) (t : Fin cfg0.N) (h0 : ¬t.val % 4 = 0) (h3 : t.val % 4 = 3) :
    accAt V c t.val t.isLt =
      (lastG c (grid0.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2,
       lastS c (grid0.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2) := by
  obtain ⟨n, hn⟩ := t
  cases n with
  | zero => exact absurd (Nat.zero_mod _) h0
  | succ n => exact (dif_neg h0).trans ((dif_pos h3).trans rfl)

/-- What the two output blocks hold after the body at point `t`: at a last point the copies of the accumulators;
    elsewhere the windows are idle and nothing consults this. -/
def outAt (c : Dev nD) (t : Fin cfg0.N) : Vec F S1x512x512 .f32 × Vec F S1x512x1 .f32 :=
  if h3 : t.val % 4 = 3 then
    (lastOutG c (grid0.coords t) (mIn t) (hIn t) (mG t) (hG t) (mS t) (hS t) accG (Memref.isWhole_whole _) accS (Memref.isWhole_whole _) (fun h => absurd ((first_iff t).mp h) (by omega)) ((last_iff t).mpr h3) (iblk V c t) (prevAcc V c t).1 (prevAcc V c t).2,
     lastOutS c (grid0.coords t) (mIn t) (hIn t) (mG t) (hG t) (mS t) (hS t) accG (Memref.isWhole_whole _) accS (Memref.isWhole_whole _) (fun h => absurd ((first_iff t).mp h) (by omega)) ((last_iff t).mpr h3) (iblk V c t) (prevAcc V c t).1 (prevAcc V c t).2)
  else (View.canon [], View.canon [])

theorem outAt_last (c : Dev nD) (t : Fin cfg0.N) (h0 : ¬t.val % 4 = 0) (h3 : t.val % 4 = 3) :
    outAt V c t =
      (lastOutG c (grid0.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2,
       lastOutS c (grid0.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2) := by
  unfold outAt; exact dif_pos h3

/-! ## The invariant between points -/

/-- The scoped buffers of the core that are neither a staging buffer of this launch nor one of its accumulators
    (the other launch's), each whole at some contents. -/
abbrev others (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f))

/-- The region's invariant before position `n`: before the first point every scoped buffer the launch does not stage
    at anything and the generator register at some state; afterwards the same with the two accumulators at what the
    point before left. -/
def Inv (c : Dev nD) : (n : ℕ) → n ≤ cfg0.N → sProp 𝕄
  | 0, _ => Pipeline.ΦA spec0 c
  | n + 1, hn => iprop(iprop(owns (c : Thread nD τ) accG fullShare (accAt V c n hn).1 ∗ owns (c : Thread nD τ) accS fullShare (accAt V c n hn).2 ∗ others c) ∗ (∃ r, prngReg c r))

theorem Inv_zero (c : Dev nD) (n : ℕ) (h : n ≤ cfg0.N) (hz : n = 0) : Inv V c n h = Pipeline.ΦA spec0 c := by
  subst hz; rfl
theorem Inv_succ (c : Dev nD) (n : ℕ) (hn : n < cfg0.N) :
    Inv V c (n + 1) hn = iprop(iprop(owns (c : Thread nD τ) accG fullShare (accAt V c n hn).1 ∗ owns (c : Thread nD τ) accS fullShare (accAt V c n hn).2 ∗ others c) ∗ (∃ r, prngReg c r)) := rfl
theorem Inv_pos (c : Dev nD) (n : ℕ) (h : n ≤ cfg0.N) (hz : n ≠ 0) :
    Inv V c n h = iprop(iprop(owns (c : Thread nD τ) accG fullShare (accAt V c (n - 1) (by omega)).1 ∗ owns (c : Thread nD τ) accS fullShare (accAt V c (n - 1) (by omega)).2 ∗ others c) ∗ (∃ r, prngReg c r)) := by
  cases n with
  | zero => exact absurd rfl hz
  | succ n => rfl

/-- The launch's scoped rest holds the two accumulators as buffers owned at some contents, beside the others, -/
theorem PhiA_split (c : Dev nD) :
    (Pipeline.ΦA spec0 c : sProp 𝕄)
      ⊢ iprop(iprop((∃ d, owns (c : Thread nD τ) accG fullShare d) ∗ (∃ d, owns (c : Thread nD τ) accS fullShare d) ∗ others c) ∗ (∃ r, prngReg c r)) := by
  unfold Pipeline.ΦA; rw [scopedRest0_eq]; simp only [accG, accS, owns_whole]
  exact .rfl
/-- and is made of them. -/
theorem PhiA_join (c : Dev nD) :
    iprop(iprop((∃ d, owns (c : Thread nD τ) accG fullShare d) ∗ (∃ d, owns (c : Thread nD τ) accS fullShare d) ∗ others c) ∗ (∃ r, prngReg c r))
      ⊢ (Pipeline.ΦA spec0 c : sProp 𝕄) := by
  unfold Pipeline.ΦA; rw [scopedRest0_eq]; simp only [accG, accS, owns_whole]
  exact .rfl

/-- After any point the invariant still holds the two accumulators at SOME contents (their named contents forgotten). -/
theorem Inv_forget (c : Dev nD) (n : ℕ) (h : n ≤ cfg0.N) (hz : n ≠ 0) :
    Inv V c n h ⊢ iprop(iprop((∃ d, owns (c : Thread nD τ) accG fullShare d) ∗ (∃ d, owns (c : Thread nD τ) accS fullShare d) ∗ others c) ∗ (∃ r, prngReg c r)) := by
  rw [Inv_pos V c _ _ hz]
  iintro ⟨⟨H5, H6, Hoth⟩, Hg⟩
  isplitl [H5 H6 Hoth]
  · isplitl [H5]; · iexists _; iexact H5
    isplitl [H6]; · iexists _; iexact H6
    iexact Hoth
  iexact Hg

/-! ## The proof data -/

/-- The proof data of this launch on core `c`: the windows' arrays as the region finds them; after the body at
    point `t` the input's buffer at its block and the outputs' at `outAt`; the invariant `Inv`; nothing owed;
    full shares. -/
def dat (c : Dev nD) : Dat τ (Elt F) Unit ℕ (UR sig nD τ) ℕ cfg0 c where
  A w := V c (Pipeline.arrRef spec0 w)
  after w t := match w with
    | ⟨0, _⟩ => iblk V c t
    | ⟨1, _⟩ => (outAt V c t).1
    | ⟨2, _⟩ => (outAt V c t).2
  Φ t := Inv V c t.val (Nat.le_of_lt_succ t.isLt)
  q _ := fullShare
  owed _ := 0

theorem A_eq (c : Dev nD) (w : Fin cfg0.W) : (dat V c).A w = V c (Pipeline.arrRef spec0 w) := by
  dsimp only [dat]
theorem Inv_castSucc (c : Dev nD) (t : Fin cfg0.N) :
    (dat V c).Φ t.castSucc = Inv V c t.val (Nat.le_of_lt t.isLt) := by
  dsimp only [dat]; simp only [Fin.coe_castSucc]
theorem after_in (c : Dev nD) (t : Fin cfg0.N) : (dat V c).after 0 t = iblk V c t := by dsimp only [dat]
theorem after_G (c : Dev nD) (t : Fin cfg0.N) : (dat V c).after 1 t = (outAt V c t).1 := by dsimp only [dat]
theorem after_S (c : Dev nD) (t : Fin cfg0.N) : (dat V c).after 2 t = (outAt V c t).2 := by dsimp only [dat]

/-- The input's current staging buffer holds its block at every point, fetched there or not. -/
theorem before_in (c : Dev nD) (t : Fin cfg0.N) (d) : (dat V c).before 0 t d = iblk V c t :=
  ((dat V c).before_in_eq_fetched 0 rfl (fun _ => rfl) (fun _ _ _ => rfl)
    (fun t => by rw [after_in]; unfold Dat.blockOf iblk; rw [A_eq]; try rfl) t d).trans
    (by unfold Dat.fetched Dat.blockOf iblk; rw [A_eq]; try rfl)

/-! ## Where the windows are idle -/

theorem liveIn : ∀ t : Fin cfg0.N, cfg0.idle 0 (grid0.coords t) = false := by decide +kernel
theorem idleG : ∀ t : Fin cfg0.N, ¬isLast (grid0.coords t) → cfg0.idle 1 (grid0.coords t) = true := by decide +kernel
theorem noFlushG : ∀ t : Fin cfg0.N, ¬isLast (grid0.coords t) → (cfg0.win 1).flush t = false := by decide +kernel
theorem liveG : ∀ t : Fin cfg0.N, isLast (grid0.coords t) → cfg0.idle 1 (grid0.coords t) = false := by decide +kernel
theorem idleS : ∀ t : Fin cfg0.N, ¬isLast (grid0.coords t) → cfg0.idle 2 (grid0.coords t) = true := by decide +kernel
theorem noFlushS : ∀ t : Fin cfg0.N, ¬isLast (grid0.coords t) → (cfg0.win 2).flush t = false := by decide +kernel
theorem liveS : ∀ t : Fin cfg0.N, isLast (grid0.coords t) → cfg0.idle 2 (grid0.coords t) = false := by decide +kernel

/-! ## The body obligation -/

def bodyPre (c : Dev nD) (t : Fin cfg0.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mG t) fullShare ((dat V c).before 1 t d))
    ∗ (∃ d, owns (c : Thread nD τ) (mS t) fullShare ((dat V c).before 2 t d)))

def bodyPost (c : Dev nD) (t : Fin cfg0.N) : sProp 𝕄 :=
  iprop((dat V c).Φ t.succ ∗ (dat V c).owesAt () t.succ
    ∗ (dat V c).leavesExact 0 t ∗ (dat V c).leavesExact 1 t ∗ (dat V c).leavesExact 2 t)

/-- Before any point the invariant holds the two accumulators at SOME contents. -/
theorem Inv_any (c : Dev nD) (t : Fin cfg0.N) :
    (dat V c).Φ t.castSucc ⊢ iprop(iprop((∃ d, owns (c : Thread nD τ) accG fullShare d) ∗ (∃ d, owns (c : Thread nD τ) accS fullShare d) ∗ others c) ∗ (∃ r, prngReg c r)) := by
  rw [Inv_castSucc]
  by_cases hz : t.val = 0
  · rw [Inv_zero V c _ _ hz]; exact PhiA_split c
  · exact Inv_forget V c _ _ hz

set_option maxHeartbeats 4800000 in
/-- The body at any point: the input's buffer holds its block; the point's position modulo 4 says which case it is
    in; the invariant hands the body the accumulators at what the point before left (at anything at a first point)
    and takes them back at this point's contents; the output blocks are handed back untouched except at a last
    point, where they receive their copies. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  try simp only [second_eq_first]
  simp only [before_in]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg0.N = 32 from N_0)
  rw [show (dat V c).leavesExact 0 t = owns (c : Thread nD τ) (mIn t) fullShare ((dat V c).after 0 t) from by
    unfold Dat.leavesExact; rw [liveIn t], after_in]
  by_cases h0 : t.val % 4 = 0
  · have h3 : ¬t.val % 4 = 3 := by omega
    have hl : ¬isLast (grid0.coords t) := fun h => h3 ((last_iff t).mp h)
    rw [Dat.leavesExact_idle (dat V c) 1 t (idleG t hl) (noFlushG t hl), Dat.leavesExact_idle (dat V c) 2 t (idleS t hl) (noFlushS t hl)]
    rw [accAt_first V c t h0 h3]
    unfold firstG firstS; (try dsimp only)
    iintro ⟨Hinv, Ho, ⟨%d0, H0⟩, ⟨%d1, H1⟩, ⟨%d2, H2⟩⟩
    ihave Hinv' := (Inv_any V c t) $$ Hinv
    icases Hinv' with ⟨⟨H5, H6, Hoth⟩, Hg⟩
    iapply ((runFirst (F := F) c (grid0.coords t) (mIn t) (hIn t) (mG t) (hG t) (mS t) (hS t) accG (Memref.isWhole_whole _) accS (Memref.isWhole_whole _) ((first_iff t).mpr h0) hl (iblk V c t)).2.2 _ _ Set.univ _)
    isplitl [H0]; · iexact H0
    isplitl [H1]; · iexact H1
    isplitl [H2]; · iexact H2
    isplitl [H5]; · iexact H5
    isplitl [H6]; · iexact H6
    iintro ⟨H0, H1, H2, ⟨%e5, H5⟩, ⟨%e6, H6⟩⟩
    isplitl [H5 H6 Hoth Hg]
    · isplitl [H5 H6 Hoth]
      · isplitl [H5]
        · unfold owns; iexists _; isplitr
          swap; · iexact H5
          ipureintro; exact View.read_writes_eq_canon _ _ _ (firstG_cover c _ _ _ _ _ _ _ _ _ _ _ _ _ _)
        isplitl [H6]
        · unfold owns; iexists _; isplitr
          swap; · iexact H6
          ipureintro; exact View.read_writes_eq_canon _ _ _ (firstS_cover c _ _ _ _ _ _ _ _ _ _ _ _ _ _)
        iexact Hoth
      iexact Hg
    isplitl [Ho]; · iexact Ho
    isplitl [H0]; · iexact H0
    isplitl [H1]; · iexists _; iexact H1
    iexists _; iexact H2
  · have hz : t.val ≠ 0 := fun h => h0 (by rw [h])
    have hf : ¬isFirst (grid0.coords t) := fun h => h0 ((first_iff t).mp h)
    by_cases h3 : t.val % 4 = 3
    · have hl : isLast (grid0.coords t) := (last_iff t).mpr h3
      rw [show (dat V c).leavesExact 1 t = owns (c : Thread nD τ) (mG t) fullShare ((dat V c).after 1 t) from by
        unfold Dat.leavesExact; rw [liveG t hl], after_G]
      rw [show (dat V c).leavesExact 2 t = owns (c : Thread nD τ) (mS t) fullShare ((dat V c).after 2 t) from by
        unfold Dat.leavesExact; rw [liveS t hl], after_S]
      rw [accAt_last V c t h0 h3, outAt_last V c t h0 h3]
      unfold lastG lastS lastOutG lastOutS; (try dsimp only)
      rw [Inv_castSucc V c t, Inv_pos V c _ _ hz]
      iintro ⟨⟨⟨H5, H6, Hoth⟩, Hg⟩, Ho, ⟨%d0, H0⟩, ⟨%d1, H1⟩, ⟨%d2, H2⟩⟩
      iapply ((runLast (F := F) c (grid0.coords t) (mIn t) (hIn t) (mG t) (hG t) (mS t) (hS t) accG (Memref.isWhole_whole _) accS (Memref.isWhole_whole _) hf hl (iblk V c t) _ _).2.2.2.2 Set.univ _)
      isplitl [H0]; · iexact H0
      isplitl [H1]; · iexists _; iexact H1
      isplitl [H2]; · iexists _; iexact H2
      isplitl [H5]; · iexact H5
      isplitl [H6]; · iexact H6
      iintro ⟨H0, ⟨%e1, H1⟩, ⟨%e2, H2⟩, ⟨%e5, H5⟩, ⟨%e6, H6⟩⟩
      isplitl [H5 H6 Hoth Hg]
      · isplitl [H5 H6 Hoth]
        · isplitl [H5]
          · unfold owns; iexists _; isplitr
            swap; · iexact H5
            ipureintro; exact View.read_writes_eq_canon _ _ _ (lastG_cover c _ _ _ _ _ _ _ _ _ _ _ _ _ _ _ _)
          isplitl [H6]
          · unfold owns; iexists _; isplitr
            swap; · iexact H6
            ipureintro; exact View.read_writes_eq_canon _ _ _ (lastS_cover c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_eq_canon _ _ _ (lastOutG_cover c _ _ _ _ _ _ _ _ _ _ _ _ _ _ _ _)
      unfold owns; iexists _; isplitr
      swap; · iexact H2
      ipureintro; exact View.read_writes_eq_canon _ _ _ (lastOutS_cover c _ _ _ _ _ _ _ _ _ _ _ _ _ _ _ _)
    · have hl : ¬isLast (grid0.coords t) := fun h => h3 ((last_iff t).mp h)
      rw [Dat.leavesExact_idle (dat V c) 1 t (idleG t hl) (noFlushG t hl), Dat.leavesExact_idle (dat V c) 2 t (idleS t hl) (noFlushS t hl)]
      rw [accAt_mid V c t h0 h3]
      unfold midG midS; (try dsimp only)
      rw [Inv_castSucc V c t, Inv_pos V c _ _ hz]
      iintro ⟨⟨⟨H5, H6, Hoth⟩, Hg⟩, Ho, ⟨%d0, H0⟩, ⟨%d1, H1⟩, ⟨%d2, H2⟩⟩
      iapply ((runMid (F := F) c (grid0.coords t) (mIn t) (hIn t) (mG t) (hG t) (mS t) (hS t) accG (Memref.isWhole_whole _) accS (Memref.isWhole_whole _) hf hl (iblk V c t) _ _).2.2 _ _ Set.univ _)
      isplitl [H0]; · iexact H0
      isplitl [H1]; · iexact H1
      isplitl [H2]; · iexact H2
      isplitl [H5]; · iexact H5
      isplitl [H6]; · iexact H6
      iintro ⟨H0, H1, H2, ⟨%e5, H5⟩, ⟨%e6, H6⟩⟩
      isplitl [H5 H6 Hoth Hg]
      · isplitl [H5 H6 Hoth]
        · isplitl [H5]
          · unfold owns; iexists _; isplitr
            swap; · iexact H5
            ipureintro; exact View.read_writes_eq_canon _ _ _ (midG_cover c _ _ _ _ _ _ _ _ _ _ _ _ _ _ _ _)
          isplitl [H6]
          · unfold owns; iexists _; isplitr
            swap; · iexact H6
            ipureintro; exact View.read_writes_eq_canon _ _ _ (midS_cover c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W0, bigSep_W0]
  exact sound_body V c t

/-- What the launch hands the region is the invariant before the first point. -/
theorem hin (c : Dev nD) : Pipeline.ΦA spec0 c ⊢ (dat V c).Φ 0 := by
  rw [show (dat V c).Φ 0 = Inv V c 0 (Nat.zero_le _) from rfl, Inv_zero V c 0 _ rfl]

/-- After the last point the invariant gives the launch's scoped rest back: the accumulators' contents are forgotten. -/
theorem hout (c : Dev nD) : (dat V c).Φ (Fin.last cfg0.N) ⊢ Pipeline.ΦA spec0 c := by
  rw [show (dat V c).Φ (Fin.last cfg0.N) = Inv V c (Fin.last cfg0.N).val (Nat.le_of_lt_succ (Fin.last cfg0.N).isLt) from rfl]
  exact (Inv_forget V c _ _ (by rw [Fin.val_last]; have : cfg0.N = 32 := N_0; omega)).trans (PhiA_join c)

end R0

end Cert.KernelIdeal.Fr

end
-- ==== Proof.FrameKernelIdeal.Region1.lean ====
/-
  The second launch of the gram kernel as a region of the program (the same function on its own buffers): what its two accumulators and two output blocks
  hold after each grid point, the invariant that carries the accumulators from a point to the next, the proof data
  and the body's obligation at every point — all at any contents `V` of the TensorCore's buffers at the region's entry.

  Grid point t = 4 b + k works on block k of batch b. After it the accumulators hold what the case of k leaves:
  at k = 0 the block's products over zeros, at k > 0 the block's products added to what point t - 1 left. At k = 3
  the two output blocks receive copies of the accumulators; at the other points they are idle.
-/
import proofs.«115151_j57501022159376_2_alg».proof.Proof.FrameKernelIdeal.Leaves

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace R1

variable (V : (c : Dev nD) → (b : Ref sig .tc) → Buf (Elt F) ((c : Thread nD τ).loc b))

/-! ## The buffers the body is called with -/

abbrev mIn (t : Fin cfg1.N) : Memref sig .tc .vmem S1x512x4096 .f32 := win1_0.stage (cfg1.slots t 0)
abbrev hIn (t : Fin cfg1.N) : (mIn t).IsWhole := hstage1_0 ((cfg1.slots t 0).cast nbuf1_0)
abbrev mG (t : Fin cfg1.N) : Memref sig .tc .vmem S1x512x512 .f32 := win1_1.stage (cfg1.slots t 1)
abbrev hG (t : Fin cfg1.N) : (mG t).IsWhole := hstage1_1 ((cfg1.slots t 1).cast nbuf1_1)
abbrev mS (t : Fin cfg1.N) : Memref sig .tc .vmem S1x512x1 .f32 := win1_2.stage (cfg1.slots t 2)
abbrev hS (t : Fin cfg1.N) : (mS t).IsWhole := hstage1_2 ((cfg1.slots t 2).cast nbuf1_2)
/-- The two accumulators: scoped buffers of the kernel's own. -/
abbrev accG : Memref sig .tc .vmem S512x512 .f32 := Memref.whole cc1_scratch0
abbrev accS : Memref sig .tc .vmem S512x1 .f32 := Memref.whole cc1_scratch1

theorem first_iff : ∀ t : Fin cfg1.N, isFirst (grid1.coords t) ↔ t.val % 4 = 0 := isFirst_iff
theorem last_iff : ∀ t : Fin cfg1.N, isLast (grid1.coords t) ↔ t.val % 4 = 3 := isLast_iff

/-- The input window's block at point `t`, read off its array as the region finds it. -/
def iblk (c : Dev nD) (t : Fin cfg1.N) : ((cfg1.win 0).xblock (cfg1.grid.coords t)).Idx → Elt F (cfg1.win 0).elt :=
  ((cfg1.win 0).blk t).view.read (Elt F) (V c (Pipeline.arrRef spec1 0))

/-! ## The accumulators after each point -/

/-- What the two accumulators hold after the body at position `n`: the case of `n mod 4` run on the point's block,
    over what position `n - 1` left when the case reads the accumulators. -/
def accAt (c : Dev nD) : (n : ℕ) → n < cfg1.N → Vec F S512x512 .f32 × Vec F S512x1 .f32
  | 0, hn =>
    (firstG c (grid1.coords ⟨0, hn⟩) (mIn ⟨0, hn⟩) (hIn ⟨0, hn⟩) (mG ⟨0, hn⟩) (hG ⟨0, hn⟩) (mS ⟨0, hn⟩) (hS ⟨0, hn⟩) accG (Memref.isWhole_whole _) accS (Memref.isWhole_whole _) ((first_iff ⟨0, hn⟩).mpr (Nat.zero_mod _)) (fun h => absurd ((last_iff ⟨0, hn⟩).mp h) (by dsimp only; omega)) (iblk V c ⟨0, hn⟩),
     firstS c (grid1.coords ⟨0, hn⟩) (mIn ⟨0, hn⟩) (hIn ⟨0, hn⟩) (mG ⟨0, hn⟩) (hG ⟨0, hn⟩) (mS ⟨0, hn⟩) (hS ⟨0, hn⟩) accG (Memref.isWhole_whole _) accS (Memref.isWhole_whole _) ((first_iff ⟨0, hn⟩).mpr (Nat.zero_mod _)) (fun h => absurd ((last_iff ⟨0, hn⟩).mp h) (by dsimp only; omega)) (iblk V c ⟨0, hn⟩))
  | n + 1, hn =>
    if h0 : (n + 1) % 4 = 0 then
      (firstG c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) ((first_iff ⟨n + 1, hn⟩).mpr h0) (fun h => absurd ((last_iff ⟨n + 1, hn⟩).mp h) (by dsimp only; omega)) (iblk V c ⟨n + 1, hn⟩),
       firstS c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) ((first_iff ⟨n + 1, hn⟩).mpr h0) (fun h => absurd ((last_iff ⟨n + 1, hn⟩).mp h) (by dsimp only; omega)) (iblk V c ⟨n + 1, hn⟩))
    else if h3 : (n + 1) % 4 = 3 then
      (lastG c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) ((last_iff ⟨n + 1, hn⟩).mpr h3) (iblk V c ⟨n + 1, hn⟩) (accAt c n (Nat.lt_of_succ_lt hn)).1 (accAt c n (Nat.lt_of_succ_lt hn)).2,
       lastS c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) ((last_iff ⟨n + 1, hn⟩).mpr h3) (iblk V c ⟨n + 1, hn⟩) (accAt c n (Nat.lt_of_succ_lt hn)).1 (accAt c n (Nat.lt_of_succ_lt hn)).2)
    else
      (midG c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) (fun h => h3 ((last_iff ⟨n + 1, hn⟩).mp h)) (iblk V c ⟨n + 1, hn⟩) (accAt c n (Nat.lt_of_succ_lt hn)).1 (accAt c n (Nat.lt_of_succ_lt hn)).2,
       midS c (grid1.coords ⟨n + 1, hn⟩) (mIn ⟨n + 1, hn⟩) (hIn ⟨n + 1, hn⟩) (mG ⟨n + 1, hn⟩) (hG ⟨n + 1, hn⟩) (mS ⟨n + 1, hn⟩) (hS ⟨n + 1, hn⟩) accG (Memref.isWhole_whole _) accS (Memref.isWhole_whole _) (fun h => h0 ((first_iff ⟨n + 1, hn⟩).mp h)) (fun h => h3 ((last_iff ⟨n + 1, hn⟩).mp h)) (iblk V c ⟨n + 1, hn⟩) (accAt c n (Nat.lt_of_succ_lt hn)).1 (accAt c n (Nat.lt_of_succ_lt hn)).2)

/-- The accumulators at the point before `t` (position `t - 1`). -/
abbrev prevAcc (c : Dev nD) (t : Fin cfg1.N) : Vec F S512x512 .f32 × Vec F S512x1 .f32 :=
  accAt V c (t.val - 1) (Nat.lt_of_le_of_lt (Nat.sub_le _ _) t.isLt)

theorem accAt_first (c : Dev nD) (t : Fin cfg1.N) (h0 : t.val % 4 = 0) (h3 : ¬t.val % 4 = 3) :
    accAt V c t.val t.isLt =
      (firstG c (grid1.coords t) (mIn t) (hIn t) (mG t) (hG t) (mS t) (hS t) accG (Memref.isWhole_whole _) accS (Memref.isWhole_whole _) ((first_iff t).mpr h0) (fun h => h3 ((last_iff t).mp h)) (iblk V c t),
       firstS c (grid1.coords t) (mIn t) (hIn t) (mG t) (hG t) (mS t) (hS t) accG (Memref.isWhole_whole _) accS (Memref.isWhole_whole _) ((first_iff t).mpr h0) (fun h => h3 ((last_iff t).mp h)) (iblk V c t)) := by
  obtain ⟨n, hn⟩ := t
  cases n with
  | zero => exact rfl
  | succ n => exact (dif_pos h0).trans rfl

theorem accAt_mid (c : Dev nD) (t : Fin cfg1.N) (h0 : ¬t.val % 4 = 0) (h3 : ¬t.val % 4 = 3) :
    accAt V c t.val t.isLt =
      (midG c (grid1.coords t) (mIn t) (hIn t) (mG t) (hG t) (mS t) (hS t) accG (Memref.isWhole_whole _) accS (Memref.isWhole_whole _) (fun h => h0 ((first_iff t).mp h)) (fun h => h3 ((last_iff t).mp h)) (iblk V c t) (prevAcc V c t).1 (prevAcc V c t).2,
       midS c (grid1.coords t) (mIn t) (hIn t) (mG t) (hG t) (mS t) (hS t) accG (Memref.isWhole_whole _) accS (Memref.isWhole_whole _) (fun h => h0 ((first_iff t).mp h)) (fun h => h3 ((last_iff t).mp h)) (iblk V c t) (prevAcc V c t).1 (prevAcc V c t).2) := by
  obtain ⟨n, hn⟩ := t
  cases n with
  | zero => exact absurd (Nat.zero_mod _) h0
  | succ n => exact (dif_neg h0).trans ((dif_neg h3).trans rfl)

theorem accAt_last (c : Dev nD) (t : Fin cfg1.N) (h0 : ¬t.val % 4 = 0) (h3 : t.val % 4 = 3) :
    accAt V c t.val t.isLt =
      (lastG c (grid1.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2,
       lastS c (grid1.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2) := by
  obtain ⟨n, hn⟩ := t
  cases n with
  | zero => exact absurd (Nat.zero_mod _) h0
  | succ n => exact (dif_neg h0).trans ((dif_pos h3).trans rfl)

/-- What the two output blocks hold after the body at point `t`: at a last point the copies of the accumulators;
    elsewhere the windows are idle and nothing consults this. -/
def outAt (c : Dev nD) (t : Fin cfg1.N) : Vec F S1x512x512 .f32 × Vec F S1x512x1 .f32 :=
  if h3 : t.val % 4 = 3 then
    (lastOutG c (grid1.coords t) (mIn t) (hIn t) (mG t) (hG t) (mS t) (hS t) accG (Memref.isWhole_whole _) accS (Memref.isWhole_whole _) (fun h => absurd ((first_iff t).mp h) (by omega)) ((last_iff t).mpr h3) (iblk V c t) (prevAcc V c t).1 (prevAcc V c t).2,
     lastOutS c (grid1.coords t) (mIn t) (hIn t) (mG t) (hG t) (mS t) (hS t) accG (Memref.isWhole_whole _) accS (Memref.isWhole_whole _) (fun h => absurd ((first_iff t).mp h) (by omega)) ((last_iff t).mpr h3) (iblk V c t) (prevAcc V c t).1 (prevAcc V c t).2)
  else (View.canon [], View.canon [])

theorem outAt_last (c : Dev nD) (t : Fin cfg1.N) (h0 : ¬t.val % 4 = 0) (h3 : t.val % 4 = 3) :
    outAt V c t =
      (lastOutG c (grid1.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2,
       lastOutS c (grid1.coords t) (mIn t) (hIn t) (mG t) (hG t) (mS t) (hS t) accG (Memref.isWhole_whole _) accS (Memref.isWhole_whole _) (fun h => h0 ((first_iff t).mp h)) ((last_iff t).mpr h3) (iblk V c t) (prevAcc V c t).1 (prevAcc V c t).2) := by
  unfold outAt; exact dif_pos h3

/-! ## The invariant between points -/

/-- The scoped buffers of the core that are neither a staging buffer of this launch nor one of its accumulators
    (the other launch's staging buffers and accumulators), each whole at some contents. -/
abbrev others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's invariant before position `n`: before the first point every scoped buffer the launch does not stage
    at anything and the generator register at some state; afterwards the same with the two accumulators at what the
    point before left. -/
def Inv (c : Dev nD) : (n : ℕ) → n ≤ cfg1.N → sProp 𝕄
  | 0, _ => Pipeline.ΦA spec1 c
  | n + 1, hn => iprop(iprop(owns (c : Thread nD τ) accG fullShare (accAt V c n hn).1 ∗ owns (c : Thread nD τ) accS fullShare (accAt V c n hn).2 ∗ others c) ∗ (∃ r, prngReg c r))

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(iprop(owns (c : Thread nD τ) accG fullShare (accAt V c n hn).1 ∗ owns (c : Thread nD τ) accS fullShare (accAt V c n hn).2 ∗ others c) ∗ (∃ r, prngReg c r)) := rfl
theorem Inv_pos (c : Dev nD) (n : ℕ) (h : n ≤ cfg1.N) (hz : n ≠ 0) :
    Inv V c n h = iprop(iprop(owns (c : Thread nD τ) accG fullShare (accAt V c (n - 1) (by omega)).1 ∗ owns (c : Thread nD τ) accS fullShare (accAt V c (n - 1) (by omega)).2 ∗ others c) ∗ (∃ r, prngReg c r)) := by
  cases n with
  | zero => exact absurd rfl hz
  | succ n => rfl

/-- The launch's scoped rest holds the two accumulators as buffers owned at some contents, beside the others, -/
theorem PhiA_split (c : Dev nD) :
    (Pipeline.ΦA spec1 c : sProp 𝕄)
      ⊢ iprop(iprop((∃ d, owns (c : Thread nD τ) accG fullShare d) ∗ (∃ d, owns (c : Thread nD τ) accS fullShare d) ∗ others c) ∗ (∃ r, prngReg c r)) := by
  unfold Pipeline.ΦA; rw [scopedRest1_eq]; simp only [accG, accS, owns_whole]
  iintro ⟨⟨O1, O2, O3, O4, O5, O6, O7, O8, A5, A6⟩, Hg⟩
  isplitl [O1 O2 O3 O4 O5 O6 O7 O8 A5 A6]
  · isplitl [A5]; · iexact A5
    isplitl [A6]; · iexact A6
    isplitl [O1]; · iexact O1
    isplitl [O2]; · iexact O2
    isplitl [O3]; · iexact O3
    isplitl [O4]; · iexact O4
    isplitl [O5]; · iexact O5
    isplitl [O6]; · iexact O6
    isplitl [O7]; · iexact O7
    iexact O8
  iexact Hg
/-- and is made of them. -/
theorem PhiA_join (c : Dev nD) :
    iprop(iprop((∃ d, owns (c : Thread nD τ) accG fullShare d) ∗ (∃ d, owns (c : Thread nD τ) accS fullShare d) ∗ others c) ∗ (∃ r, prngReg c r))
      ⊢ (Pipeline.ΦA spec1 c : sProp 𝕄) := by
  unfold Pipeline.ΦA; rw [scopedRest1_eq]; simp only [accG, accS, owns_whole]
  iintro ⟨⟨A5, A6, O1, O2, O3, O4, O5, O6, O7, O8⟩, Hg⟩
  isplitl [O1 O2 O3 O4 O5 O6 O7 O8 A5 A6]
  · isplitl [O1]; · iexact O1
    isplitl [O2]; · iexact O2
    isplitl [O3]; · iexact O3
    isplitl [O4]; · iexact O4
    isplitl [O5]; · iexact O5
    isplitl [O6]; · iexact O6
    isplitl [O7]; · iexact O7
    isplitl [O8]; · iexact O8
    isplitl [A5]; · iexact A5
    iexact A6
  iexact Hg

/-- After any point the invariant still holds the two accumulators at SOME contents (their named contents forgotten). -/
theorem Inv_forget (c : Dev nD) (n : ℕ) (h : n ≤ cfg1.N) (hz : n ≠ 0) :
    Inv V c n h ⊢ iprop(iprop((∃ d, owns (c : Thread nD τ) accG fullShare d) ∗ (∃ d, owns (c : Thread nD τ) accS fullShare d) ∗ others c) ∗ (∃ r, prngReg c r)) := by
  rw [Inv_pos V c _ _ hz]
  iintro ⟨⟨H5, H6, Hoth⟩, Hg⟩
  isplitl [H5 H6 Hoth]
  · isplitl [H5]; · iexists _; iexact H5
    isplitl [H6]; · iexists _; iexact H6
    iexact Hoth
  iexact Hg

/-! ## The proof data -/

/-- The proof data of this launch on core `c`: the windows' arrays as the region finds them; after the body at
    point `t` the input's buffer at its block and the outputs' at `outAt`; the invariant `Inv`; nothing owed;
    full shares. -/
def dat (c : Dev nD) : Dat τ (Elt F) Unit ℕ (UR sig nD τ) ℕ cfg1 c where
  A w := V c (Pipeline.arrRef spec1 w)
  after w t := match w with
    | ⟨0, _⟩ => iblk V c t
    | ⟨1, _⟩ => (outAt V c t).1
    | ⟨2, _⟩ => (outAt V c t).2
  Φ t := Inv V c t.val (Nat.le_of_lt_succ t.isLt)
  q _ := fullShare
  owed _ := 0

theorem A_eq (c : Dev nD) (w : Fin cfg1.W) : (dat V c).A w = V c (Pipeline.arrRef spec1 w) := by
  dsimp only [dat]
theorem Inv_castSucc (c : Dev nD) (t : Fin cfg1.N) :
    (dat V c).Φ t.castSucc = Inv V c t.val (Nat.le_of_lt t.isLt) := by
  dsimp only [dat]; simp only [Fin.coe_castSucc]
theorem after_in (c : Dev nD) (t : Fin cfg1.N) : (dat V c).after 0 t = iblk V c t := by dsimp only [dat]
theorem after_G (c : Dev nD) (t : Fin cfg1.N) : (dat V c).after 1 t = (outAt V c t).1 := by dsimp only [dat]
theorem after_S (c : Dev nD) (t : Fin cfg1.N) : (dat V c).after 2 t = (outAt V c t).2 := by dsimp only [dat]

/-- The input's current staging buffer holds its block at every point, fetched there or not. -/
theorem before_in (c : Dev nD) (t : Fin cfg1.N) (d) : (dat V c).before 0 t d = iblk V c t :=
  ((dat V c).before_in_eq_fetched 0 rfl (fun _ => rfl) (fun _ _ _ => rfl)
    (fun t => by rw [after_in]; unfold Dat.blockOf iblk; rw [A_eq]; try rfl) t d).trans
    (by unfold Dat.fetched Dat.blockOf iblk; rw [A_eq]; try rfl)

/-! ## Where the windows are idle -/

theorem liveIn : ∀ t : Fin cfg1.N, cfg1.idle 0 (grid1.coords t) = false := by decide +kernel
theorem idleG : ∀ t : Fin cfg1.N, ¬isLast (grid1.coords t) → cfg1.idle 1 (grid1.coords t) = true := by decide +kernel
theorem noFlushG : ∀ t : Fin cfg1.N, ¬isLast (grid1.coords t) → (cfg1.win 1).flush t = false := by decide +kernel
theorem liveG : ∀ t : Fin cfg1.N, isLast (grid1.coords t) → cfg1.idle 1 (grid1.coords t) = false := by decide +kernel
theorem idleS : ∀ t : Fin cfg1.N, ¬isLast (grid1.coords t) → cfg1.idle 2 (grid1.coords t) = true := by decide +kernel
theorem noFlushS : ∀ t : Fin cfg1.N, ¬isLast (grid1.coords t) → (cfg1.win 2).flush t = false := by decide +kernel
theorem liveS : ∀ t : Fin cfg1.N, isLast (grid1.coords t) → cfg1.idle 2 (grid1.coords t) = false := by decide +kernel

/-! ## The body obligation -/

def bodyPre (c : Dev nD) (t : Fin cfg1.N) : sProp 𝕄 :=
  iprop((dat V c).Φ t.castSucc ∗ (dat V c).owesAt () t.castSucc
    ∗ (∃ d, owns (c : Thread nD τ) (mIn t) fullShare ((dat V c).before 0 t d))
    ∗ (∃ d, owns (c : Thread nD τ) (mG t) fullShare ((dat V c).before 1 t d))
    ∗ (∃ d, owns (c : Thread nD τ) (mS t) fullShare ((dat V c).before 2 t d)))

def bodyPost (c : Dev nD) (t : Fin cfg1.N) : sProp 𝕄 :=
  iprop((dat V c).Φ t.succ ∗ (dat V c).owesAt () t.succ
    ∗ (dat V c).leavesExact 0 t ∗ (dat V c).leavesExact 1 t ∗ (dat V c).leavesExact 2 t)

/-- Before any point the invariant holds the two accumulators at SOME contents. -/
theorem Inv_any (c : Dev nD) (t : Fin cfg1.N) :
    (dat V c).Φ t.castSucc ⊢ iprop(iprop((∃ d, owns (c : Thread nD τ) accG fullShare d) ∗ (∃ d, owns (c : Thread nD τ) accS fullShare d) ∗ others c) ∗ (∃ r, prngReg c r)) := by
  rw [Inv_castSucc]
  by_cases hz : t.val = 0
  · rw [Inv_zero V c _ _ hz]; exact PhiA_split c
  · exact Inv_forget V c _ _ hz

set_option maxHeartbeats 4800000 in
/-- The body at any point: the input's buffer holds its block; the point's position modulo 4 says which case it is
    in; the invariant hands the body the accumulators at what the point before left (at anything at a first point)
    and takes them back at this point's contents; the output blocks are handed back untouched except at a last
    point, where they receive their copies. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  try simp only [second_eq_first]
  simp only [before_in]
  rw [show (dat V c).owesAt () t.succ = (dat V c).owesAt () t.castSucc from rfl]
  rw [show (dat V c).Φ t.succ = Inv V c (t.val + 1) t.isLt from rfl, Inv_succ]
  have hN : t.val < 32 := lt_of_lt_of_eq t.isLt (show cfg1.N = 32 from N_1)
  rw [show (dat V c).leavesExact 0 t = owns (c : Thread nD τ) (mIn t) fullShare ((dat V c).after 0 t) from by
    unfold Dat.leavesExact; rw [liveIn t], after_in]
  by_cases h0 : t.val % 4 = 0
  · have h3 : ¬t.val % 4 = 3 := by omega
    have hl : ¬isLast (grid1.coords t) := fun h => h3 ((last_iff t).mp h)
    rw [Dat.leavesExact_idle (dat V c) 1 t (idleG t hl) (noFlushG t hl), Dat.leavesExact_idle (dat V c) 2 t (idleS t hl) (noFlushS t hl)]
    rw [accAt_first V c t h0 h3]
    unfold firstG firstS; (try dsimp only)
    iintro ⟨Hinv, Ho, ⟨%d0, H0⟩, ⟨%d1, H1⟩, ⟨%d2, H2⟩⟩
    ihave Hinv' := (Inv_any V c t) $$ Hinv
    icases Hinv' with ⟨⟨H5, H6, Hoth⟩, Hg⟩
    iapply ((runFirst (F := F) c (grid1.coords t) (mIn t) (hIn t) (mG t) (hG t) (mS t) (hS t) accG (Memref.isWhole_whole _) accS (Memref.isWhole_whole _) ((first_iff t).mpr h0) hl (iblk V c t)).2.2 _ _ Set.univ _)
    isplitl [H0]; · iexact H0
    isplitl [H1]; · iexact H1
    isplitl [H2]; · iexact H2
    isplitl [H5]; · iexact H5
    isplitl [H6]; · iexact H6
    iintro ⟨H0, H1, H2, ⟨%e5, H5⟩, ⟨%e6, H6⟩⟩
    isplitl [H5 H6 Hoth Hg]
    · isplitl [H5 H6 Hoth]
      · isplitl [H5]
        · unfold owns; iexists _; isplitr
          swap; · iexact H5
          ipureintro; exact View.read_writes_eq_canon _ _ _ (firstG_cover c _ _ _ _ _ _ _ _ _ _ _ _ _ _)
        isplitl [H6]
        · unfold owns; iexists _; isplitr
          swap; · iexact H6
          ipureintro; exact View.read_writes_eq_canon _ _ _ (firstS_cover c _ _ _ _ _ _ _ _ _ _ _ _ _ _)
        iexact Hoth
      iexact Hg
    isplitl [Ho]; · iexact Ho
    isplitl [H0]; · iexact H0
    isplitl [H1]; · iexists _; iexact H1
    iexists _; iexact H2
  · have hz : t.val ≠ 0 := fun h => h0 (by rw [h])
    have hf : ¬isFirst (grid1.coords t) := fun h => h0 ((first_iff t).mp h)
    by_cases h3 : t.val % 4 = 3
    · have hl : isLast (grid1.coords t) := (last_iff t).mpr h3
      rw [show (dat V c).leavesExact 1 t = owns (c : Thread nD τ) (mG t) fullShare ((dat V c).after 1 t) from by
        unfold Dat.leavesExact; rw [liveG t hl], after_G]
      rw [show (dat V c).leavesExact 2 t = owns (c : Thread nD τ) (mS t) fullShare ((dat V c).after 2 t) from by
        unfold Dat.leavesExact; rw [liveS t hl], after_S]
      rw [accAt_last V c t h0 h3, outAt_last V c t h0 h3]
      unfold lastG lastS lastOutG lastOutS; (try dsimp only)
      rw [Inv_castSucc V c t, Inv_pos V c _ _ hz]
      iintro ⟨⟨⟨H5, H6, Hoth⟩, Hg⟩, Ho, ⟨%d0, H0⟩, ⟨%d1, H1⟩, ⟨%d2, H2⟩⟩
      iapply ((runLast (F := F) c (grid1.coords t) (mIn t) (hIn t) (mG t) (hG t) (mS t) (hS t) accG (Memref.isWhole_whole _) accS (Memref.isWhole_whole _) hf hl (iblk V c t) _ _).2.2.2.2 Set.univ _)
      isplitl [H0]; · iexact H0
      isplitl [H1]; · iexists _; iexact H1
      isplitl [H2]; · iexists _; iexact H2
      isplitl [H5]; · iexact H5
      isplitl [H6]; · iexact H6
      iintro ⟨H0, ⟨%e1, H1⟩, ⟨%e2, H2⟩, ⟨%e5, H5⟩, ⟨%e6, H6⟩⟩
      isplitl [H5 H6 Hoth Hg]
      · isplitl [H5 H6 Hoth]
        · isplitl [H5]
          · unfold owns; iexists _; isplitr
            swap; · iexact H5
            ipureintro; exact View.read_writes_eq_canon _ _ _ (lastG_cover c _ _ _ _ _ _ _ _ _ _ _ _ _ _ _ _)
          isplitl [H6]
          · unfold owns; iexists _; isplitr
            swap; · iexact H6
            ipureintro; exact View.read_writes_eq_canon _ _ _ (lastS_cover c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_eq_canon _ _ _ (lastOutG_cover c _ _ _ _ _ _ _ _ _ _ _ _ _ _ _ _)
      unfold owns; iexists _; isplitr
      swap; · iexact H2
      ipureintro; exact View.read_writes_eq_canon _ _ _ (lastOutS_cover c _ _ _ _ _ _ _ _ _ _ _ _ _ _ _ _)
    · have hl : ¬isLast (grid1.coords t) := fun h => h3 ((last_iff t).mp h)
      rw [Dat.leavesExact_idle (dat V c) 1 t (idleG t hl) (noFlushG t hl), Dat.leavesExact_idle (dat V c) 2 t (idleS t hl) (noFlushS t hl)]
      rw [accAt_mid V c t h0 h3]
      unfold midG midS; (try dsimp only)
      rw [Inv_castSucc V c t, Inv_pos V c _ _ hz]
      iintro ⟨⟨⟨H5, H6, Hoth⟩, Hg⟩, Ho, ⟨%d0, H0⟩, ⟨%d1, H1⟩, ⟨%d2, H2⟩⟩
      iapply ((runMid (F := F) c (grid1.coords t) (mIn t) (hIn t) (mG t) (hG t) (mS t) (hS t) accG (Memref.isWhole_whole _) accS (Memref.isWhole_whole _) hf hl (iblk V c t) _ _).2.2 _ _ Set.univ _)
      isplitl [H0]; · iexact H0
      isplitl [H1]; · iexact H1
      isplitl [H2]; · iexact H2
      isplitl [H5]; · iexact H5
      isplitl [H6]; · iexact H6
      iintro ⟨H0, H1, H2, ⟨%e5, H5⟩, ⟨%e6, H6⟩⟩
      isplitl [H5 H6 Hoth Hg]
      · isplitl [H5 H6 Hoth]
        · isplitl [H5]
          · unfold owns; iexists _; isplitr
            swap; · iexact H5
            ipureintro; exact View.read_writes_eq_canon _ _ _ (midG_cover c _ _ _ _ _ _ _ _ _ _ _ _ _ _ _ _)
          isplitl [H6]
          · unfold owns; iexists _; isplitr
            swap; · iexact H6
            ipureintro; exact View.read_writes_eq_canon _ _ _ (midS_cover c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-- What the launch hands the region is the invariant before the first point. -/
theorem hin (c : Dev nD) : Pipeline.ΦA spec1 c ⊢ (dat V c).Φ 0 := by
  rw [show (dat V c).Φ 0 = Inv V c 0 (Nat.zero_le _) from rfl, Inv_zero V c 0 _ rfl]

/-- After the last point the invariant gives the launch's scoped rest back: the accumulators' contents are forgotten. -/
theorem hout (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl]
  exact (Inv_forget V c _ _ (by rw [Fin.val_last]; have : cfg1.N = 32 := N_1; omega)).trans (PhiA_join c)

end R1

end Cert.KernelIdeal.Fr

end
-- ==== Proof.FrameKernelIdeal.Run.lean ====
/-
  The whole program as a run of five segments — the host operations before the first launch, the first launch, the
  host operations between, the second launch, the host operations after — over the thread state "every unscoped
  buffer of the core at the contents between two items". The contents between items are a fold from the launch
  memory: a host stretch applies its operations; a launch leaves each of its arrays at what its write-backs leave
  and every other buffer as it was. The run ends with every unscoped buffer of every core at the last contents;
  the argument arrays are read back through the fold to the launch memory, since no item writes them.
-/
import proofs.«115151_j57501022159376_2_alg».proof.Proof.FrameKernelIdeal.Region0
import proofs.«115151_j57501022159376_2_alg».proof.Proof.FrameKernelIdeal.Region1
import Idealize.ShloMosaic.Lib.Pipeline.RegionsLoop
import Idealize.ShloMosaic.Lib.Pipeline.FrameSuffix

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between items -/

/-- At launch. -/
abbrev bufs0 : Dev nD → Valuation τ sig (Elt F) := fun c b => m ((c : Dev nD), b)
/-- After the first host stretch: the first launch's entry. -/
abbrev bufs1 : Dev nD → Valuation τ sig (Elt F) := fun c => StableHlo.after hostOps0 (bufs0 m c)
abbrev ent0 : (c : Dev nD) → (b : Ref sig .tc) → Buf (Elt F) ((c : Thread nD τ).loc b) := fun c b => bufs1 m c b
/-- After the first launch: its arrays at what the write-backs leave, every other buffer as entered. -/
def bufs2 (c : Dev nD) : Valuation τ sig (Elt F) :=
  Pipeline.withArrays spec0 c (bufs1 m c) fun w => (R0.dat (ent0 m) c).arrAt w cfg0.N
theorem bufs2_arr (c : Dev nD) (w : Fin cfg0.W) :
    bufs2 m c (Proc.devRef .tc (Pipeline.arrRef spec0 w)) = (R0.dat (ent0 m) c).arrAt w cfg0.N := by
  unfold bufs2; exact Pipeline.withArrays_arr spec0 launch0.win.arr_inj c _ _ w
theorem bufs2_of_ne (c : Dev nD) (b : Ref sig .tc) (hb : ∀ w, Pipeline.arrRef spec0 w ≠ b) :
    bufs2 m c (Proc.devRef .tc b) = bufs1 m c (Proc.devRef .tc b) := by
  unfold bufs2; exact Pipeline.withArrays_of_ne spec0 c _ _ b hb
abbrev ext0 : (c : Dev nD) → (b : Ref sig .tc) → Buf (Elt F) ((c : Thread nD τ).loc b) := fun c b => bufs2 m c b
theorem kept0 (c : Dev nD) (w : Fin cfg0.W) : (R0.dat (ent0 m) c).arrAt w cfg0.N = ext0 m c (Pipeline.arrRef spec0 w) :=
  (bufs2_arr m c w).symm
theorem rest0 (c : Dev nD) : ∀ b, b ∉ Finset.univ.image (Pipeline.arrRef spec0) → ext0 m c b = ent0 m c b :=
  fun b hb => bufs2_of_ne m c b fun w e => hb (Finset.mem_image.mpr ⟨w, Finset.mem_univ _, e⟩)

/-- After the second host stretch: the second launch's entry. -/
abbrev bufs3 : Dev nD → Valuation τ sig (Elt F) := fun c => StableHlo.after hostOps1 (bufs2 m c)
abbrev ent1 : (c : Dev nD) → (b : Ref sig .tc) → Buf (Elt F) ((c : Thread nD τ).loc b) := fun c b => bufs3 m c b
/-- After the second launch. -/
def bufs4 (c : Dev nD) : Valuation τ sig (Elt F) :=
  Pipeline.withArrays spec1 c (bufs3 m c) fun w => (R1.dat (ent1 m) c).arrAt w cfg1.N
theorem bufs4_arr (c : Dev nD) (w : Fin cfg1.W) :
    bufs4 m c (Proc.devRef .tc (Pipeline.arrRef spec1 w)) = (R1.dat (ent1 m) c).arrAt w cfg1.N := by
  unfold bufs4; exact Pipeline.withArrays_arr spec1 launch1.win.arr_inj c _ _ w
theorem bufs4_of_ne (c : Dev nD) (b : Ref sig .tc) (hb : ∀ w, Pipeline.arrRef spec1 w ≠ b) :
    bufs4 m c (Proc.devRef .tc b) = bufs3 m c (Proc.devRef .tc b) := by
  unfold bufs4; exact Pipeline.withArrays_of_ne spec1 c _ _ b hb
abbrev ext1 : (c : Dev nD) → (b : Ref sig .tc) → Buf (Elt F) ((c : Thread nD τ).loc b) := fun c b => bufs4 m c b
theorem kept1 (c : Dev nD) (w : Fin cfg1.W) : (R1.dat (ent1 m) c).arrAt w cfg1.N = ext1 m c (Pipeline.arrRef spec1 w) :=
  (bufs4_arr m c w).symm
theorem rest1 (c : Dev nD) : ∀ b, b ∉ Finset.univ.image (Pipeline.arrRef spec1) → ext1 m c b = ent1 m c b :=
  fun b hb => bufs4_of_ne m c b fun w e => hb (Finset.mem_image.mpr ⟨w, Finset.mem_univ _, e⟩)

/-- After the last host stretch: the end. -/
abbrev bufs5 : Dev nD → Valuation τ sig (Elt F) := fun c => StableHlo.after hostOps2 (bufs4 m c)

/-! ## The proof data family and the thread state -/

/-- No launch has a prefetched table. -/
abbrev adm : (p : Fin 2) → (pcfgs (F := F) p).Adm := fun p => (cfgs p).toPCfg_adm
/-- Each launch's proof data at its region's entry contents. -/
def pdats : (p : Fin 2) → (c : Dev nD) → Dat τ (Elt F) Unit ℕ (UR sig nD τ) ℕ (Pipeline.pin (pcfgs (F := F)) adm p) c
  | ⟨0, _⟩ => fun c => R0.dat (ent0 m) c
  | ⟨1, _⟩ => fun c => R1.dat (ent1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, nothing owed. -/
abbrev Rides (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rides

theorem fresh0 : (hostOps0 : List (HloOp τ sig (Elt F))).Forall fun op => op.fresh = ∅ := by
  simp only [List.Forall]; repeat' constructor
theorem fresh1 : (hostOps1 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (bufs5 m c) ∗ ∃ r, prngReg c r)

/-! ## The launches as segments -/

-- a library lemma stated over the pinned configuration unifies with the printed one only when unification may unfold
-- plain definitions in a metavariable's type
set_option backward.isDefEq.respectTransparency.types false in
/-- The first launch as a segment of @main over the thread state "every unscoped buffer at the contents between
    two items, the generator register at some state, nothing owed": entered from `bufs1`, left at `bufs2`. Its
    three arrays are split out of the unscoped buffers and put back at what the write-backs leave; the generator
    register and the scoped rest go into the region's invariant and come back out of it. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (R0.body_obligation (ent0 m) c).loose
  hwaits := Pipeline.hwaits_of_owed_zero _ _ _ _ L lv 0 fun _ _ => rfl
  pre c := iprop(StableHlo.held (c : Thread nD τ) (Pipeline.ucRefs τ sig) (bufs1 m c) ∗ Rides c)
  post c := iprop(StableHlo.held (c : Thread nD τ) (Pipeline.ucRefs τ sig) (bufs2 m c) ∗ Rides c)
  X c := iprop(∃ r, prngReg c r)
  Y c := iprop(∃ r, prngReg c r)
  Z c := Pipeline.unscopedRest (Ix := Unit) (Name := ℕ) (U := UR sig nD τ) (Lvl := ℕ) spec0 c (ent0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (ent0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec0 c from ?_).trans (R0.hin (ent0 m) c)
    unfold Pipeline.ΦA
    iintro ⟨Hp, -, Hr⟩
    isplitl [Hr]; · iexact Hr
    iexact Hp
  hout c := by
    rw [Pipeline.ownSems0_none]
    refine (R0.hout (ent0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (ent0 m c) (ext0 m c) ((pdats m 0 c).arrAt · cfg0.N) (kept0 m c) (rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- The second launch as a segment of @main over the thread state "every unscoped buffer at the contents between
    two items, the generator register at some state, nothing owed": entered from `bufs3`, left at `bufs4`. Its
    three arrays are split out of the unscoped buffers and put back at what the write-backs leave; the generator
    register and the scoped rest go into the region's invariant and come back out of it. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (R1.body_obligation (ent1 m) c).loose
  hwaits := Pipeline.hwaits_of_owed_zero _ _ _ _ L lv 1 fun _ _ => rfl
  pre c := iprop(StableHlo.held (c : Thread nD τ) (Pipeline.ucRefs τ sig) (bufs3 m c) ∗ Rides c)
  post c := iprop(StableHlo.held (c : Thread nD τ) (Pipeline.ucRefs τ sig) (bufs4 m c) ∗ Rides c)
  X c := iprop(∃ r, prngReg c r)
  Y c := iprop(∃ r, prngReg c r)
  Z c := Pipeline.unscopedRest (Ix := Unit) (Name := ℕ) (U := UR sig nD τ) (Lvl := ℕ) spec1 c (ent1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (ent1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ Pipeline.ΦA spec1 c from ?_).trans (R1.hin (ent1 m) c)
    unfold Pipeline.ΦA
    iintro ⟨Hp, -, Hr⟩
    isplitl [Hr]; · iexact Hr
    iexact Hp
  hout c := by
    rw [Pipeline.ownSems0_none]
    refine (R1.hout (ent1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (ent1 m c) (ext1 m c) ((pdats m 1 c).arrAt · cfg1.N) (kept1 m c) (rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub fresh0 (bufs0 m)),
    .region (reg0 m),
    .host (hseg hostOps1 hostOps1_sub fresh1 (bufs2 m)),
    .region (reg1 m),
    .host (hseg hostOps2 hostOps2_sub fresh2 (bufs4 m)) ]

theorem main_run (c : Dev nD) : main (F := F) c = Pipeline.Seg.run (segs m) :=
  main_segs adm (pdats m) () 𝒱₀ L lv _ _ _ (reg0 m) (reg1 m) rfl rfl rfl c

-- the launch theorem's implicit arguments are found by unifying its conclusion with this one, which takes unfolding plain
-- definitions in a metavariable's type
set_option backward.isDefEq.respectTransparency.types false in
/-- THE RUN. At the compiled mesh, from any memory with zero counters, every weakly fair execution of @main on the
    TensorCores terminates, nothing faulting, and every final state has every unscoped buffer of every core at the
    last contents of the fold. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = bufs5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (bufs0 m c) ∗ Rides c)) (Tₙ := Tend m)
    (hch := ⟨fun _ => .rfl, fun _ => .rfl, fun _ => .rfl, fun _ => .rfl, fun _ => .rfl, fun c =>
      (show iprop(StableHlo.held (c : Thread nD τ) (Pipeline.ucRefs τ sig) (bufs5 m c) ∗ Rides c)
          ⊢ iprop(Tend m c ∗ ∃ W, owes (c : Thread nD τ) (0 : CellTallies nD τ sig Unit) W) from by
        iintro ⟨Hh, Hp, HO⟩
        isplitl [Hh Hp]
        · isplitl [Hh]; · iexact Hh
          iexact Hp
        iexact HO)⟩)
    (hinit := by
      refine Pipeline.initEach L lv fun c => ?_
      rw [show unscopedBufs c (fun b => m ((c : Thread nD τ).loc b)) = StableHlo.held (c : Thread nD τ) (Pipeline.ucRefs τ sig) (bufs0 m c)
        from Pipeline.unscopedBufs_held c (bufs0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = bufs5 m c b)
    (hfin := fun c s' => by
      iintro ⟨⟨Hh, -⟩, HSI⟩
      unfold StableHlo.held
      imodintro
      iapply (pointsTo_read_all (Pipeline.ucRefs τ sig) (fun b => (((c : Thread nD τ)).1, b)) (bufs5 m c) s')
      isplitl [Hh] <;> iassumption)
    (hQ := fun s h => h)

end Cert.KernelIdeal.Fr

end
-- ==== Proof.FrameKernelIdeal.Frame.lean ====
/-
  The frame: no item of the program writes an argument array — a host operation writes only its own result, a
  launch only its output windows' arrays — so the last contents of the fold at an argument's buffer walk back to
  the launch memory, and the run ends with both argument arrays as launched.
-/
import proofs.«115151_j57501022159376_2_alg».proof.Proof.FrameKernelIdeal.Run
import proofs.«115151_j57501022159376_2_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem arg0_kept (c : Dev nD) : bufs5 m c (Proc.devRef .tc main_arg0) = m ((c : Thread nD τ).loc main_arg0) :=
  calc bufs5 m c (Proc.devRef .tc main_arg0)
    _ = bufs4 m c (Proc.devRef .tc main_arg0) := StableHlo.after_of_writes_sub hostOps2 _ hostOps2_writes (by decide)
    _ = bufs3 m c (Proc.devRef .tc main_arg0) := bufs4_of_ne m c main_arg0 (by decide)
    _ = bufs2 m c (Proc.devRef .tc main_arg0) := StableHlo.after_of_writes_sub hostOps1 _ hostOps1_writes (by decide)
    _ = bufs1 m c (Proc.devRef .tc main_arg0) := bufs2_of_ne m c main_arg0 (by decide)
    _ = bufs0 m c (Proc.devRef .tc main_arg0) := StableHlo.after_of_writes_sub hostOps0 _ hostOps0_writes (by decide)
    _ = m ((c : Thread nD τ).loc main_arg0) := rfl

theorem arg1_kept (c : Dev nD) : bufs5 m c (Proc.devRef .tc main_arg1) = m ((c : Thread nD τ).loc main_arg1) :=
  calc bufs5 m c (Proc.devRef .tc main_arg1)
    _ = bufs4 m c (Proc.devRef .tc main_arg1) := StableHlo.after_of_writes_sub hostOps2 _ hostOps2_writes (by decide)
    _ = bufs3 m c (Proc.devRef .tc main_arg1) := bufs4_of_ne m c main_arg1 (by decide)
    _ = bufs2 m c (Proc.devRef .tc main_arg1) := StableHlo.after_of_writes_sub hostOps1 _ hostOps1_writes (by decide)
    _ = bufs1 m c (Proc.devRef .tc main_arg1) := bufs2_of_ne m c main_arg1 (by decide)
    _ = bufs0 m c (Proc.devRef .tc main_arg1) := StableHlo.after_of_writes_sub hostOps0 _ hostOps0_writes (by decide)
    _ = m ((c : Thread nD τ).loc main_arg1) := rfl

/-- Every weakly fair execution of @main terminates, nothing faulting, with both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_arg0 (by decide))).trans (arg0_kept m c),
     (h c _ (mem_uc main_arg1 (by decide))).trans (arg1_kept m c)⟩) (run_all m ρ)

end Cert.KernelIdeal.Fr

end
-- ==== Proof.FrameKernelIdeal.Pieces.lean ====
/-
  What the body leaves in each buffer, case by case, as the stored values themselves: the canonical contents of each
  case's stores is the last store's value, a whole-buffer store at offset zero, and the loads it reads are whole-buffer
  loads — of the input block, of an accumulator as the point found it, or (at a first point) of the zeros just stored,
  and (at a last point, for the copies) of the accumulator just stored.
-/
import proofs.«115151_j57501022159376_2_alg».proof.Proof.FrameKernelIdeal.Leaves
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole [a, b] buffer's rectangle is zero on both axes. -/
theorem off2_zero : (![0, 0] : Fin 2 → Nat) = fun _ => 0 := funext fun a => by fin_cases a <;> rfl
/-- The offset of a whole [a, b, c] buffer's rectangle is zero on the three axes. -/
theorem off3_zero : (![0, 0, 0] : Fin 3 → Nat) = fun _ => 0 := funext fun a => by fin_cases a <;> rfl

/-! ## A first point: the accumulators zeroed, then accumulated -/

/-- The matrix accumulator after a first point: the zeros plus the block's product with its transpose. -/
theorem firstG_eq (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) :
    firstG c i arg2 harg2 arg3 harg3 arg4 harg4 arg5 harg5 arg6 harg6 hc1 hc2 x0 = k0_pay4 x0 (k0_pay1 (F := F)) := by
  unfold firstG runFirst
  dsimp only
  sl_unfold_words
  rw [View.canon_cons_unit_zero (S := S512x512) off2_zero, View.readCov_unit_zero (S := S512x512) _ off2_zero]
  simp only [View.readAt_eq_ld, harg2.read_unread, View.ld_unit_zero (S := S1x512x4096) off3_zero]

/-- The column accumulator after a first point: the zeros plus the block's row sums of squares. -/
theorem firstS_eq (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : isFirst i) (hc2 : ¬isLast i) (x0 : Vec F S1x512x4096 .f32) :
    firstS c i arg2 harg2 arg3 harg3 arg4 harg4 arg5 harg5 arg6 harg6 hc1 hc2 x0 = k0_pay5 x0 (k0_pay2 (F := F)) := by
  unfold firstS runFirst
  dsimp only
  sl_unfold_words
  rw [View.canon_cons_unit_zero (S := S512x1) off2_zero, View.readCov_unit_zero (S := S512x1) _ off2_zero]
  simp only [View.readAt_eq_ld, harg2.read_unread, View.ld_unit_zero (S := S1x512x4096) off3_zero]

/-! ## A middle point: the accumulators accumulated -/

/-- The matrix accumulator after a middle point: what it held plus the block's product with its transpose. -/
theorem midG_eq (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) :
    midG c i arg2 harg2 arg3 harg3 arg4 harg4 arg5 harg5 arg6 harg6 hc1 hc2 x0 a5 a6 = k0_pay4 x0 a5 := by
  unfold midG runMid
  dsimp only
  try sl_unfold_words
  rw [View.canon_unit_zero (S := S512x512) off2_zero]
  simp only [View.readAt_eq_ld, harg2.read_unread, harg5.read_unread, View.ld_unit_zero (S := S1x512x4096) off3_zero,
    View.ld_unit_zero (S := S512x512) off2_zero]

/-- The column accumulator after a middle point: what it held plus the block's row sums of squares. -/
theorem midS_eq (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : ¬isLast i) (x0 : Vec F S1x512x4096 .f32) (a5 : Vec F S512x512 .f32) (a6 : Vec F S512x1 .f32) :
    midS c i arg2 harg2 arg3 harg3 arg4 harg4 arg5 harg5 arg6 harg6 hc1 hc2 x0 a5 a6 = k0_pay5 x0 a6 := by
  unfold midS runMid
  dsimp only
  try sl_unfold_words
  rw [View.canon_unit_zero (S := S512x1) off2_zero]
  simp only [View.readAt_eq_ld, harg2.read_unread, harg6.read_unread, View.ld_unit_zero (S := S1x512x4096) off3_zero,
    View.ld_unit_zero (S := S512x1) off2_zero]

/-! ## A last point: the accumulators accumulated, then copied to the output blocks -/

/-- The matrix accumulator after a last point. -/
theorem lastG_eq (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) :
    lastG c i arg2 harg2 arg3 harg3 arg4 harg4 arg5 harg5 arg6 harg6 hc1 hc2 x0 a5 a6 = k0_pay4 x0 a5 := by
  unfold lastG runLast
  dsimp only
  try sl_unfold_words
  rw [View.canon_unit_zero (S := S512x512) off2_zero]
  simp only [View.readAt_eq_ld, harg2.read_unread, harg5.read_unread, View.ld_unit_zero (S := S1x512x4096) off3_zero,
    View.ld_unit_zero (S := S512x512) off2_zero]

/-- The column accumulator after a last point. -/
theorem lastS_eq (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) :
    lastS c i arg2 harg2 arg3 harg3 arg4 harg4 arg5 harg5 arg6 harg6 hc1 hc2 x0 a5 a6 = k0_pay5 x0 a6 := by
  unfold lastS runLast
  dsimp only
  try sl_unfold_words
  rw [View.canon_unit_zero (S := S512x1) off2_zero]
  simp only [View.readAt_eq_ld, harg2.read_unread, harg6.read_unread, View.ld_unit_zero (S := S1x512x4096) off3_zero,
    View.ld_unit_zero (S := S512x1) off2_zero]

/-- The matrix output block after a last point: the accumulator just stored, under a leading unit axis. -/
theorem lastOutG_eq (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) :
    lastOutG c i arg2 harg2 arg3 harg3 arg4 harg4 arg5 harg5 arg6 harg6 hc1 hc2 x0 a5 a6 = k0_pay6 (k0_pay4 x0 a5) := by
  unfold lastOutG runLast
  dsimp only
  sl_unfold_words
  rw [View.canon_unit_zero (S := S1x512x512) off3_zero, View.readCov_unit_zero (S := S512x512) _ off2_zero]
  simp only [View.readAt_eq_ld, harg2.read_unread, harg5.read_unread, View.ld_unit_zero (S := S1x512x4096) off3_zero,
    View.ld_unit_zero (S := S512x512) off2_zero]

/-- The column output block after a last point: the accumulator just stored, under a leading unit axis. -/
theorem lastOutS_eq (c : Dev nD) (i : grid0.Coords) (arg2 : Memref sig .tc .vmem S1x512x4096 .f32) (harg2 : arg2.IsWhole) (arg3 : Memref sig .tc .vmem S1x512x512 .f32) (harg3 : arg3.IsWhole) (arg4 : Memref sig .tc .vmem S1x512x1 .f32) (harg4 : arg4.IsWhole) (arg5 : Memref sig .tc .vmem S512x512 .f32) (harg5 : arg5.IsWhole) (arg6 : Memref sig .tc .vmem S512x1 .f32) (harg6 : arg6.IsWhole) (hc1 : ¬isFirst i) (hc2 : isLast i) (x0 : Vec F S1x512x4096 .f32) (a5 : Vec F S512x512 .f32) (a6 : Vec F S512x1 .f32) :
    lastOutS c i arg2 harg2 arg3 harg3 arg4 harg4 arg5 harg5 arg6 harg6 hc1 hc2 x0 a5 a6 = k0_pay7 (k0_pay5 x0 a6) := by
  unfold lastOutS runLast
  dsimp only
  sl_unfold_words
  rw [View.canon_unit_zero (S := S1x512x1) off3_zero, View.readCov_unit_zero (S := S512x1) _ off2_zero]
  simp only [View.readAt_eq_ld, harg2.read_unread, harg6.read_unread, View.ld_unit_zero (S := S1x512x4096) off3_zero,
    View.ld_unit_zero (S := S512x1) off2_zero]

end Cert.KernelIdeal.Fr

end
-- ==== Proof.LibRowDot.lean ====
/-
  General facts, at the exact instance (floats as extended reals), about a matrix product whose two operands are both
  contracted along their SECOND axis (x of [M, K] against w of [N, K], the product x · wᵀ of [M, N]), read at an index
  written by its coordinates, and about one row broadcast down a matrix.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibRowDot

open Idealize.ShloMosaic Idealize.ShloMosaic.ValueIdx

variable {α : Type} {M K N : Nat}

/-- A matrix product of an [M, K] matrix by the transpose of an [N, K] matrix into the zero accumulator, read at
    (p, q): the sum over the contracted coordinate k of x(p, k) · w(q, k). The four hypotheses say which operand
    coordinate each of the product's index maps takes from the output index and which from the contraction index. -/
theorem matmul_zero_rr {φ₁ φ₂ : FTy} (D : DotDims ⟨2, ![M, K]⟩ ⟨2, ![N, K]⟩ ⟨2, ![M, N]⟩) (hr : D.contr.rank = 1)
    (hs : D.contr.size ⟨0, by omega⟩ = K)
    (hl0 : ∀ (i : (⟨2, ![M, N]⟩ : Shape).Idx) (c : D.contr.Idx), (D.lhsIdx i c 0).val = (i 0).val)
    (hl1 : ∀ (i : (⟨2, ![M, N]⟩ : Shape).Idx) (c : D.contr.Idx), (D.lhsIdx i c 1).val = (c ⟨0, by omega⟩).val)
    (hr0 : ∀ (i : (⟨2, ![M, N]⟩ : Shape).Idx) (c : D.contr.Idx), (D.rhsIdx i c 0).val = (i 1).val)
    (hr1 : ∀ (i : (⟨2, ![M, N]⟩ : Shape).Idx) (c : D.contr.Idx), (D.rhsIdx i c 1).val = (c ⟨0, by omega⟩).val)
    (prec : Option ContractPrecision)
    (x : FVec Ideal ⟨2, ![M, K]⟩ φ₁) (w : FVec Ideal ⟨2, ![N, K]⟩ φ₂) (p : Fin M) (q : Fin N) :
    matmul D prec x w (constant ⟨2, ![M, N]⟩ .f32 0x00000000#32) (ix2 p q) = ∑ k : Fin K, x (ix2 p k) * w (ix2 q k) := by
  refine (Ideal.matmul_constant_zero_apply D prec x w (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

/-- A [1, N] row, cast to its own shape and broadcast down to [M, N], reads at (p, q) the row at (0, q). -/
theorem rowDown_rc (v : (⟨2, ![1, N]⟩ : Shape).Idx → α) (h1 : (⟨2, ![1, N]⟩ : Shape).ShapeCasts ⟨2, ![1, N]⟩)
    (h2 : (⟨2, ![1, N]⟩ : Shape).Broadcasts ⟨2, ![M, N]⟩) (p : Fin M) (q : Fin N) :
    broadcastTo ⟨2, ![M, N]⟩ (shapeCast ⟨2, ![1, N]⟩ v h1) h2 (ix2 p q) = v (ix2 (0 : Fin 1) q) := by
  rw [shapeCast_self]
  exact broadcastTo_1b_ab_apply v h2 p q

end Cert.LibRowDot

end
-- ==== Proof.Payload.lean ====
/-
  The values the kernel body stores, read at one index, at the exact instance (a float is an extended real):
  the two zero fills; the accumulated matrix, the loaded one plus the tile's row-by-row products summed over the lanes;
  the accumulated column, the loaded one plus each row's sum of squares; and the two copies into the outputs' unit-leading blocks.
-/
import proofs.«115151_j57501022159376_2_alg».proof.Proof.Gen.KernelIdeal.Skeleton
import proofs.«115151_j57501022159376_2_alg».proof.Proof.LibRowDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## The zero fills -/

/-- The matrix fill is zero at every index. -/
theorem pay1_apply (j : S512x512.Idx) : k0_pay1 (F := Ideal) j = (0 : EReal) := by
  unfold k0_pay1
  rw [shapeCast_self]
  exact Ideal.ofBits_zero_f32

/-- The column fill is zero at every index. -/
theorem pay2_apply (j : S512x1.Idx) : k0_pay2 (F := Ideal) j = (0 : EReal) := by
  unfold k0_pay2
  rw [shapeCast_self]
  exact Ideal.ofBits_zero_f32

/-! ## The tile without its unit axis -/

/-- The tile as a matrix reads at (p, n) the loaded tile at (0, p, n). -/
theorem pay3_apply (v3 : Vec Ideal S1x512x4096 .f32) (p : Fin 512) (n : Fin 4096) :
    k0_pay3 v3 (ix2 p n) = v3 (ix3 (0 : Fin 1) p n) := by
  unfold k0_pay3
  exact shapeCast_1ab_ab_apply v3 _ p n

/-! ## The product's index maps: the row from the output index, the lane from the contraction index -/

theorem dl0 (i : S512x512.Idx) (c : dot_S512x4096_S512x4096_S512x512_1_1_0_0_n_n.contr.Idx) :
    (dot_S512x4096_S512x4096_S512x512_1_1_0_0_n_n.lhsIdx i c 0).val = (i 0).val := by
  unfold DotDims.lhsIdx
  rw [dif_neg (show ¬(0 : Fin S512x4096.rank) ∈ dot_S512x4096_S512x4096_S512x512_1_1_0_0_n_n.lhsBatch by decide),
    dif_pos (show (0 : Fin S512x4096.rank) ∈ dot_S512x4096_S512x4096_S512x512_1_1_0_0_n_n.lhsNonContracting by decide)]
  rfl

theorem dl1 (i : S512x512.Idx) (c : dot_S512x4096_S512x4096_S512x512_1_1_0_0_n_n.contr.Idx) :
    (dot_S512x4096_S512x4096_S512x512_1_1_0_0_n_n.lhsIdx i c 1).val = (c ⟨0, by decide⟩).val :=
  dot_S512x4096_S512x4096_S512x512_1_1_0_0_n_n.lhsIdx_val_of_single rfl i c

theorem dr0 (i : S512x512.Idx) (c : dot_S512x4096_S512x4096_S512x512_1_1_0_0_n_n.contr.Idx) :
    (dot_S512x4096_S512x4096_S512x512_1_1_0_0_n_n.rhsIdx i c 0).val = (i 1).val := by
  unfold DotDims.rhsIdx
  rw [dif_neg (show ¬(0 : Fin S512x4096.rank) ∈ dot_S512x4096_S512x4096_S512x512_1_1_0_0_n_n.rhsBatch by decide),
    dif_pos (show (0 : Fin S512x4096.rank) ∈ dot_S512x4096_S512x4096_S512x512_1_1_0_0_n_n.rhsNonContracting by decide)]
  rfl

theorem dr1 (i : S512x512.Idx) (c : dot_S512x4096_S512x4096_S512x512_1_1_0_0_n_n.contr.Idx) :
    (dot_S512x4096_S512x4096_S512x512_1_1_0_0_n_n.rhsIdx i c 1).val = (c ⟨0, by decide⟩).val :=
  dot_S512x4096_S512x4096_S512x512_1_1_0_0_n_n.rhsIdx_val_of_single rfl i c

/-- The product of a [512, 4096] matrix by its own transpose into the zero accumulator, at (p, q). -/
theorem gram_apply (x : FVec Ideal S512x4096 .bf16) (p q : Fin 512) :
    matmul dot_S512x4096_S512x4096_S512x512_1_1_0_0_n_n none x x (constant (F := Ideal) S512x512 .f32 0x00000000#32) (ix2 p q)
      = ∑ n : Fin 4096, x (ix2 p n) * x (ix2 q n) :=
  Cert.LibRowDot.matmul_zero_rr dot_S512x4096_S512x4096_S512x512_1_1_0_0_n_n rfl rfl dl0 dl1 dr0 dr1 none x x p q

/-! ## The accumulated matrix -/

theorem pay4_apply (v3 : Vec Ideal S1x512x4096 .f32) (v6 : Vec Ideal S512x512 .f32) (p q : Fin 512) :
    k0_pay4 v3 v6 (ix2 p q)
      = v6 (ix2 p q) + ∑ n : Fin 4096, v3 (ix3 (0 : Fin 1) p n) * v3 (ix3 (0 : Fin 1) q n) := by
  unfold k0_pay4
  rw [shapeCast_self]
  refine (addf_apply _ _ _).trans ?_
  refine congrArg (fun z => v6 (ix2 p q) + z) ?_
  refine (gram_apply _ p q).trans ?_
  refine Finset.sum_congr rfl fun n _ => ?_
  rw [truncf_apply, truncf_apply, pay3_apply, pay3_apply]

/-! ## The accumulated column -/

/-- A [512, 4096] matrix summed over its lanes, at row p. -/
theorem rowsum_apply (x : FVec Ideal S512x4096 .f32) (p : Fin 512) :
    multiReduction .add [1] S512 x 0x00000000#32 reduces_S512x4096_S512 (.inl rfl) rfl (ix1 p)
      = ∑ n : Fin 4096, x (ix2 p n) := by
  refine (Ideal.multiReduction_add_single x 0x00000000#32 reduces_S512x4096_S512 (.inl rfl) rfl (ix1 p)).trans ?_
  refine Finset.sum_congr rfl fun n _ => congrArg x ?_
  funext a
  match a with
  | ⟨0, _⟩ => rfl
  | ⟨1, _⟩ => rfl

/-- A [512] vector cast to a [512, 1] column reads at (p, 0) the vector at p. -/
theorem col_apply {α : Type} (x : S512.Idx → α) (h : S512.ShapeCasts S512x1) (p : Fin 512) (u : Fin 1) :
    shapeCast S512x1 x h (ix2 p u) = x (ix1 p) :=
  shapeCast_apply x h _ _ (by
    have hu : u.val = 0 := by omega
    rw [Shape.rowMajor_val_one, Shape.rowMajor_val_two]
    show p.val = p.val * 1 + u.val
    rw [hu, Nat.mul_one, Nat.add_zero])

theorem pay5_apply (v3 : Vec Ideal S1x512x4096 .f32) (v12 : Vec Ideal S512x1 .f32) (p : Fin 512) :
    k0_pay5 v3 v12 (ix2 p (0 : Fin 1))
      = v12 (ix2 p (0 : Fin 1)) + ∑ n : Fin 4096, v3 (ix3 (0 : Fin 1) p n) * v3 (ix3 (0 : Fin 1) p n) := by
  unfold k0_pay5
  rw [shapeCast_self]
  refine (addf_apply _ _ _).trans ?_
  refine congrArg (fun z => v12 (ix2 p (0 : Fin 1)) + z) ?_
  refine (col_apply _ _ p (0 : Fin 1)).trans ?_
  refine (rowsum_apply _ p).trans ?_
  refine Finset.sum_congr rfl fun n _ => ?_
  rw [mulf_apply, pay3_apply]

/-! ## The copies into the outputs' blocks -/

theorem pay6_apply (v23 : Vec Ideal S512x512 .f32) (p q : Fin 512) :
    k0_pay6 v23 (ix3 (0 : Fin 1) p q) = v23 (ix2 p q) := by
  unfold k0_pay6
  exact shapeCast_ab_1ab_apply v23 _ (0 : Fin 1) p q

theorem pay7_apply (v27 : Vec Ideal S512x1 .f32) (p : Fin 512) :
    k0_pay7 v27 (ix3 (0 : Fin 1) p (0 : Fin 1)) = v27 (ix2 p (0 : Fin 1)) := by
  unfold k0_pay7
  exact shapeCast_ab_1ab_apply v27 _ (0 : Fin 1) p (0 : Fin 1)

end Cert.KernelIdeal.Pay

end
-- ==== Proof.Blocks.lean ====
/-
  From blocks to arrays, for the first launch: the grid is 8 x 4, point t has coordinates (t / 4, t % 4). The input window
  reads block (t / 4, 0, t % 4) of the [8, 512, 16384] array in blocks of [1, 512, 4096]; the two output windows write block
  (t / 4, 0, 0) of the [8, 512, 512] and of the [8, 512, 1] array, in blocks of one batch row, at the points t with t % 4 = 3.
  Here: the index maps over the grid; each window's block read at an index as the array read at batch row t / 4 (and, for the
  input, lane t % 4 * 4096 + n); and each output array after the run as ONE function, once every write-back is that function's block.
-/
import proofs.«115151_j57501022159376_2_alg».proof.Proof.Gen.KernelIdeal.Launch
import proofs.«115151_j57501022159376_2_alg».proof.Proof.Gen.KernelIdeal.Points
import Idealize.ShloMosaic.Lib.Pipeline.Value
import Idealize.ShloMosaic.Lib.Pipeline.FrameBody
import Idealize.ShloMosaic.Lib.ValueIdx

noncomputable section

open Idealize.ShloMosaic Idealize.ShloMosaic.TcCoe Idealize.ShloMosaic.ValueIdx
open Idealize.ShloMosaic.Pipeline (Dat Cfg Window)

namespace Cert.KernelIdeal.Blk

open Cert.KernelIdeal Cert.KernelIdeal.Gen

variable {F : FTy → Type} [FloatOps F]

/-! ## The index maps over the grid -/

/-- The input's block index at point t is (t / 4, 0, t % 4). -/
theorem in_index : ∀ t : Fin cfg0.N, win0_0.index t (0 : Fin 3) = t.val / 4 ∧ win0_0.index t (1 : Fin 3) = 0
    ∧ win0_0.index t (2 : Fin 3) = t.val % 4 :=
  (by decide +kernel : ∀ t : Fin grid0.N, _)

/-- The matrix output's block index at point t is (t / 4, 0, 0). -/
theorem out1_index : ∀ t : Fin cfg0.N, win0_1.index t (0 : Fin 3) = t.val / 4 ∧ win0_1.index t (1 : Fin 3) = 0
    ∧ win0_1.index t (2 : Fin 3) = 0 :=
  (by decide +kernel : ∀ t : Fin grid0.N, _)

/-- The column output's block index at point t is (t / 4, 0, 0). -/
theorem out2_index : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- A point of the grid is below 32. -/
theorem point_lt (t : Fin cfg0.N) : t.val < 32 := lt_of_lt_of_eq t.isLt N_0

/-! ## A block read at an index -/

/-- The input's block at point t, at (0, p, n), is the array at (t / 4, p, t % 4 * 4096 + n). -/
theorem in_block_apply (c : Dev nD) (A : Buf (Elt F) ((cfg0.win 0).arr.view.loc (c.tc : Thread nD τ)))
    (t : Fin cfg0.N) (p : Fin 512) (n : Fin 4096) :
    ((cfg0.win 0).blk t).view.read (Elt F) A (ix3 (0 : Fin 1) p n)
      = A (ix3 (⟨t.val / 4, by have := point_lt t; omega⟩ : Fin 8) p
          (⟨t.val % 4 * 4096 + n.val, by have := n.isLt; omega⟩ : Fin 16384)) := by
  obtain ⟨e0, e1, e2⟩ := in_index t
  rw [View.read_apply]
  show A _ = A _
  refine congrArg A ?_
  funext a
  apply Fin.ext
  match a with
  | ⟨0, _⟩ => show win0_0.index t (0 : Fin 3) * 1 + 1 * 0 = t.val / 4; omega
  | ⟨1, _⟩ => show win0_0.index t (1 : Fin 3) * 512 + 1 * p.val = p.val; omega
  | ⟨2, _⟩ => show win0_0.index t (2 : Fin 3) * 4096 + 1 * n.val = t.val % 4 * 4096 + n.val; omega

/-- The matrix output's block at point t, at (0, p, q), is the array at (t / 4, p, q). -/
theorem out1_block_apply (c : Dev nD) (G : Buf (Elt F) ((cfg0.win 1).arr.view.loc (c.tc : Thread nD τ)))
    (t : Fin cfg0.N) (p q : Fin 512) :
    ((cfg0.win 1).blk t).view.read (Elt F) G (ix3 (0 : Fin 1) p q)
      = G (ix3 (⟨t.val / 4, by have := point_lt t; omega⟩ : Fin 8) p q) := by
  obtain ⟨e0, e1, e2⟩ := out1_index t
  rw [View.read_apply]
  show G _ = G _
  refine congrArg G ?_
  funext a
  apply Fin.ext
  match a with
  | ⟨0, _⟩ => show win0_1.index t (0 : Fin 3) * 1 + 1 * 0 = t.val / 4; omega
  | ⟨1, _⟩ => show win0_1.index t (1 : Fin 3) * 512 + 1 * p.val = p.val; omega
  | ⟨2, _⟩ => show win0_1.index t (2 : Fin 3) * 512 + 1 * q.val = q.val; omega

/-- The column output's block at point t, at (0, p, 0), is the array at (t / 4, p, 0). -/
theorem out2_block_apply (c : Dev nD) (G : Buf (Elt F) ((cfg0.win 2).arr.view.loc (c.tc : Thread nD τ)))
    (t : Fin cfg0.N) (p : Fin 512) :
    ((cfg0.win 2).blk t).view.read (Elt F) G (ix3 (0 : Fin 1) p (0 : Fin 1))
      = G (ix3 (⟨t.val / 4, by have := point_lt t; omega⟩ : Fin 8) p (0 : Fin 1)) := by
  obtain ⟨e0, e1, e2⟩ := out2_index t
  rw [View.read_apply]
  show G _ = G _
  refine congrArg G ?_
  funext a
  apply Fin.ext
  match a with
  | ⟨0, _⟩ => show win0_2.index t (0 : Fin 3) * 1 + 1 * 0 = t.val / 4; omega
  | ⟨1, _⟩ => show win0_2.index t (1 : Fin 3) * 512 + 1 * p.val = p.val; omega
  | ⟨2, _⟩ => show win0_2.index t (2 : Fin 3) * 1 + 1 * 0 = 0; omega

/-! ## Which indices a block holds -/

/-- An index of the matrix output is in point t's block iff each coordinate is in the block's range on its axis. -/
theorem mem_blk1 (t : Fin cfg0.N) (i : S8x512x512.Idx) :
    i ∈ ((cfg0.win 1).blk t).view.set ↔ ∀ a : Fin 3, win0_1.index t a * S1x512x512.size a ≤ (i a).val
      ∧ (i a).val < win0_1.index t a * S1x512x512.size a + S1x512x512.size a := by
  show i ∈ ((View.whole main_v1_0).slice (win0_1.rect t)).set ↔ _
  rw [View.set_slice_whole, Rect.mem_set_unit]
  exact Iff.rfl

/-- The same for the column output. -/
theorem mem_blk2 (t : Fin cfg0.N) (i : S8x512x1.Idx) :
    i ∈ ((cfg0.win 2).blk t).view.set ↔ ∀ a : Fin 3, win0_2.index t a * S1x512x1.size a ≤ (i a).val
      ∧ (i a).val < win0_2.index t a * S1x512x1.size a + S1x512x1.size a := by
  show i ∈ ((View.whole main_v1_1).slice (win0_2.rect t)).set ↔ _
  rw [View.set_slice_whole, Rect.mem_set_unit]
  exact Iff.rfl

/-- The last point of batch row b. -/
def lastOf (b : Nat) (hb : b < 8) : Fin cfg0.N := ⟨4 * b + 3, by rw [show cfg0.N = 32 from N_0]; omega⟩

theorem lastOf_val (b : Nat) (hb : b < 8) : (lastOf b hb).val = 4 * b + 3 := rfl

/-! ## The output arrays after the run -/

section Arrays
variable {c : Dev nD} (dat : Dat τ (Elt F) Unit ℕ (UR sig nD τ) ℕ cfg0 c)

/-- The matrix output ends holding G1, if every write-back writes G1's batch row t / 4. -/
theorem out1_array (G1 : Buf (Elt F) ((cfg0.win 1).arr.view.loc (c.tc : Thread nD τ)))
    (hG : ∀ t : Fin cfg0.N, t.val % 4 = 3 → ∀ (p q : Fin 512),
      dat.flushed 1 t (ix3 (0 : Fin 1) p q) = G1 (ix3 (⟨t.val / 4, by have := point_lt t; omega⟩ : Fin 8) p q)) :
    dat.arrAt 1 cfg0.N = G1 := by
  refine dat.arrAt_eq_of_cover 1 G1 (fun t hf => funext fun y => ?_) (fun i => ?_)
  · have ht : t.val % 4 = 3 := (flush0_1 t).mp hf
    obtain ⟨u, p, q, rfl⟩ : ∃ (u : Fin 1) (p q : Fin 512), y = ix3 u p q := ⟨y 0, y 1, y 2, eq_ix3 y⟩
    obtain rfl : u = 0 := Subsingleton.elim _ _
    exact (hG t ht p q).trans (out1_block_apply c G1 t p q).symm
  · have h0 : (i 0).val < 8 := (i 0).isLt
    have h1 : (i 1).val < 512 := (i 1).isLt
    have h2 : (i 2).val < 512 := (i 2).isLt
    refine ⟨lastOf (i 0).val h0, (flush0_1 _).mpr (by rw [lastOf_val]; omega), ?_⟩
    obtain ⟨e0, e1, e2⟩ := out1_index (lastOf (i 0).val h0)
    rw [lastOf_val] at e0
    rw [mem_blk1]
    intro a
    match a with
    | ⟨0, _⟩ => show win0_1.index (lastOf (i 0).val h0) (0 : Fin 3) * 1 ≤ (i 0).val ∧ (i 0).val < win0_1.index (lastOf (i 0).val h0) (0 : Fin 3) * 1 + 1; omega
    | ⟨1, _⟩ => show win0_1.index (lastOf (i 0).val h0) (1 : Fin 3) * 512 ≤ (i 1).val ∧ (i 1).val < win0_1.index (lastOf (i 0).val h0) (1 : Fin 3) * 512 + 512; omega
    | ⟨2, _⟩ => show win0_1.index (lastOf (i 0).val h0) (2 : Fin 3) * 512 ≤ (i 2).val ∧ (i 2).val < win0_1.index (lastOf (i 0).val h0) (2 : Fin 3) * 512 + 512; omega

/-- The column output ends holding G2, if every write-back writes G2's batch row t / 4. -/
theorem out2_array (G2 : Buf (Elt F) ((cfg0.win 2).arr.view.loc (c.tc : Thread nD τ)))
    (hG : ∀ t : Fin cfg0.N, t.val % 4 = 3 → ∀ (p : Fin 512),
      dat.flushed 2 t (ix3 (0 : Fin 1) p (0 : Fin 1))
        = G2 (ix3 (⟨t.val / 4, by have := point_lt t; omega⟩ : Fin 8) p (0 : Fin 1))) :
    dat.arrAt 2 cfg0.N = G2 := by
  refine dat.arrAt_eq_of_cover 2 G2 (fun t hf => funext fun y => ?_) (fun i => ?_)
  · have ht : t.val % 4 = 3 := (flush0_2 t).mp hf
    obtain ⟨u, p, v, rfl⟩ : ∃ (u : Fin 1) (p : Fin 512) (v : Fin 1), y = ix3 u p v := ⟨y 0, y 1, y 2, eq_ix3 y⟩
    obtain rfl : u = 0 := Subsingleton.elim _ _
    obtain rfl : v = 0 := Subsingleton.elim _ _
    exact (hG t ht p).trans (out2_block_apply c G2 t p).symm
  · have h0 : (i 0).val < 8 := (i 0).isLt
    have h1 : (i 1).val < 512 := (i 1).isLt
    have h2 : (i 2).val < 1 := (i 2).isLt
    refine ⟨lastOf (i 0).val h0, (flush0_2 _).mpr (by rw [lastOf_val]; omega), ?_⟩
    obtain ⟨e0, e1, e2⟩ := out2_index (lastOf (i 0).val h0)
    rw [lastOf_val] at e0
    rw [mem_blk2]
    intro a
    match a with
    | ⟨0, _⟩ => show win0_2.index (lastOf (i 0).val h0) (0 : Fin 3) * 1 ≤ (i 0).val ∧ (i 0).val < win0_2.index (lastOf (i 0).val h0) (0 : Fin 3) * 1 + 1; omega
    | ⟨1, _⟩ => show win0_2.index (lastOf (i 0).val h0) (1 : Fin 3) * 512 ≤ (i 1).val ∧ (i 1).val < win0_2.index (lastOf (i 0).val h0) (1 : Fin 3) * 512 + 512; omega
    | ⟨2, _⟩ => show win0_2.index (lastOf (i 0).val h0) (2 : Fin 3) * 1 ≤ (i 2).val ∧ (i 2).val < win0_2.index (lastOf (i 0).val h0) (2 : Fin 3) * 1 + 1; omega

/-- The input array is never written. -/
theorem in_array (n : Nat) : dat.arrAt 0 n = dat.A 0 := dat.arrAt_in 0 rfl n

end Arrays

end Cert.KernelIdeal.Blk

end
-- ==== Proof.Spec.lean ====
/-
  The mathematics both programs compute, stated over extended reals with no program in sight.

  For a batch x of feature rows, x(b, c, n) with b < 8, c < 512, n < 16384:
    gram x (b, c, d)  = Σ_n x(b, c, n) · x(b, d, n)        (the channel Gram matrix of batch b)
    sumsq x (b, c)    = Σ_n x(b, c, n)²                    (the squared norm of channel c of batch b)
  and the loss of two batches: each Gram matrix divided entrywise by the outer product of the channel norms,
  the mean of the squared difference (a sum over all 8·512·512 entries divided by that count, times one).

  The kernel reaches the two sums four blocks of 4096 at a time; the law joining the two sides is that a sum over
  16384 terms is the sum over the four blocks of the blocks' sums, which holds in any commutative monoid, hence
  on the extended reals with no finiteness assumed.
-/
import Idealize.ShloMosaic.PureOps.Ideal
import Idealize.ShloMosaic.PureOps.Ideal.Laws
import Idealize.ShloMosaic.Lib.ValueIdx

noncomputable section

open scoped BigOperators

namespace Cert.GramSpec

open Idealize.ShloMosaic Idealize.ShloMosaic.ValueIdx

abbrev SX : Shape := ⟨3, ![8, 512, 16384]⟩
abbrev SG : Shape := ⟨3, ![8, 512, 512]⟩
abbrev SS : Shape := ⟨2, ![8, 512]⟩
abbrev SC : Shape := ⟨3, ![8, 512, 1]⟩
abbrev SR : Shape := ⟨3, ![8, 1, 512]⟩
abbrev S0 : Shape := ⟨0, ![]⟩

/-- Entry (b, c, d) of the channel Gram matrix: the inner product of rows c and d of batch b. -/
def gramAt (x : SX.Idx → EReal) (b : Fin 8) (c d : Fin 512) : EReal :=
  ∑ n : Fin 16384, x (ix3 b c n) * x (ix3 b d n)

/-- The channel Gram matrices of a batch of feature rows. -/
def gram (x : SX.Idx → EReal) : SG.Idx → EReal := fun j => gramAt x (j 0) (j 1) (j 2)

/-- The squared norm of row c of batch b. -/
def sumsqAt (x : SX.Idx → EReal) (b : Fin 8) (c : Fin 512) : EReal :=
  ∑ n : Fin 16384, x (ix3 b c n) * x (ix3 b c n)

/-- The squared channel norms of a batch of feature rows. -/
def sumsq (x : SX.Idx → EReal) : SS.Idx → EReal := fun j => sumsqAt x (j 0) (j 1)

/-- Position n of block k among four blocks of 4096. -/
def blockPos (k : Fin 4) (n : Fin 4096) : Fin 16384 := ⟨k.val * 4096 + n.val, by have := k.isLt; have := n.isLt; omega⟩

/-- A sum over 16384 positions is the sum over the four blocks of 4096 of the blocks' sums (any commutative monoid). -/
theorem sum_blocks {M : Type} [AddCommMonoid M] (f : Fin 16384 → M) :
    ∑ n : Fin 16384, f n = ∑ k : Fin 4, ∑ n : Fin 4096, f (blockPos k n) := by
  rw [← Finset.sum_product']
  refine (Fintype.sum_equiv (finProdFinEquiv (m := 4) (n := 4096)) (fun p => f (blockPos p.1 p.2)) f (fun p => ?_)).symm
  refine congrArg f (Fin.ext ?_)
  show p.1.val * 4096 + p.2.val = p.2.val + 4096 * p.1.val
  omega

/-- A Gram matrix divided entrywise by the outer product of the channel norms (the norms the square roots of `s`). -/
def normed (hb1 : SS.BroadcastsInDim SC (![0, 1] : Fin 2 → Fin SC.rank)) (hb2 : SS.BroadcastsInDim SR (![0, 2] : Fin 2 → Fin SR.rank))
    (hb3 : SC.BroadcastsInDim SG (![0, 1, 2] : Fin 3 → Fin SG.rank)) (hb4 : SR.BroadcastsInDim SG (![0, 1, 2] : Fin 3 → Fin SG.rank))
    (g : FVec Ideal SG .f32) (s : FVec Ideal SS .f32) : FVec Ideal SG .f32 :=
  Host.divf (F := Ideal) g (mulf (broadcastInDim SG ![0, 1, 2] hb3 (broadcastInDim SC ![0, 1] hb1 (Host.sqrt (F := Ideal) s)))
    (broadcastInDim SG ![0, 1, 2] hb4 (broadcastInDim SR ![0, 2] hb2 (Host.sqrt (F := Ideal) s))))

/-- The mean squared difference of two arrays of 8·512·512 entries, times one. -/
def meanSq (hr : SG.ReducesTo [0, 1, 2] S0) (h0 : 0 < S0.numel) (a b : FVec Ideal SG .f32) : FVec Ideal S0 .f32 :=
  mulf (Host.divf (F := Ideal) (Host.reduceAdd (F := Ideal) (mulf (subf a b) (subf a b)) (constant (F := Ideal) S0 .f32 0x00000000#32) hr h0)
    (constant (F := Ideal) S0 .f32 0x4A000000#32)) (constant (F := Ideal) S0 .f32 0x3F800000#32)

/-- The loss of two batches from their Gram matrices and squared channel norms. -/
def loss (hb1 : SS.BroadcastsInDim SC (![0, 1] : Fin 2 → Fin SC.rank)) (hb2 : SS.BroadcastsInDim SR (![0, 2] : Fin 2 → Fin SR.rank))
    (hb3 : SC.BroadcastsInDim SG (![0, 1, 2] : Fin 3 → Fin SG.rank)) (hb4 : SR.BroadcastsInDim SG (![0, 1, 2] : Fin 3 → Fin SG.rank))
    (hr : SG.ReducesTo [0, 1, 2] S0) (h0 : 0 < S0.numel)
    (g1 : FVec Ideal SG .f32) (s1 : FVec Ideal SS .f32) (g2 : FVec Ideal SG .f32) (s2 : FVec Ideal SS .f32) : FVec Ideal S0 .f32 :=
  meanSq hr h0 (normed hb1 hb2 hb3 hb4 g1 s1) (normed hb1 hb2 hb3 hb4 g2 s2)

end Cert.GramSpec

end
-- ==== Proof.Accum.lean ====
/-
  The accumulation law over the specification: a Gram entry, and a squared norm, is the sum over the four blocks
  of 4096 positions of the blocks' partial sums. Pure algebra in a commutative monoid (here the extended reals);
  nothing is assumed finite.
-/
import proofs.«115151_j57501022159376_2_alg».proof.Proof.Spec

noncomputable section

open scoped BigOperators

namespace Cert.GramSpec

open Idealize.ShloMosaic Idealize.ShloMosaic.ValueIdx

/-- The part of Gram entry (b, p, q) contributed by block k of 4096 positions; zero past the fourth block. -/
def gramPart (x : SX.Idx → EReal) (b : Fin 8) (p q : Fin 512) (k : ℕ) : EReal :=
  if h : k < 4 then ∑ n : Fin 4096, x (ix3 b p (blockPos ⟨k, h⟩ n)) * x (ix3 b q (blockPos ⟨k, h⟩ n)) else 0

/-- The part of the squared norm of row p contributed by block k: the diagonal Gram part. -/
abbrev sumsqPart (x : SX.Idx → EReal) (b : Fin 8) (p : Fin 512) (k : ℕ) : EReal := gramPart x b p p k

/-- A Gram entry is the sum of its four block parts. -/
theorem gram_parts (x : SX.Idx → EReal) (b : Fin 8) (p q : Fin 512) :
    ∑ k ∈ Finset.range 4, gramPart x b p q k = gramAt x b p q := by
  unfold gramAt
  rw [sum_blocks (fun n => x (ix3 b p n) * x (ix3 b q n)), ← Fin.sum_univ_eq_sum_range (fun k => gramPart x b p q k) 4]
  refine Finset.sum_congr rfl fun k _ => ?_
  unfold gramPart
  rw [dif_pos k.isLt]

/-- A squared norm is the sum of its four block parts. -/
theorem sumsq_parts (x : SX.Idx → EReal) (b : Fin 8) (p : Fin 512) :
    ∑ k ∈ Finset.range 4, gramPart x b p p k = sumsqAt x b p :=
  gram_parts x b p p

end Cert.GramSpec

end
-- ==== Proof.HostSide.lean ====
/-
  The host operations of the kernel program around its two launches, read at the extended reals from an arbitrary
  valuation of the buffers: the two reshapes before and between the launches, and the closing stretch, which is
  the specification's loss of the two launches' Gram arrays and squared norms (the first launch's norms already
  reshaped to a row, the second's still a keepdims column). Then the two reading lemmas that turn entrywise facts
  about a launch's outputs into the specification's arrays.
-/
import proofs.«115151_j57501022159376_2_alg».proof.Proof.Gen.KernelIdeal.Regions
import proofs.«115151_j57501022159376_2_alg».proof.Proof.Spec
import Idealize.ShloMosaic.Lib.StableHlo.Run
import Idealize.ShloMosaic.Lib.Pipeline.Value
import Idealize.ShloMosaic.Lib.ValueIdx
import Idealize.ShloMosaic.Lib.ValueLayout

noncomputable section

open scoped BigOperators

namespace Cert.KernelIdeal.HostSide

open Idealize.ShloMosaic Idealize.ShloMosaic.TcCoe Idealize.SL.Sem Cert.KernelIdeal Cert.KernelIdeal.Gen Cert.GramSpec Idealize.ShloMosaic.ValueIdx

/-- before the first launch: the first argument reshaped to rows of 16384 -/
theorem v0_eq (W : Valuation τ sig (Elt Ideal)) :
    StableHlo.after hostOps0 W (Proc.devRef .tc main_v0)
      = shapeCast S8x512x16384 (W (Proc.devRef .tc main_arg0)) shapeCasts_S8x512x128x128_S8x512x16384 := by
  after_results
  rfl

/-- between the launches: the first launch's keepdims column of squared norms reshaped to a row -/
theorem v2_eq (W : Valuation τ sig (Elt Ideal)) :
    StableHlo.after hostOps1 W (Proc.devRef .tc main_v2)
      = shapeCast S8x512 (W (Proc.devRef .tc main_v1_1)) shapeCasts_S8x512x1_S8x512 := by
  after_results
  rfl

/-- between the launches: the second argument reshaped to rows of 16384 -/
theorem v3_eq (W : Valuation τ sig (Elt Ideal)) :
    StableHlo.after hostOps1 W (Proc.devRef .tc main_v3)
      = shapeCast S8x512x16384 (W (Proc.devRef .tc main_arg1)) shapeCasts_S8x512x128x128_S8x512x16384 := by
  after_results
  rfl

/-- after the second launch: the result is the loss of the two Gram arrays and the two arrays of squared norms -/
theorem loss_eq (W : Valuation τ sig (Elt Ideal)) :
    StableHlo.after hostOps2 W (Proc.devRef .tc main_v24)
      = loss bcast_S8x512_S8x512x1_0_1 bcast_S8x512_S8x1x512_0_2 bcast_S8x512x1_S8x512x512_0_1_2 bcast_S8x1x512_S8x512x512_0_1_2 reducesTo_S8x512x512_S_d0_1_2 h_S_
          (W (Proc.devRef .tc main_v1_0)) (W (Proc.devRef .tc main_v2)) (W (Proc.devRef .tc main_v4_0))
          (shapeCast S8x512 (W (Proc.devRef .tc main_v4_1)) shapeCasts_S8x512x1_S8x512) := by
  unfold loss meanSq normed
  after_results_simp
  rfl

/-- a keepdims column whose entries are the squared norms, reshaped to a row, is the squared-norm specification -/
theorem col_to_row (g : S8x512x1.Idx → EReal) (x : SX.Idx → EReal)
    (h : ∀ (b : Fin 8) (p : Fin 512), g (ix3 b p (0 : Fin 1)) = sumsqAt x b p) :
    shapeCast S8x512 g shapeCasts_S8x512x1_S8x512 = sumsq x := by
  funext j
  refine (shapeCast_apply g shapeCasts_S8x512x1_S8x512 j (ix3 (j 0 : Fin 8) (j 1 : Fin 512) (0 : Fin 1)) ?_).trans (h _ _)
  rw [Shape.rowMajor_val_three, Shape.rowMajor_val_two]
  show ((j 0).val * 512 + (j 1).val) * 1 + 0 = (j 0).val * 512 + (j 1).val
  omega

/-- an array whose entries are the Gram entries is the Gram specification -/
theorem gram_of_entries (g : S8x512x512.Idx → EReal) (x : SX.Idx → EReal)
    (h : ∀ (b : Fin 8) (p q : Fin 512), g (ix3 b p q) = gramAt x b p q) : g = gram x := by
  funext j
  exact (congrArg g (eq_ix3 j)).trans (h (j 0) (j 1) (j 2))

end Cert.KernelIdeal.HostSide

end
-- ==== Proof.FrameKernelIdeal.Value0.lean ====
/-
  What the first launch leaves in its two output arrays, at the extended reals. Grid point t = 4 b + k adds block k of
  batch b: after it the matrix accumulator holds at (p, q) the sum of the first k + 1 block parts of Gram entry
  (b, p, q), and the column accumulator at (p, 0) the same for the squared norm of row p. At k = 3 the four parts are
  all there, the copies written back are the Gram entries and the squared norms of batch b, and the write-backs of
  the eight batches make up the two arrays.
-/
import proofs.«115151_j57501022159376_2_alg».proof.Proof.FrameKernelIdeal.Region0
import proofs.«115151_j57501022159376_2_alg».proof.Proof.FrameKernelIdeal.Pieces
import proofs.«115151_j57501022159376_2_alg».proof.Proof.Payload
import proofs.«115151_j57501022159376_2_alg».proof.Proof.Blocks
import proofs.«115151_j57501022159376_2_alg».proof.Proof.Accum
import proofs.«115151_j57501022159376_2_alg».proof.Proof.HostSide

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.GramSpec

namespace R0

variable (V : (c : Dev nD) → (b : Ref sig .tc) → Buf (Elt Ideal) ((c : Thread nD τ).loc b))

/-- The batch of the point at position n: n / 4. -/
abbrev bat (n : ℕ) (hn : n < cfg0.N) : Fin 8 := ⟨n / 4, by have h : cfg0.N = 32 := N_0; omega⟩

/-! ## One block -/

/-- The products of rows p and q of the point's block, summed over the block's 4096 positions, are the block part
    of Gram entry (n / 4, p, q) for block n % 4. -/
theorem blk_part (c : Dev nD) (n : ℕ) (hn : n < cfg0.N) (x0 : Vec Ideal S1x512x4096 .f32) (hx : x0 = iblk V c ⟨n, hn⟩) (p q : Fin 512) :
    ∑ m : Fin 4096, x0 (ix3 (0 : Fin 1) p m) * x0 (ix3 (0 : Fin 1) q m)
      = gramPart (V c main_v0) (bat n hn) p q (n % 4) := by
  subst hx
  unfold gramPart
  rw [dif_pos (Nat.mod_lt _ (by decide))]
  refine Finset.sum_congr rfl fun m _ => ?_
  have e : ∀ r : Fin 512, (iblk V c ⟨n, hn⟩) (ix3 (0 : Fin 1) r m)
      = V c main_v0 (ix3 (bat n hn) r (blockPos ⟨n % 4, Nat.mod_lt _ (by decide)⟩ m)) := fun r =>
    Blk.in_block_apply c (V c (Pipeline.arrRef spec0 0)) ⟨n, hn⟩ r m
  rw [e p, e q]

/-! ## The accumulators after one point, as the payload functions -/

/-- After a first point the accumulators are the accumulating payloads of the block over the zero fills. -/
theorem acc_first_fn (c : Dev nD) (n : ℕ) (hn : n < cfg0.N) (h0 : n % 4 = 0) :
    (accAt V c n hn).1 = k0_pay4 (iblk V c ⟨n, hn⟩) (k0_pay1 (F := Ideal))
    ∧ (accAt V c n hn).2 = k0_pay5 (iblk V c ⟨n, hn⟩) (k0_pay2 (F := Ideal)) := by
  have h3 : ¬n % 4 = 3 := by omega
  have e : accAt V c n hn = _ := accAt_first V c ⟨n, hn⟩ h0 h3
  rw [e]
  dsimp only
  exact ⟨firstG_eq (F := Ideal) c (grid0.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) ((first_iff ⟨n, hn⟩).mpr h0) (fun h => h3 ((last_iff ⟨n, hn⟩).mp h)) (iblk V c ⟨n, hn⟩),
    firstS_eq (F := Ideal) c (grid0.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) ((first_iff ⟨n, hn⟩).mpr h0) (fun h => h3 ((last_iff ⟨n, hn⟩).mp h)) (iblk V c ⟨n, hn⟩)⟩

/-- After a later point the accumulators are the accumulating payloads of the block over what the point before left. -/
theorem acc_step_fn (c : Dev nD) (n : ℕ) (hn : n < cfg0.N) (h0 : ¬n % 4 = 0) :
    (accAt V c n hn).1 = k0_pay4 (iblk V c ⟨n, hn⟩) (prevAcc V c ⟨n, hn⟩).1
    ∧ (accAt V c n hn).2 = k0_pay5 (iblk V c ⟨n, hn⟩) (prevAcc V c ⟨n, hn⟩).2 := by
  by_cases h3 : n % 4 = 3
  · have e : accAt V c n hn = _ := accAt_last V c ⟨n, hn⟩ h0 h3
    rw [e]
    dsimp only
    exact ⟨lastG_eq (F := Ideal) c (grid0.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) ((last_iff ⟨n, hn⟩).mpr h3) (iblk V c ⟨n, hn⟩) (prevAcc V c ⟨n, hn⟩).1 (prevAcc V c ⟨n, hn⟩).2,
      lastS_eq (F := Ideal) c (grid0.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) ((last_iff ⟨n, hn⟩).mpr h3) (iblk V c ⟨n, hn⟩) (prevAcc V c ⟨n, hn⟩).1 (prevAcc V c ⟨n, hn⟩).2⟩
  · have e : accAt V c n hn = _ := accAt_mid V c ⟨n, hn⟩ h0 h3
    rw [e]
    dsimp only
    exact ⟨midG_eq (F := Ideal) c (grid0.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) (fun h => h3 ((last_iff ⟨n, hn⟩).mp h)) (iblk V c ⟨n, hn⟩) (prevAcc V c ⟨n, hn⟩).1 (prevAcc V c ⟨n, hn⟩).2,
      midS_eq (F := Ideal) c (grid0.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) (fun h => h3 ((last_iff ⟨n, hn⟩).mp h)) (iblk V c ⟨n, hn⟩) (prevAcc V c ⟨n, hn⟩).1 (prevAcc V c ⟨n, hn⟩).2⟩

/-! ## The accumulators after one point, entry by entry -/

/-- After a first point: the block part alone (added to the zeros just stored). -/
theorem acc_first (c : Dev nD) (n : ℕ) (hn : n < cfg0.N) (h0 : n % 4 = 0) (p q : Fin 512) :
    (accAt V c n hn).1 (ix2 p q) = gramPart (V c main_v0) (bat n hn) p q (n % 4)
    ∧ (accAt V c n hn).2 (ix2 p (0 : Fin 1)) = gramPart (V c main_v0) (bat n hn) p p (n % 4) := by
  obtain ⟨f1, f2⟩ := acc_first_fn V c n hn h0
  constructor
  · rw [f1]
    refine (Pay.pay4_apply (iblk V c ⟨n, hn⟩) (k0_pay1 (F := Ideal)) p q).trans ?_
    rw [Pay.pay1_apply, zero_add]
    exact blk_part V c n hn (iblk V c ⟨n, hn⟩) rfl p q
  · rw [f2]
    refine (Pay.pay5_apply (iblk V c ⟨n, hn⟩) (k0_pay2 (F := Ideal)) p).trans ?_
    rw [Pay.pay2_apply, zero_add]
    exact blk_part V c n hn (iblk V c ⟨n, hn⟩) rfl p p

/-- After a later point: what the point before left, plus the block part. -/
theorem acc_step (c : Dev nD) (n : ℕ) (hn : n < cfg0.N) (h0 : ¬n % 4 = 0) (p q : Fin 512) :
    (accAt V c n hn).1 (ix2 p q) = (prevAcc V c ⟨n, hn⟩).1 (ix2 p q) + gramPart (V c main_v0) (bat n hn) p q (n % 4)
    ∧ (accAt V c n hn).2 (ix2 p (0 : Fin 1)) = (prevAcc V c ⟨n, hn⟩).2 (ix2 p (0 : Fin 1)) + gramPart (V c main_v0) (bat n hn) p p (n % 4) := by
  obtain ⟨f1, f2⟩ := acc_step_fn V c n hn h0
  constructor
  · rw [f1]
    refine (Pay.pay4_apply (iblk V c ⟨n, hn⟩) (prevAcc V c ⟨n, hn⟩).1 p q).trans ?_
    exact congrArg (fun z => (prevAcc V c ⟨n, hn⟩).1 (ix2 p q) + z) (blk_part V c n hn (iblk V c ⟨n, hn⟩) rfl p q)
  · rw [f2]
    refine (Pay.pay5_apply (iblk V c ⟨n, hn⟩) (prevAcc V c ⟨n, hn⟩).2 p).trans ?_
    exact congrArg (fun z => (prevAcc V c ⟨n, hn⟩).2 (ix2 p (0 : Fin 1)) + z) (blk_part V c n hn (iblk V c ⟨n, hn⟩) rfl p p)

/-! ## The accumulation -/

/-- After the point at position n the accumulators hold the first n % 4 + 1 block parts of batch n / 4: of every Gram
    entry in the matrix, of every squared norm in the column. -/
theorem acc_eq (c : Dev nD) : ∀ (n : ℕ) (hn : n < cfg0.N) (p q : Fin 512),
    (accAt V c n hn).1 (ix2 p q) = ∑ k ∈ Finset.range (n % 4 + 1), gramPart (V c main_v0) (bat n hn) p q k
    ∧ (accAt V c n hn).2 (ix2 p (0 : Fin 1)) = ∑ k ∈ Finset.range (n % 4 + 1), gramPart (V c main_v0) (bat n hn) p p k := by
  intro n
  induction n with
  | zero =>
    intro hn p q
    obtain ⟨e1, e2⟩ := acc_first V c 0 hn rfl p q
    exact ⟨e1.trans (Finset.sum_range_one _).symm, e2.trans (Finset.sum_range_one _).symm⟩
  | succ m ih =>
    intro hn p q
    have hm : m < cfg0.N := Nat.lt_of_succ_lt hn
    by_cases h0 : (m + 1) % 4 = 0
    · obtain ⟨e1, e2⟩ := acc_first V c (m + 1) hn h0 p q
      rw [h0] at e1 e2 ⊢
      exact ⟨e1.trans (Finset.sum_range_one _).symm, e2.trans (Finset.sum_range_one _).symm⟩
    · obtain ⟨e1, e2⟩ := acc_step V c (m + 1) hn h0 p q
      obtain ⟨i1, i2⟩ := ih hm p q
      have hp : prevAcc V c ⟨m + 1, hn⟩ = accAt V c m hm := rfl
      have hb : bat m hm = bat (m + 1) hn := Fin.ext (by show m / 4 = (m + 1) / 4; omega)
      have hk : m % 4 + 1 = (m + 1) % 4 := by omega
      rw [hp, i1, hb, hk] at e1
      rw [hp, i2, hb, hk] at e2
      exact ⟨e1.trans (Finset.sum_range_succ _ _).symm, e2.trans (Finset.sum_range_succ _ _).symm⟩

/-! ## The output blocks at a last point -/

/-- At the last point of a batch the copies written back are the batch's Gram entries and squared norms. -/
theorem out_eq (c : Dev nD) (n : ℕ) (hn : n < cfg0.N) (h3 : n % 4 = 3) (p q : Fin 512) :
    (outAt V c ⟨n, hn⟩).1 (ix3 (0 : Fin 1) p q) = gramAt (V c main_v0) (bat n hn) p q
    ∧ (outAt V c ⟨n, hn⟩).2 (ix3 (0 : Fin 1) p (0 : Fin 1)) = sumsqAt (V c main_v0) (bat n hn) p := by
  have h0 : ¬n % 4 = 0 := by omega
  have e : outAt V c ⟨n, hn⟩ = _ := outAt_last V c ⟨n, hn⟩ h0 h3
  obtain ⟨f1, f2⟩ := acc_step_fn V c n hn h0
  obtain ⟨a1, a2⟩ := acc_eq V c n hn p q
  rw [h3] at a1 a2
  rw [e]
  dsimp only
  constructor
  · rw [lastOutG_eq (F := Ideal) c (grid0.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) ((last_iff ⟨n, hn⟩).mpr h3) (iblk V c ⟨n, hn⟩) (prevAcc V c ⟨n, hn⟩).1 (prevAcc V c ⟨n, hn⟩).2]
    refine (Pay.pay6_apply _ p q).trans ?_
    rw [← f1]
    exact a1.trans (gram_parts (V c main_v0) (bat n hn) p q)
  · rw [lastOutS_eq (F := Ideal) c (grid0.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) ((last_iff ⟨n, hn⟩).mpr h3) (iblk V c ⟨n, hn⟩) (prevAcc V c ⟨n, hn⟩).1 (prevAcc V c ⟨n, hn⟩).2]
    refine (Pay.pay7_apply _ p).trans ?_
    rw [← f2]
    exact a2.trans (sumsq_parts (V c main_v0) (bat n hn) p)

/-! ## The arrays after the launch -/

/-- The matrix output is the Gram specification of the input array. -/
theorem gram_array (c : Dev nD) : (dat V c).arrAt 1 cfg0.N = gram (V c main_v0) := by
  refine Blk.out1_array (dat V c) (gram (V c main_v0)) (fun t ht p q => ?_)
  show (dat V c).after 1 t (ix3 (0 : Fin 1) p q) = gramAt (V c main_v0) (bat t.val t.isLt) p q
  rw [after_G]
  exact (out_eq V c t.val t.isLt ht p q).1

/-- The column output, read as a row, is the squared-norm specification of the input array. -/
theorem sumsq_array (c : Dev nD) :
    shapeCast S8x512 ((dat V c).arrAt 2 cfg0.N) shapeCasts_S8x512x1_S8x512 = sumsq (V c main_v0) := by
  have h : (dat V c).arrAt 2 cfg0.N = (fun j : S8x512x1.Idx => sumsqAt (V c main_v0) (j 0) (j 1)) :=
    Blk.out2_array (dat V c) _ (fun t ht p => by
      show (dat V c).after 2 t (ix3 (0 : Fin 1) p (0 : Fin 1)) = sumsqAt (V c main_v0) (bat t.val t.isLt) p
      rw [after_S]
      exact (out_eq V c t.val t.isLt ht p p).2)
  rw [h]
  exact HostSide.col_to_row _ _ (fun b p => rfl)

/-- The input array is what the launch found. -/
theorem input_array (c : Dev nD) (n : ℕ) : (dat V c).arrAt 0 n = V c main_v0 :=
  (Blk.in_array (dat V c) n).trans (A_eq V c 0)

end R0

end Cert.KernelIdeal.Fr

end
-- ==== Proof.Blocks1.lean ====
/-
  From blocks to arrays, for the second launch: the grid is 8 x 4, point t has coordinates (t / 4, t % 4). The input window
  reads block (t / 4, 0, t % 4) of the [8, 512, 16384] array in blocks of [1, 512, 4096]; the two output windows write block
  (t / 4, 0, 0) of the [8, 512, 512] and of the [8, 512, 1] array, in blocks of one batch row, at the points t with t % 4 = 3.
  Here: the index maps over the grid; each window's block read at an index as the array read at batch row t / 4 (and, for the
  input, lane t % 4 * 4096 + n); and each output array after the run as ONE function, once every write-back is that function's block.
-/
import proofs.«115151_j57501022159376_2_alg».proof.Proof.Gen.KernelIdeal.Launch
import proofs.«115151_j57501022159376_2_alg».proof.Proof.Gen.KernelIdeal.Points
import Idealize.ShloMosaic.Lib.Pipeline.Value
import Idealize.ShloMosaic.Lib.Pipeline.FrameBody
import Idealize.ShloMosaic.Lib.ValueIdx

noncomputable section

open Idealize.ShloMosaic Idealize.ShloMosaic.TcCoe Idealize.ShloMosaic.ValueIdx
open Idealize.ShloMosaic.Pipeline (Dat Cfg Window)

namespace Cert.KernelIdeal.Blk1

open Cert.KernelIdeal Cert.KernelIdeal.Gen

variable {F : FTy → Type} [FloatOps F]

/-! ## The index maps over the grid -/

/-- The input's block index at point t is (t / 4, 0, t % 4). -/
theorem in_index : ∀ t : Fin cfg1.N, win1_0.index t (0 : Fin 3) = t.val / 4 ∧ win1_0.index t (1 : Fin 3) = 0
    ∧ win1_0.index t (2 : Fin 3) = t.val % 4 :=
  (by decide +kernel : ∀ t : Fin grid1.N, _)

/-- The matrix output's block index at point t is (t / 4, 0, 0). -/
theorem out1_index : ∀ t : Fin cfg1.N, win1_1.index t (0 : Fin 3) = t.val / 4 ∧ win1_1.index t (1 : Fin 3) = 0
    ∧ win1_1.index t (2 : Fin 3) = 0 :=
  (by decide +kernel : ∀ t : Fin grid1.N, _)

/-- The column output's block index at point t is (t / 4, 0, 0). -/
theorem out2_index : ∀ t : Fin cfg1.N, win1_2.index t (0 : Fin 3) = t.val / 4 ∧ win1_2.index t (1 : Fin 3) = 0
    ∧ win1_2.index t (2 : Fin 3) = 0 :=
  (by decide +kernel : ∀ t : Fin grid1.N, _)

/-- A point of the grid is below 32. -/
theorem point_lt (t : Fin cfg1.N) : t.val < 32 := lt_of_lt_of_eq t.isLt N_1

/-! ## A block read at an index -/

/-- The input's block at point t, at (0, p, n), is the array at (t / 4, p, t % 4 * 4096 + n). -/
theorem in_block_apply (c : Dev nD) (A : Buf (Elt F) ((cfg1.win 0).arr.view.loc (c.tc : Thread nD τ)))
    (t : Fin cfg1.N) (p : Fin 512) (n : Fin 4096) :
    ((cfg1.win 0).blk t).view.read (Elt F) A (ix3 (0 : Fin 1) p n)
      = A (ix3 (⟨t.val / 4, by have := point_lt t; omega⟩ : Fin 8) p
          (⟨t.val % 4 * 4096 + n.val, by have := n.isLt; omega⟩ : Fin 16384)) := by
  obtain ⟨e0, e1, e2⟩ := in_index t
  rw [View.read_apply]
  show A _ = A _
  refine congrArg A ?_
  funext a
  apply Fin.ext
  match a with
  | ⟨0, _⟩ => show win1_0.index t (0 : Fin 3) * 1 + 1 * 0 = t.val / 4; omega
  | ⟨1, _⟩ => show win1_0.index t (1 : Fin 3) * 512 + 1 * p.val = p.val; omega
  | ⟨2, _⟩ => show win1_0.index t (2 : Fin 3) * 4096 + 1 * n.val = t.val % 4 * 4096 + n.val; omega

/-- The matrix output's block at point t, at (0, p, q), is the array at (t / 4, p, q). -/
theorem out1_block_apply (c : Dev nD) (G : Buf (Elt F) ((cfg1.win 1).arr.view.loc (c.tc : Thread nD τ)))
    (t : Fin cfg1.N) (p q : Fin 512) :
    ((cfg1.win 1).blk t).view.read (Elt F) G (ix3 (0 : Fin 1) p q)
      = G (ix3 (⟨t.val / 4, by have := point_lt t; omega⟩ : Fin 8) p q) := by
  obtain ⟨e0, e1, e2⟩ := out1_index t
  rw [View.read_apply]
  show G _ = G _
  refine congrArg G ?_
  funext a
  apply Fin.ext
  match a with
  | ⟨0, _⟩ => show win1_1.index t (0 : Fin 3) * 1 + 1 * 0 = t.val / 4; omega
  | ⟨1, _⟩ => show win1_1.index t (1 : Fin 3) * 512 + 1 * p.val = p.val; omega
  | ⟨2, _⟩ => show win1_1.index t (2 : Fin 3) * 512 + 1 * q.val = q.val; omega

/-- The column output's block at point t, at (0, p, 0), is the array at (t / 4, p, 0). -/
theorem out2_block_apply (c : Dev nD) (G : Buf (Elt F) ((cfg1.win 2).arr.view.loc (c.tc : Thread nD τ)))
    (t : Fin cfg1.N) (p : Fin 512) :
    ((cfg1.win 2).blk t).view.read (Elt F) G (ix3 (0 : Fin 1) p (0 : Fin 1))
      = G (ix3 (⟨t.val / 4, by have := point_lt t; omega⟩ : Fin 8) p (0 : Fin 1)) := by
  obtain ⟨e0, e1, e2⟩ := out2_index t
  rw [View.read_apply]
  show G _ = G _
  refine congrArg G ?_
  funext a
  apply Fin.ext
  match a with
  | ⟨0, _⟩ => show win1_2.index t (0 : Fin 3) * 1 + 1 * 0 = t.val / 4; omega
  | ⟨1, _⟩ => show win1_2.index t (1 : Fin 3) * 512 + 1 * p.val = p.val; omega
  | ⟨2, _⟩ => show win1_2.index t (2 : Fin 3) * 1 + 1 * 0 = 0; omega

/-! ## Which indices a block holds -/

/-- An index of the matrix output is in point t's block iff each coordinate is in the block's range on its axis. -/
theorem mem_blk1 (t : Fin cfg1.N) (i : S8x512x512.Idx) :
    i ∈ ((cfg1.win 1).blk t).view.set ↔ ∀ a : Fin 3, win1_1.index t a * S1x512x512.size a ≤ (i a).val
      ∧ (i a).val < win1_1.index t a * S1x512x512.size a + S1x512x512.size a := by
  show i ∈ ((View.whole main_v4_0).slice (win1_1.rect t)).set ↔ _
  rw [View.set_slice_whole, Rect.mem_set_unit]
  exact Iff.rfl

/-- The same for the column output. -/
theorem mem_blk2 (t : Fin cfg1.N) (i : S8x512x1.Idx) :
    i ∈ ((cfg1.win 2).blk t).view.set ↔ ∀ a : Fin 3, win1_2.index t a * S1x512x1.size a ≤ (i a).val
      ∧ (i a).val < win1_2.index t a * S1x512x1.size a + S1x512x1.size a := by
  show i ∈ ((View.whole main_v4_1).slice (win1_2.rect t)).set ↔ _
  rw [View.set_slice_whole, Rect.mem_set_unit]
  exact Iff.rfl

/-- The last point of batch row b. -/
def lastOf (b : Nat) (hb : b < 8) : Fin cfg1.N := ⟨4 * b + 3, by rw [show cfg1.N = 32 from N_1]; omega⟩

theorem lastOf_val (b : Nat) (hb : b < 8) : (lastOf b hb).val = 4 * b + 3 := rfl

/-! ## The output arrays after the run -/

section Arrays
variable {c : Dev nD} (dat : Dat τ (Elt F) Unit ℕ (UR sig nD τ) ℕ cfg1 c)

/-- The matrix output ends holding G1, if every write-back writes G1's batch row t / 4. -/
theorem out1_array (G1 : Buf (Elt F) ((cfg1.win 1).arr.view.loc (c.tc : Thread nD τ)))
    (hG : ∀ t : Fin cfg1.N, t.val % 4 = 3 → ∀ (p q : Fin 512),
      dat.flushed 1 t (ix3 (0 : Fin 1) p q) = G1 (ix3 (⟨t.val / 4, by have := point_lt t; omega⟩ : Fin 8) p q)) :
    dat.arrAt 1 cfg1.N = G1 := by
  refine dat.arrAt_eq_of_cover 1 G1 (fun t hf => funext fun y => ?_) (fun i => ?_)
  · have ht : t.val % 4 = 3 := (flush1_1 t).mp hf
    obtain ⟨u, p, q, rfl⟩ : ∃ (u : Fin 1) (p q : Fin 512), y = ix3 u p q := ⟨y 0, y 1, y 2, eq_ix3 y⟩
    obtain rfl : u = 0 := Subsingleton.elim _ _
    exact (hG t ht p q).trans (out1_block_apply c G1 t p q).symm
  · have h0 : (i 0).val < 8 := (i 0).isLt
    have h1 : (i 1).val < 512 := (i 1).isLt
    have h2 : (i 2).val < 512 := (i 2).isLt
    refine ⟨lastOf (i 0).val h0, (flush1_1 _).mpr (by rw [lastOf_val]; omega), ?_⟩
    obtain ⟨e0, e1, e2⟩ := out1_index (lastOf (i 0).val h0)
    rw [lastOf_val] at e0
    rw [mem_blk1]
    intro a
    match a with
    | ⟨0, _⟩ => show win1_1.index (lastOf (i 0).val h0) (0 : Fin 3) * 1 ≤ (i 0).val ∧ (i 0).val < win1_1.index (lastOf (i 0).val h0) (0 : Fin 3) * 1 + 1; omega
    | ⟨1, _⟩ => show win1_1.index (lastOf (i 0).val h0) (1 : Fin 3) * 512 ≤ (i 1).val ∧ (i 1).val < win1_1.index (lastOf (i 0).val h0) (1 : Fin 3) * 512 + 512; omega
    | ⟨2, _⟩ => show win1_1.index (lastOf (i 0).val h0) (2 : Fin 3) * 512 ≤ (i 2).val ∧ (i 2).val < win1_1.index (lastOf (i 0).val h0) (2 : Fin 3) * 512 + 512; omega

/-- The column output ends holding G2, if every write-back writes G2's batch row t / 4. -/
theorem out2_array (G2 : Buf (Elt F) ((cfg1.win 2).arr.view.loc (c.tc : Thread nD τ)))
    (hG : ∀ t : Fin cfg1.N, t.val % 4 = 3 → ∀ (p : Fin 512),
      dat.flushed 2 t (ix3 (0 : Fin 1) p (0 : Fin 1))
        = G2 (ix3 (⟨t.val / 4, by have := point_lt t; omega⟩ : Fin 8) p (0 : Fin 1))) :
    dat.arrAt 2 cfg1.N = G2 := by
  refine dat.arrAt_eq_of_cover 2 G2 (fun t hf => funext fun y => ?_) (fun i => ?_)
  · have ht : t.val % 4 = 3 := (flush1_2 t).mp hf
    obtain ⟨u, p, v, rfl⟩ : ∃ (u : Fin 1) (p : Fin 512) (v : Fin 1), y = ix3 u p v := ⟨y 0, y 1, y 2, eq_ix3 y⟩
    obtain rfl : u = 0 := Subsingleton.elim _ _
    obtain rfl : v = 0 := Subsingleton.elim _ _
    exact (hG t ht p).trans (out2_block_apply c G2 t p).symm
  · have h0 : (i 0).val < 8 := (i 0).isLt
    have h1 : (i 1).val < 512 := (i 1).isLt
    have h2 : (i 2).val < 1 := (i 2).isLt
    refine ⟨lastOf (i 0).val h0, (flush1_2 _).mpr (by rw [lastOf_val]; omega), ?_⟩
    obtain ⟨e0, e1, e2⟩ := out2_index (lastOf (i 0).val h0)
    rw [lastOf_val] at e0
    rw [mem_blk2]
    intro a
    match a with
    | ⟨0, _⟩ => show win1_2.index (lastOf (i 0).val h0) (0 : Fin 3) * 1 ≤ (i 0).val ∧ (i 0).val < win1_2.index (lastOf (i 0).val h0) (0 : Fin 3) * 1 + 1; omega
    | ⟨1, _⟩ => show win1_2.index (lastOf (i 0).val h0) (1 : Fin 3) * 512 ≤ (i 1).val ∧ (i 1).val < win1_2.index (lastOf (i 0).val h0) (1 : Fin 3) * 512 + 512; omega
    | ⟨2, _⟩ => show win1_2.index (lastOf (i 0).val h0) (2 : Fin 3) * 1 ≤ (i 2).val ∧ (i 2).val < win1_2.index (lastOf (i 0).val h0) (2 : Fin 3) * 1 + 1; omega

/-- The input array is never written. -/
theorem in_array (n : Nat) : dat.arrAt 0 n = dat.A 0 := dat.arrAt_in 0 rfl n

end Arrays

end Cert.KernelIdeal.Blk1

end
-- ==== Proof.FrameKernelIdeal.Value1.lean ====
/-
  What the second launch leaves in its two output arrays, at the extended reals. Grid point t = 4 b + k adds block k of
  batch b: after it the matrix accumulator holds at (p, q) the sum of the first k + 1 block parts of Gram entry
  (b, p, q), and the column accumulator at (p, 0) the same for the squared norm of row p. At k = 3 the four parts are
  all there, the copies written back are the Gram entries and the squared norms of batch b, and the write-backs of
  the eight batches make up the two arrays.
-/
import proofs.«115151_j57501022159376_2_alg».proof.Proof.FrameKernelIdeal.Region1
import proofs.«115151_j57501022159376_2_alg».proof.Proof.FrameKernelIdeal.Pieces
import proofs.«115151_j57501022159376_2_alg».proof.Proof.Payload
import proofs.«115151_j57501022159376_2_alg».proof.Proof.Blocks1
import proofs.«115151_j57501022159376_2_alg».proof.Proof.Accum
import proofs.«115151_j57501022159376_2_alg».proof.Proof.HostSide

set_option maxRecDepth 16384

noncomputable section

open scoped BigOperators

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.GramSpec

namespace R1

variable (V : (c : Dev nD) → (b : Ref sig .tc) → Buf (Elt Ideal) ((c : Thread nD τ).loc b))

/-- The batch of the point at position n: n / 4. -/
abbrev bat (n : ℕ) (hn : n < cfg1.N) : Fin 8 := ⟨n / 4, by have h : cfg1.N = 32 := N_1; omega⟩

/-! ## One block -/

/-- The products of rows p and q of the point's block, summed over the block's 4096 positions, are the block part
    of Gram entry (n / 4, p, q) for block n % 4. -/
theorem blk_part (c : Dev nD) (n : ℕ) (hn : n < cfg1.N) (x0 : Vec Ideal S1x512x4096 .f32) (hx : x0 = iblk V c ⟨n, hn⟩) (p q : Fin 512) :
    ∑ m : Fin 4096, x0 (ix3 (0 : Fin 1) p m) * x0 (ix3 (0 : Fin 1) q m)
      = gramPart (V c main_v3) (bat n hn) p q (n % 4) := by
  subst hx
  unfold gramPart
  rw [dif_pos (Nat.mod_lt _ (by decide))]
  refine Finset.sum_congr rfl fun m _ => ?_
  have e : ∀ r : Fin 512, (iblk V c ⟨n, hn⟩) (ix3 (0 : Fin 1) r m)
      = V c main_v3 (ix3 (bat n hn) r (blockPos ⟨n % 4, Nat.mod_lt _ (by decide)⟩ m)) := fun r =>
    Blk1.in_block_apply c (V c (Pipeline.arrRef spec1 0)) ⟨n, hn⟩ r m
  rw [e p, e q]

/-! ## The accumulators after one point, as the payload functions -/

/-- After a first point the accumulators are the accumulating payloads of the block over the zero fills. -/
theorem acc_first_fn (c : Dev nD) (n : ℕ) (hn : n < cfg1.N) (h0 : n % 4 = 0) :
    (accAt V c n hn).1 = k0_pay4 (iblk V c ⟨n, hn⟩) (k0_pay1 (F := Ideal))
    ∧ (accAt V c n hn).2 = k0_pay5 (iblk V c ⟨n, hn⟩) (k0_pay2 (F := Ideal)) := by
  have h3 : ¬n % 4 = 3 := by omega
  have e : accAt V c n hn = _ := accAt_first V c ⟨n, hn⟩ h0 h3
  rw [e]
  dsimp only
  exact ⟨firstG_eq (F := Ideal) c (grid1.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) ((first_iff ⟨n, hn⟩).mpr h0) (fun h => h3 ((last_iff ⟨n, hn⟩).mp h)) (iblk V c ⟨n, hn⟩),
    firstS_eq (F := Ideal) c (grid1.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) ((first_iff ⟨n, hn⟩).mpr h0) (fun h => h3 ((last_iff ⟨n, hn⟩).mp h)) (iblk V c ⟨n, hn⟩)⟩

/-- After a later point the accumulators are the accumulating payloads of the block over what the point before left. -/
theorem acc_step_fn (c : Dev nD) (n : ℕ) (hn : n < cfg1.N) (h0 : ¬n % 4 = 0) :
    (accAt V c n hn).1 = k0_pay4 (iblk V c ⟨n, hn⟩) (prevAcc V c ⟨n, hn⟩).1
    ∧ (accAt V c n hn).2 = k0_pay5 (iblk V c ⟨n, hn⟩) (prevAcc V c ⟨n, hn⟩).2 := by
  by_cases h3 : n % 4 = 3
  · have e : accAt V c n hn = _ := accAt_last V c ⟨n, hn⟩ h0 h3
    rw [e]
    dsimp only
    exact ⟨lastG_eq (F := Ideal) c (grid1.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) ((last_iff ⟨n, hn⟩).mpr h3) (iblk V c ⟨n, hn⟩) (prevAcc V c ⟨n, hn⟩).1 (prevAcc V c ⟨n, hn⟩).2,
      lastS_eq (F := Ideal) c (grid1.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) ((last_iff ⟨n, hn⟩).mpr h3) (iblk V c ⟨n, hn⟩) (prevAcc V c ⟨n, hn⟩).1 (prevAcc V c ⟨n, hn⟩).2⟩
  · have e : accAt V c n hn = _ := accAt_mid V c ⟨n, hn⟩ h0 h3
    rw [e]
    dsimp only
    exact ⟨midG_eq (F := Ideal) c (grid1.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) (fun h => h3 ((last_iff ⟨n, hn⟩).mp h)) (iblk V c ⟨n, hn⟩) (prevAcc V c ⟨n, hn⟩).1 (prevAcc V c ⟨n, hn⟩).2,
      midS_eq (F := Ideal) c (grid1.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) (fun h => h3 ((last_iff ⟨n, hn⟩).mp h)) (iblk V c ⟨n, hn⟩) (prevAcc V c ⟨n, hn⟩).1 (prevAcc V c ⟨n, hn⟩).2⟩

/-! ## The accumulators after one point, entry by entry -/

/-- After a first point: the block part alone (added to the zeros just stored). -/
theorem acc_first (c : Dev nD) (n : ℕ) (hn : n < cfg1.N) (h0 : n % 4 = 0) (p q : Fin 512) :
    (accAt V c n hn).1 (ix2 p q) = gramPart (V c main_v3) (bat n hn) p q (n % 4)
    ∧ (accAt V c n hn).2 (ix2 p (0 : Fin 1)) = gramPart (V c main_v3) (bat n hn) p p (n % 4) := by
  obtain ⟨f1, f2⟩ := acc_first_fn V c n hn h0
  constructor
  · rw [f1]
    refine (Pay.pay4_apply (iblk V c ⟨n, hn⟩) (k0_pay1 (F := Ideal)) p q).trans ?_
    rw [Pay.pay1_apply, zero_add]
    exact blk_part V c n hn (iblk V c ⟨n, hn⟩) rfl p q
  · rw [f2]
    refine (Pay.pay5_apply (iblk V c ⟨n, hn⟩) (k0_pay2 (F := Ideal)) p).trans ?_
    rw [Pay.pay2_apply, zero_add]
    exact blk_part V c n hn (iblk V c ⟨n, hn⟩) rfl p p

/-- After a later point: what the point before left, plus the block part. -/
theorem acc_step (c : Dev nD) (n : ℕ) (hn : n < cfg1.N) (h0 : ¬n % 4 = 0) (p q : Fin 512) :
    (accAt V c n hn).1 (ix2 p q) = (prevAcc V c ⟨n, hn⟩).1 (ix2 p q) + gramPart (V c main_v3) (bat n hn) p q (n % 4)
    ∧ (accAt V c n hn).2 (ix2 p (0 : Fin 1)) = (prevAcc V c ⟨n, hn⟩).2 (ix2 p (0 : Fin 1)) + gramPart (V c main_v3) (bat n hn) p p (n % 4) := by
  obtain ⟨f1, f2⟩ := acc_step_fn V c n hn h0
  constructor
  · rw [f1]
    refine (Pay.pay4_apply (iblk V c ⟨n, hn⟩) (prevAcc V c ⟨n, hn⟩).1 p q).trans ?_
    exact congrArg (fun z => (prevAcc V c ⟨n, hn⟩).1 (ix2 p q) + z) (blk_part V c n hn (iblk V c ⟨n, hn⟩) rfl p q)
  · rw [f2]
    refine (Pay.pay5_apply (iblk V c ⟨n, hn⟩) (prevAcc V c ⟨n, hn⟩).2 p).trans ?_
    exact congrArg (fun z => (prevAcc V c ⟨n, hn⟩).2 (ix2 p (0 : Fin 1)) + z) (blk_part V c n hn (iblk V c ⟨n, hn⟩) rfl p p)

/-! ## The accumulation -/

/-- After the point at position n the accumulators hold the first n % 4 + 1 block parts of batch n / 4: of every Gram
    entry in the matrix, of every squared norm in the column. -/
theorem acc_eq (c : Dev nD) : ∀ (n : ℕ) (hn : n < cfg1.N) (p q : Fin 512),
    (accAt V c n hn).1 (ix2 p q) = ∑ k ∈ Finset.range (n % 4 + 1), gramPart (V c main_v3) (bat n hn) p q k
    ∧ (accAt V c n hn).2 (ix2 p (0 : Fin 1)) = ∑ k ∈ Finset.range (n % 4 + 1), gramPart (V c main_v3) (bat n hn) p p k := by
  intro n
  induction n with
  | zero =>
    intro hn p q
    obtain ⟨e1, e2⟩ := acc_first V c 0 hn rfl p q
    exact ⟨e1.trans (Finset.sum_range_one _).symm, e2.trans (Finset.sum_range_one _).symm⟩
  | succ m ih =>
    intro hn p q
    have hm : m < cfg1.N := Nat.lt_of_succ_lt hn
    by_cases h0 : (m + 1) % 4 = 0
    · obtain ⟨e1, e2⟩ := acc_first V c (m + 1) hn h0 p q
      rw [h0] at e1 e2 ⊢
      exact ⟨e1.trans (Finset.sum_range_one _).symm, e2.trans (Finset.sum_range_one _).symm⟩
    · obtain ⟨e1, e2⟩ := acc_step V c (m + 1) hn h0 p q
      obtain ⟨i1, i2⟩ := ih hm p q
      have hp : prevAcc V c ⟨m + 1, hn⟩ = accAt V c m hm := rfl
      have hb : bat m hm = bat (m + 1) hn := Fin.ext (by show m / 4 = (m + 1) / 4; omega)
      have hk : m % 4 + 1 = (m + 1) % 4 := by omega
      rw [hp, i1, hb, hk] at e1
      rw [hp, i2, hb, hk] at e2
      exact ⟨e1.trans (Finset.sum_range_succ _ _).symm, e2.trans (Finset.sum_range_succ _ _).symm⟩

/-! ## The output blocks at a last point -/

/-- At the last point of a batch the copies written back are the batch's Gram entries and squared norms. -/
theorem out_eq (c : Dev nD) (n : ℕ) (hn : n < cfg1.N) (h3 : n % 4 = 3) (p q : Fin 512) :
    (outAt V c ⟨n, hn⟩).1 (ix3 (0 : Fin 1) p q) = gramAt (V c main_v3) (bat n hn) p q
    ∧ (outAt V c ⟨n, hn⟩).2 (ix3 (0 : Fin 1) p (0 : Fin 1)) = sumsqAt (V c main_v3) (bat n hn) p := by
  have h0 : ¬n % 4 = 0 := by omega
  have e : outAt V c ⟨n, hn⟩ = _ := outAt_last V c ⟨n, hn⟩ h0 h3
  obtain ⟨f1, f2⟩ := acc_step_fn V c n hn h0
  obtain ⟨a1, a2⟩ := acc_eq V c n hn p q
  rw [h3] at a1 a2
  rw [e]
  dsimp only
  constructor
  · rw [lastOutG_eq (F := Ideal) c (grid1.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) ((last_iff ⟨n, hn⟩).mpr h3) (iblk V c ⟨n, hn⟩) (prevAcc V c ⟨n, hn⟩).1 (prevAcc V c ⟨n, hn⟩).2]
    refine (Pay.pay6_apply _ p q).trans ?_
    rw [← f1]
    exact a1.trans (gram_parts (V c main_v3) (bat n hn) p q)
  · rw [lastOutS_eq (F := Ideal) c (grid1.coords ⟨n, hn⟩) (mIn ⟨n, hn⟩) (hIn ⟨n, hn⟩) (mG ⟨n, hn⟩) (hG ⟨n, hn⟩) (mS ⟨n, hn⟩) (hS ⟨n, hn⟩) accG (Memref.isWhole_whole _) accS (Memref.isWhole_whole _) (fun h => h0 ((first_iff ⟨n, hn⟩).mp h)) ((last_iff ⟨n, hn⟩).mpr h3) (iblk V c ⟨n, hn⟩) (prevAcc V c ⟨n, hn⟩).1 (prevAcc V c ⟨n, hn⟩).2]
    refine (Pay.pay7_apply _ p).trans ?_
    rw [← f2]
    exact a2.trans (sumsq_parts (V c main_v3) (bat n hn) p)

/-! ## The arrays after the launch -/

/-- The matrix output is the Gram specification of the input array. -/
theorem gram_array (c : Dev nD) : (dat V c).arrAt 1 cfg1.N = gram (V c main_v3) := by
  refine Blk1.out1_array (dat V c) (gram (V c main_v3)) (fun t ht p q => ?_)
  show (dat V c).after 1 t (ix3 (0 : Fin 1) p q) = gramAt (V c main_v3) (bat t.val t.isLt) p q
  rw [after_G]
  exact (out_eq V c t.val t.isLt ht p q).1

/-- The column output, read as a row, is the squared-norm specification of the input array. -/
theorem sumsq_array (c : Dev nD) :
    shapeCast S8x512 ((dat V c).arrAt 2 cfg1.N) shapeCasts_S8x512x1_S8x512 = sumsq (V c main_v3) := by
  have h : (dat V c).arrAt 2 cfg1.N = (fun j : S8x512x1.Idx => sumsqAt (V c main_v3) (j 0) (j 1)) :=
    Blk1.out2_array (dat V c) _ (fun t ht p => by
      show (dat V c).after 2 t (ix3 (0 : Fin 1) p (0 : Fin 1)) = sumsqAt (V c main_v3) (bat t.val t.isLt) p
      rw [after_S]
      exact (out_eq V c t.val t.isLt ht p p).2)
  rw [h]
  exact HostSide.col_to_row _ _ (fun b p => rfl)

/-- The input array is what the launch found. -/
theorem input_array (c : Dev nD) (n : ℕ) : (dat V c).arrAt 0 n = V c main_v3 :=
  (Blk1.in_array (dat V c) n).trans (A_eq V c 0)

end R1

end Cert.KernelIdeal.Fr

end
-- ==== Proof.FrameKernelIdeal.KernelValue.lean ====
/-
  The idealized kernel program's result. The last host stretch computes the loss from the two launches' Gram
  arrays and squared-norm columns; each launch's arrays are the Gram matrices and squared norms of its input; each
  input is one argument reshaped. So the result buffer ends at the loss of the two reshaped arguments' Gram
  matrices and squared norms — the same function the reference computes.
-/
import proofs.«115151_j57501022159376_2_alg».proof.Proof.FrameKernelIdeal.Frame
import proofs.«115151_j57501022159376_2_alg».proof.Proof.FrameKernelIdeal.Value0
import proofs.«115151_j57501022159376_2_alg».proof.Proof.FrameKernelIdeal.Value1
import proofs.«115151_j57501022159376_2_alg».proof.Proof.HostSide
import proofs.«115151_j57501022159376_2_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.GramSpec Cert.KernelIdeal.HostSide

variable (m : (ℓ : Loc nD τ sig) → Buf (Elt Ideal) ℓ) (ρ : Dev nD → PrngReg)

/-- The loss of the two arguments as launched: what both programs compute. -/
def lossOf (c : Dev nD) : S_.Idx → EReal :=
  loss bcast_S8x512_S8x512x1_0_1 bcast_S8x512_S8x1x512_0_2 bcast_S8x512x1_S8x512x512_0_1_2 bcast_S8x1x512_S8x512x512_0_1_2 reducesTo_S8x512x512_S_d0_1_2 h_S_
    (gram (shapeCast S8x512x16384 (m ((c.tc : Thread nD τ).loc main_arg0)) shapeCasts_S8x512x128x128_S8x512x16384))
    (sumsq (shapeCast S8x512x16384 (m ((c.tc : Thread nD τ).loc main_arg0)) shapeCasts_S8x512x128x128_S8x512x16384))
    (gram (shapeCast S8x512x16384 (m ((c.tc : Thread nD τ).loc main_arg1)) shapeCasts_S8x512x128x128_S8x512x16384))
    (sumsq (shapeCast S8x512x16384 (m ((c.tc : Thread nD τ).loc main_arg1)) shapeCasts_S8x512x128x128_S8x512x16384))

/-- The first launch's input is the first argument reshaped. -/
theorem input0 (c : Dev nD) :
    ent0 m c main_v0 = shapeCast S8x512x16384 (m ((c.tc : Thread nD τ).loc main_arg0)) shapeCasts_S8x512x128x128_S8x512x16384 :=
  v0_eq (bufs0 m c)

/-- The second launch's input is the second argument reshaped: neither the first launch nor the first host stretch
    writes that argument. -/
theorem input1 (c : Dev nD) :
    ent1 m c main_v3 = shapeCast S8x512x16384 (m ((c.tc : Thread nD τ).loc main_arg1)) shapeCasts_S8x512x128x128_S8x512x16384 :=
  (v3_eq (bufs2 m c)).trans (congrArg (fun x => shapeCast S8x512x16384 x shapeCasts_S8x512x128x128_S8x512x16384)
    ((bufs2_of_ne m c main_arg1 (by decide)).trans (StableHlo.after_of_writes_sub hostOps0 _ hostOps0_writes (by decide))))

/-- The first launch's Gram array reaches the last host stretch untouched. -/
theorem gram0 (c : Dev nD) : bufs4 m c (Proc.devRef .tc main_v1_0)
    = gram (shapeCast S8x512x16384 (m ((c.tc : Thread nD τ).loc main_arg0)) shapeCasts_S8x512x128x128_S8x512x16384) :=
  (bufs4_of_ne m c main_v1_0 (by decide)).trans
    ((StableHlo.after_of_writes_sub hostOps1 _ hostOps1_writes (by decide)).trans
      ((bufs2_arr m c 1).trans ((R0.gram_array (ent0 m) c).trans (congrArg gram (input0 m c)))))

/-- The first launch's squared norms, reshaped to rows by the middle host stretch, reach the last one untouched. -/
theorem sumsq0 (c : Dev nD) : bufs4 m c (Proc.devRef .tc main_v2)
    = sumsq (shapeCast S8x512x16384 (m ((c.tc : Thread nD τ).loc main_arg0)) shapeCasts_S8x512x128x128_S8x512x16384) :=
  (bufs4_of_ne m c main_v2 (by decide)).trans
    ((v2_eq (bufs2 m c)).trans
      ((congrArg (fun g => shapeCast S8x512 g shapeCasts_S8x512x1_S8x512) (bufs2_arr m c 2)).trans
        ((R0.sumsq_array (ent0 m) c).trans (congrArg sumsq (input0 m c)))))

theorem gram1 (c : Dev nD) : bufs4 m c (Proc.devRef .tc main_v4_0)
    = gram (shapeCast S8x512x16384 (m ((c.tc : Thread nD τ).loc main_arg1)) shapeCasts_S8x512x128x128_S8x512x16384) :=
  (bufs4_arr m c 1).trans ((R1.gram_array (ent1 m) c).trans (congrArg gram (input1 m c)))

theorem sumsq1 (c : Dev nD) : shapeCast S8x512 (bufs4 m c (Proc.devRef .tc main_v4_1)) shapeCasts_S8x512x1_S8x512
    = sumsq (shapeCast S8x512x16384 (m ((c.tc : Thread nD τ).loc main_arg1)) shapeCasts_S8x512x128x128_S8x512x16384) :=
  (congrArg (fun g => shapeCast S8x512 g shapeCasts_S8x512x1_S8x512) (bufs4_arr m c 2)).trans
    ((R1.sumsq_array (ent1 m) c).trans (congrArg sumsq (input1 m c)))

/-- The result buffer's last contents: the loss of the two arguments. -/
theorem result (c : Dev nD) : bufs5 m c (Proc.devRef .tc main_v24) = lossOf m c := by
  unfold lossOf
  rw [← gram0 m c, ← sumsq0 m c, ← gram1 m c, ← sumsq1 m c]
  exact loss_eq (bufs4 m c)

/-- The idealized kernel program runs to the loss of its two arguments, both left as launched. -/
theorem kernel_value : θ_run defs (onTc (τ := τ) (main (F := Ideal))) ⟨m, fun _ => 0, ρ⟩ (fun r => ∀ c : Dev nD,
      r.2.mem ((c.tc : Thread nD τ).loc main_v24) = lossOf m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c _ (mem_uc main_v24 (by decide))).trans (result m c),
     (h c _ (mem_uc main_arg0 (by decide))).trans (arg0_kept m c),
     (h c _ (mem_uc main_arg1 (by decide))).trans (arg1_kept m c)⟩) (run_all m ρ)

end Cert.KernelIdeal.Fr

end
-- ==== Proof.RefSpec.lean ====
/-
  The reference program's result, read at the extended reals, is the specification's loss of the two reshaped
  arguments: its batched product of an array with itself is the channel Gram matrix, its sum of squares along the
  last axis is the squared channel norm, and everything after those two is the specification's epilogue verbatim.
-/
import proofs.«115151_j57501022159376_2_alg».proof.Proof.Gen.ReferenceIdeal.Read
import proofs.«115151_j57501022159376_2_alg».proof.Proof.Spec
import Idealize.ShloMosaic.Lib.ValueIdx
import Idealize.ShloMosaic.PureOps.Ideal
import Idealize.ShloMosaic.PureOps.Ideal.Laws

noncomputable section

open scoped BigOperators

namespace Cert.ReferenceIdeal.RefValue

open Idealize.ShloMosaic Idealize.ShloMosaic.TcCoe Idealize.SL.Sem Cert.ReferenceIdeal Cert.ReferenceIdeal.Gen Cert.GramSpec

/-- the host's batched row-by-row product of x with itself is the Gram specification -/
theorem dot_eq_gram (x : FVec Ideal S8x512x16384 .f32) :
    Host.dotGeneral (F := Ideal) dot_S8x512x16384_S8x512x16384_S8x512x512_2_2_1_1_0_0 none x x = gram x := by
  funext j
  simp only [Host.dotGeneral]
  rw [Ideal.dotGeneral_apply, ← Equiv.sum_comp (ValueIdx.contrEquiv1 dot_S8x512x16384_S8x512x16384_S8x512x512_2_2_1_1_0_0 16384 rfl rfl).symm]
  unfold gram gramAt
  refine Finset.sum_congr rfl fun k _ => ?_
  have hk := ValueIdx.contrEquiv1_symm_val dot_S8x512x16384_S8x512x16384_S8x512x512_2_2_1_1_0_0 16384 rfl rfl k
  -- the left operand is read at (batch, row, k)
  have el : dot_S8x512x16384_S8x512x16384_S8x512x512_2_2_1_1_0_0.lhsIdx j ((ValueIdx.contrEquiv1 dot_S8x512x16384_S8x512x16384_S8x512x512_2_2_1_1_0_0 16384 rfl rfl).symm k)
      = ValueIdx.ix3 (j 0 : Fin 8) (j 1 : Fin 512) k := funext fun a => Fin.ext (by
    match a with
    | ⟨0, _⟩ => exact Read.lhs_main_v1_0 _ _
    | ⟨1, _⟩ => exact Read.lhs_main_v1_1 _ _
    | ⟨2, _⟩ => exact (Read.lhs_main_v1_2 _ _).trans hk)
  -- the right operand is read at (batch, column, k)
  have er : dot_S8x512x16384_S8x512x16384_S8x512x512_2_2_1_1_0_0.rhsIdx j ((ValueIdx.contrEquiv1 dot_S8x512x16384_S8x512x16384_S8x512x512_2_2_1_1_0_0 16384 rfl rfl).symm k)
      = ValueIdx.ix3 (j 0 : Fin 8) (j 2 : Fin 512) k := funext fun a => Fin.ext (by
    match a with
    | ⟨0, _⟩ => exact Read.rhs_main_v1_0 _ _
    | ⟨1, _⟩ => exact Read.rhs_main_v1_1 _ _
    | ⟨2, _⟩ => exact (Read.rhs_main_v1_2 _ _).trans hk)
  rw [el, er]
  rfl

/-- the host's sum of squares along the last axis from the zero word is the squared-norm specification -/
theorem sum_eq_sumsq (x : FVec Ideal S8x512x16384 .f32) :
    Host.reduceAdd (F := Ideal) (mulf x x) (constant (F := Ideal) S_ .f32 0x00000000#32) reducesTo_S8x512x16384_S8x512_d2 h_S_ = sumsq x := by
  funext j
  simp only [Host.reduceAdd, Ideal.hostReduceAdd_def]
  rw [Ideal.hostReduceAdd_single reducesTo_S8x512x16384_S8x512_d2 (by decide)]
  unfold sumsq sumsqAt
  have h0 : (constant (F := Ideal) S_ .f32 0x00000000#32) (Shape.Idx.first h_S_) = 0 := Ideal.ofBits_zero_f32
  rw [h0, zero_add]
  refine Finset.sum_congr rfl fun k _ => ?_
  have e : (by decide : S8x512x16384.Reduces [2] S8x512).lift j k = ValueIdx.ix3 (j 0 : Fin 8) (j 1 : Fin 512) k :=
    funext fun a => Fin.ext (by match a with | ⟨0, _⟩ => rfl | ⟨1, _⟩ => rfl | ⟨2, _⟩ => rfl)
  rw [e]
  rfl

/-- the reference's result is the loss of the two reshaped arguments' Gram matrices and squared norms -/
theorem result_eq (m : (ℓ : Loc nD τ sig) → Buf (Elt Ideal) ℓ) (c : Dev nD) :
    Cert.ReferenceIdeal.Value.res_main_v26 (F := Ideal) m c
      = loss bcast_S8x512_S8x512x1_0_1 bcast_S8x512_S8x1x512_0_2 bcast_S8x512x1_S8x512x512_0_1_2 bcast_S8x1x512_S8x512x512_0_1_2 reducesTo_S8x512x512_S_d0_1_2 h_S_
          (gram (shapeCast _ (m ((c.tc : Thread nD τ).loc main_arg0)) shapeCasts_S8x512x128x128_S8x512x16384))
          (sumsq (shapeCast _ (m ((c.tc : Thread nD τ).loc main_arg0)) shapeCasts_S8x512x128x128_S8x512x16384))
          (gram (shapeCast _ (m ((c.tc : Thread nD τ).loc main_arg1)) shapeCasts_S8x512x128x128_S8x512x16384))
          (sumsq (shapeCast _ (m ((c.tc : Thread nD τ).loc main_arg1)) shapeCasts_S8x512x128x128_S8x512x16384)) := by
  unfold Cert.ReferenceIdeal.Value.res_main_v26 loss meanSq normed
  simp only [dot_eq_gram, sum_eq_sumsq]

end Cert.ReferenceIdeal.RefValue

end
-- ==== Proof.lean ====
/-
  The certificate of the channel-Gram loss kernel against its jnp reference.

  Both programs take two batches of feature maps, det and sr, each [8, 512, 128, 128], read as 8 x 512 rows of
  16384 numbers. For a batch x they form the channel Gram matrices G(b, c, d) = Σ_n x(b, c, n) · x(b, d, n) and the
  squared channel norms s(b, c) = Σ_n x(b, c, n)², divide G entrywise by sqrt s(b, c) · sqrt s(b, d), and return the
  mean over all 8·512·512 entries of the squared difference of the two normalized matrices (times one).

  The reference computes G and s by one batched product and one sum per batch. The kernel computes them in a
  pallas_call per batch tensor, on a grid of 8 x 4 points: point (b, k) adds the products of block k (4096 of the
  16384 columns) of batch b into two accumulators kept between points, zeroed at k = 0 and copied out at k = 3; the
  rounding of the block to bf16 before the product is the identity on extended reals. The epilogue after the two
  launches is, operation for operation, the reference's.

  So at exact arithmetic the two results are one function of the arguments: a sum over 16384 terms is the sum over
  four blocks of 4096 of the blocks' sums, in any commutative monoid — in particular on the extended reals, with no
  finiteness of the inputs used. The frames (each program terminates, faults nowhere, leaves its arguments as
  launched) come from running the kernel body symbolically in each of its three cases and carrying the accumulators'
  contents through the grid by an invariant; the reference's frame is its run with the result dropped. The ideal
  pass rewrote nothing, so the idealization claim is trivial.
-/
import proofs.«115151_j57501022159376_2_alg».proof.Defs
import proofs.«115151_j57501022159376_2_alg».proof.Proof.Gen.Kernel
import proofs.«115151_j57501022159376_2_alg».proof.Proof.Gen.KernelIdeal
import proofs.«115151_j57501022159376_2_alg».proof.Proof.Gen.ReferenceIdeal
import proofs.«115151_j57501022159376_2_alg».proof.Proof.Gen.ReferenceIdeal.Run
import proofs.«115151_j57501022159376_2_alg».proof.Proof.Gen.ReferenceIdeal.Read
import proofs.«115151_j57501022159376_2_alg».proof.Proof.Gen.Pre_finite_inputs
import proofs.«115151_j57501022159376_2_alg».proof.Proof.FrameKernel.Frame
import proofs.«115151_j57501022159376_2_alg».proof.Proof.FrameKernelIdeal.Frame
import proofs.«115151_j57501022159376_2_alg».proof.Proof.FrameKernelIdeal.KernelValue
import proofs.«115151_j57501022159376_2_alg».proof.Proof.RefSpec
import Idealize.ShloMosaic.Adequacy
import Idealize.ShloMosaic.Init

noncomputable section

namespace Cert.Proof

open Idealize.ShloMosaic Idealize.SL.Sem

/-- The word-level kernel program terminates, faults nowhere and leaves its arguments as launched. -/
theorem frame_kernel : Cert.frame_Kernel := fun m ρ _ => Cert.Kernel.Fr.frame m ρ

/-- So does its idealization. -/
theorem frame_kernelIdeal : Cert.frame_KernelIdeal := fun m ρ _ => Cert.KernelIdeal.Fr.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end at the loss of the two arguments. -/
theorem algebraic : Cert.algebraic_KernelIdeal_ReferenceIdeal := by
  intro m ρ m' ρ' _ hagree
  refine ⟨fun c => Cert.KernelIdeal.Fr.lossOf m c, Cert.KernelIdeal.Fr.kernel_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
